-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x128 : Shape := ⟨2, ![300000, 128]⟩
abbrev S300000x6 : Shape := ⟨2, ![300000, 6]⟩
abbrev S500000x42 : Shape := ⟨2, ![500000, 42]⟩
abbrev S300000 : Shape := ⟨1, ![300000]⟩
abbrev S500000 : Shape := ⟨1, ![500000]⟩
abbrev S6x128 : Shape := ⟨2, ![6, 128]⟩
abbrev S42x8 : Shape := ⟨2, ![42, 8]⟩
abbrev S128x128 : Shape := ⟨2, ![128, 128]⟩
abbrev S128 : Shape := ⟨1, ![128]⟩
abbrev S128x8x128 : Shape := ⟨3, ![128, 8, 128]⟩
abbrev S2x6x128 : Shape := ⟨3, ![2, 6, 128]⟩
abbrev S2x3x128x128 : Shape := ⟨4, ![2, 3, 128, 128]⟩
abbrev S2x3x128 : Shape := ⟨3, ![2, 3, 128]⟩
abbrev S2x128x128 : Shape := ⟨3, ![2, 128, 128]⟩
abbrev S_ : Shape := ⟨0, ![]⟩

class Facts : Prop where
  bcast_S_S300000x128 : S_.BroadcastsInDim S300000x128 (![] : Fin 0 → Fin S300000x128.rank)
  reducesTo_S300000x128_S_d0_1 : S300000x128.ReducesTo [0, 1] S_
  h_S_ : 0 < S_.numel
  bcast_S_S300000x6 : S_.BroadcastsInDim S300000x6 (![] : Fin 0 → Fin S300000x6.rank)
  reducesTo_S300000x6_S_d0_1 : S300000x6.ReducesTo [0, 1] S_
  bcast_S_S500000x42 : S_.BroadcastsInDim S500000x42 (![] : Fin 0 → Fin S500000x42.rank)
  reducesTo_S500000x42_S_d0_1 : S500000x42.ReducesTo [0, 1] S_
  bcast_S_S6x128 : S_.BroadcastsInDim S6x128 (![] : Fin 0 → Fin S6x128.rank)
  reducesTo_S6x128_S_d0_1 : S6x128.ReducesTo [0, 1] S_
  bcast_S_S42x8 : S_.BroadcastsInDim S42x8 (![] : Fin 0 → Fin S42x8.rank)
  reducesTo_S42x8_S_d0_1 : S42x8.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8x128 : S_.BroadcastsInDim S128x8x128 (![] : Fin 0 → Fin S128x8x128.rank)
  reducesTo_S128x8x128_S_d0_1_2 : S128x8x128.ReducesTo [0, 1, 2] S_
  bcast_S_S2x6x128 : S_.BroadcastsInDim S2x6x128 (![] : Fin 0 → Fin S2x6x128.rank)
  reducesTo_S2x6x128_S_d0_1_2 : S2x6x128.ReducesTo [0, 1, 2] S_
  bcast_S_S2x3x128x128 : S_.BroadcastsInDim S2x3x128x128 (![] : Fin 0 → Fin S2x3x128x128.rank)
  reducesTo_S2x3x128x128_S_d0_1_2_3 : S2x3x128x128.ReducesTo [0, 1, 2, 3] S_
  bcast_S_S2x3x128 : S_.BroadcastsInDim S2x3x128 (![] : Fin 0 → Fin S2x3x128.rank)
  reducesTo_S2x3x128_S_d0_1_2 : S2x3x128.ReducesTo [0, 1, 2] S_
  bcast_S_S2x128x128 : S_.BroadcastsInDim S2x128x128 (![] : Fin 0 → Fin S2x128x128.rank)
  reducesTo_S2x128x128_S_d0_1_2 : S2x128x128.ReducesTo [0, 1, 2] S_

variable [Facts]

def fn_part4 {F : FTy → Type} [FloatOps F] (main_arg17 : FVec F S2x3x128 .f32) (main_arg18 : FVec F S2x128x128 .f32) (main_v63 : IVec S_ 1) (main_v67 : IVec S_ 1) : IVec S_ 1 :=
  let main_v68 : IVec S_ 1 := andi main_v63 main_v67
  let main_v69 : FVec F S2x3x128 .f32 := Host.absf main_arg17
  let main_cst_26 : FVec F S_ .f32 := constant S_ .f32 0x7F800000#32
  let main_v70 : FVec F S2x3x128 .f32 := broadcastInDim S2x3x128 ![] bcast_S_S2x3x128 main_cst_26
  let main_v71 : IVec S2x3x128 1 := cmpf .olt main_v69 main_v70
  let main_c_27 : IVec S_ 1 := constantI S_ 1 1#1
  let main_v72 : IVec S_ 1 := (fun x v => Host.reduce IntOp.andi x v reducesTo_S2x3x128_S_d0_1_2 h_S_) main_v71 main_c_27
  let main_v73 : IVec S_ 1 := andi main_v68 main_v72
  let main_v74 : FVec F S2x128x128 .f32 := Host.absf main_arg18
  let main_cst_28 : FVec F S_ .f32 := constant S_ .f32 0x7F800000#32
  let main_v75 : FVec F S2x128x128 .f32 := broadcastInDim S2x128x128 ![] bcast_S_S2x128x128 main_cst_28
  let main_v76 : IVec S2x128x128 1 := cmpf .olt main_v74 main_v75
  let main_c_29 : IVec S_ 1 := constantI S_ 1 1#1
  let main_v77 : IVec S_ 1 := (fun x v => Host.reduce IntOp.andi x v reducesTo_S2x128x128_S_d0_1_2 h_S_) main_v76 main_c_29
  let main_v78 : IVec S_ 1 := andi main_v73 main_v77
  main_v78

def fn_part3 {F : FTy → Type} [FloatOps F] (main_arg14 : FVec F S128 .f32) (main_arg15 : FVec F S2x6x128 .f32) (main_arg16 : FVec F S2x3x128x128 .f32) (main_arg17 : FVec F S2x3x128 .f32) (main_arg18 : FVec F S2x128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S2x6x128 .f32 := Host.absf main_arg15
  let main_cst_22 : FVec F S_ .f32 := constant S_ .f32 0x7F800000#32
  let main_v60 : FVec F S2x6x128 .f32 := broadcastInDim S2x6x128 ![] bcast_S_S2x6x128 main_cst_22
  let main_v61 : IVec S2x6x128 1 := cmpf .olt main_v59 main_v60
  let main_c_23 : IVec S_ 1 := constantI S_ 1 1#1
  let main_v62 : IVec S_ 1 := (fun x v => Host.reduce IntOp.andi x v reducesTo_S2x6x128_S_d0_1_2 h_S_) main_v61 main_c_23
  let main_v63 : IVec S_ 1 := andi main_v58 main_v62
  let main_v64 : FVec F S2x3x128x128 .f32 := Host.absf main_arg16
  let main_cst_24 : FVec F S_ .f32 := constant S_ .f32 0x7F800000#32
  let main_v65 : FVec F S2x3x128x128 .f32 := broadcastInDim S2x3x128x128 ![] bcast_S_S2x3x128x128 main_cst_24
  let main_v66 : IVec S2x3x128x128 1 := cmpf .olt main_v64 main_v65
  let main_c_25 : IVec S_ 1 := constantI S_ 1 1#1
  let main_v67 : IVec S_ 1 := (fun x v => Host.reduce IntOp.andi x v reducesTo_S2x3x128x128_S_d0_1_2_3 h_S_) main_v66 main_c_25
  fn_part4 (F := F) main_arg17 main_arg18 main_v63 main_v67

def fn_part2 {F : FTy → Type} [FloatOps F] (main_arg10 : FVec F S128x128 .f32) (main_arg11 : FVec F S128 .f32) (main_arg12 : FVec F S128x8x128 .f32) (main_arg13 : FVec F S128x128 .f32) (main_arg14 : FVec F S128 .f32) (main_arg15 : FVec F S2x6x128 .f32) (main_arg16 : FVec F S2x3x128x128 .f32) (main_arg17 : FVec F S2x3x128 .f32) (main_arg18 : FVec F S2x128x128 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x8x128 .f32 := Host.absf main_arg12
  let main_cst_16 : FVec F S_ .f32 := constant S_ .f32 0x7F800000#32
  let main_v45 : FVec F S128x8x128 .f32 := broadcastInDim S128x8x128 ![] bcast_S_S128x8x128 main_cst_16
  let main_v46 : IVec S128x8x128 1 := cmpf .olt main_v44 main_v45
  let main_c_17 : IVec S_ 1 := constantI S_ 1 1#1
  let main_v47 : IVec S_ 1 := (fun x v => Host.reduce IntOp.andi x v reducesTo_S128x8x128_S_d0_1_2 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_arg16 main_arg17 main_arg18 main_v48 main_v49 main_v50

def fn_part1 {F : FTy → Type} [FloatOps F] (main_arg7 : FVec F S42x8 .f32) (main_arg8 : FVec F S128x128 .f32) (main_arg9 : FVec F S128 .f32) (main_arg10 : FVec F S128x128 .f32) (main_arg11 : FVec F S128 .f32) (main_arg12 : FVec F S128x8x128 .f32) (main_arg13 : FVec F S128x128 .f32) (main_arg14 : FVec F S128 .f32) (main_arg15 : FVec F S2x6x128 .f32) (main_arg16 : FVec F S2x3x128x128 .f32) (main_arg17 : FVec F S2x3x128 .f32) (main_arg18 : FVec F S2x128x128 .f32) (main_v13 : IVec S_ 1) (main_v16 : IVec S6x128 1) : IVec S_ 1 :=
  let main_c_5 : IVec S_ 1 := constantI S_ 1 1#1
  let main_v17 : IVec S_ 1 := (fun x v => Host.reduce IntOp.andi x v reducesTo_S6x128_S_d0_1 h_S_) main_v16 main_c_5
  let main_v18 : IVec S_ 1 := andi main_v13 main_v17
  let main_v19 : FVec F S42x8 .f32 := Host.absf main_arg7
  let main_cst_6 : FVec F S_ .f32 := constant S_ .f32 0x7F800000#32
  let main_v20 : FVec F S42x8 .f32 := broadcastInDim S42x8 ![] bcast_S_S42x8 main_cst_6
  let main_v21 : IVec S42x8 1 := cmpf .olt main_v19 main_v20
  let main_c_7 : IVec S_ 1 := constantI S_ 1 1#1
  let main_v22 : IVec S_ 1 := (fun x v => Host.reduce IntOp.andi x v reducesTo_S42x8_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_v33

def fn {F : FTy → Type} [FloatOps F] (main_arg0 : FVec F S300000x128 .f32) (main_arg1 : FVec F S300000x6 .f32) (main_arg2 : FVec F S500000x42 .f32) (main_arg3 : IVec S300000 32) (main_arg4 : IVec S500000 32) (main_arg5 : IVec S500000 32) (main_arg6 : FVec F S6x128 .f32) (main_arg7 : FVec F S42x8 .f32) (main_arg8 : FVec F S128x128 .f32) (main_arg9 : FVec F S128 .f32) (main_arg10 : FVec F S128x128 .f32) (main_arg11 : FVec F S128 .f32) (main_arg12 : FVec F S128x8x128 .f32) (main_arg13 : FVec F S128x128 .f32) (main_arg14 : FVec F S128 .f32) (main_arg15 : FVec F S2x6x128 .f32) (main_arg16 : FVec F S2x3x128x128 .f32) (main_arg17 : FVec F S2x3x128 .f32) (main_arg18 : FVec F S2x128x128 .f32) : IVec S_ 1 :=
  let main_v0 : FVec F S300000x128 .f32 := Host.absf main_arg0
  let main_cst : FVec F S_ .f32 := constant S_ .f32 0x7F800000#32
  let main_v1 : FVec F S300000x128 .f32 := broadcastInDim S300000x128 ![] bcast_S_S300000x128 main_cst
  let main_v2 : IVec S300000x128 1 := cmpf .olt main_v0 main_v1
  let main_c : IVec S_ 1 := constantI S_ 1 1#1
  let main_v3 : IVec S_ 1 := (fun x v => Host.reduce IntOp.andi x v reducesTo_S300000x128_S_d0_1 h_S_) main_v2 main_c
  let main_v4 : FVec F S300000x6 .f32 := Host.absf main_arg1
  let main_cst_0 : FVec F S_ .f32 := constant S_ .f32 0x7F800000#32
  let main_v5 : FVec F S300000x6 .f32 := broadcastInDim S300000x6 ![] bcast_S_S300000x6 main_cst_0
  let main_v6 : IVec S300000x6 1 := cmpf .olt main_v4 main_v5
  let main_c_1 : IVec S_ 1 := constantI S_ 1 1#1
  let main_v7 : IVec S_ 1 := (fun x v => Host.reduce IntOp.andi x v reducesTo_S300000x6_S_d0_1 h_S_) main_v6 main_c_1
  let main_v8 : IVec S_ 1 := andi main_v3 main_v7
  let main_v9 : FVec F S500000x42 .f32 := Host.absf main_arg2
  let main_cst_2 : FVec F S_ .f32 := constant S_ .f32 0x7F800000#32
  let main_v10 : FVec F S500000x42 .f32 := broadcastInDim S500000x42 ![] bcast_S_S500000x42 main_cst_2
  let main_v11 : IVec S500000x42 1 := cmpf .olt main_v9 main_v10
  let main_c_3 : IVec S_ 1 := constantI S_ 1 1#1
  let main_v12 : IVec S_ 1 := (fun x v => Host.reduce IntOp.andi x v reducesTo_S500000x42_S_d0_1 h_S_) main_v11 main_c_3
  let main_v13 : IVec S_ 1 := andi main_v8 main_v12
  let main_v14 : FVec F S6x128 .f32 := Host.absf main_arg6
  let main_cst_4 : FVec F S_ .f32 := constant S_ .f32 0x7F800000#32
  let main_v15 : FVec F S6x128 .f32 := broadcastInDim S6x128 ![] bcast_S_S6x128 main_cst_4
  let main_v16 : IVec S6x128 1 := cmpf .olt main_v14 main_v15
  fn_part1 (F := F) main_arg7 main_arg8 main_arg9 main_arg10 main_arg11 main_arg12 main_arg13 main_arg14 main_arg15 main_arg16 main_arg17 main_arg18 main_v13 main_v16
-- ==== Kernel.lean ====
abbrev S300000x128 : Shape := ⟨2, ![300000, 128]⟩
abbrev S300000x6 : Shape := ⟨2, ![300000, 6]⟩
abbrev S500000x42 : Shape := ⟨2, ![500000, 42]⟩
abbrev S300000 : Shape := ⟨1, ![300000]⟩
abbrev S500000 : Shape := ⟨1, ![500000]⟩
abbrev S6x128 : Shape := ⟨2, ![6, 128]⟩
abbrev S42x8 : Shape := ⟨2, ![42, 8]⟩
abbrev S128x128 : Shape := ⟨2, ![128, 128]⟩
abbrev S128 : Shape := ⟨1, ![128]⟩
abbrev S128x8x128 : Shape := ⟨3, ![128, 8, 128]⟩
abbrev S2x6x128 : Shape := ⟨3, ![2, 6, 128]⟩
abbrev S2x3x128x128 : Shape := ⟨4, ![2, 3, 128, 128]⟩
abbrev S2x3x128 : Shape := ⟨3, ![2, 3, 128]⟩
abbrev S2x128x128 : Shape := ⟨3, ![2, 128, 128]⟩
abbrev S1x128 : Shape := ⟨2, ![1, 128]⟩
abbrev S6000x128 : Shape := ⟨2, ![6000, 128]⟩
abbrev S6000x6 : Shape := ⟨2, ![6000, 6]⟩
abbrev S1x6x128 : Shape := ⟨3, ![1, 6, 128]⟩
abbrev S_ : Shape := ⟨0, ![]⟩
abbrev S20000x128 : Shape := ⟨2, ![20000, 128]⟩
abbrev S300000x1 : Shape := ⟨2, ![300000, 1]⟩
abbrev S1x3x128x128 : Shape := ⟨4, ![1, 3, 128, 128]⟩
abbrev S3x128x128 : Shape := ⟨3, ![3, 128, 128]⟩
abbrev S1x3x128 : Shape := ⟨3, ![1, 3, 128]⟩
abbrev S3x128 : Shape := ⟨2, ![3, 128]⟩
abbrev S1x128x128 : Shape := ⟨3, ![1, 128, 128]⟩
abbrev S3x1x128 : Shape := ⟨3, ![3, 1, 128]⟩
abbrev S4000x128 : Shape := ⟨2, ![4000, 128]⟩
abbrev S1x1x128 : Shape := ⟨3, ![1, 1, 128]⟩
abbrev S500000x1 : Shape := ⟨2, ![500000, 1]⟩
abbrev S500000x128 : Shape := ⟨2, ![500000, 128]⟩
abbrev S8x128x128 : Shape := ⟨3, ![8, 128, 128]⟩
abbrev S10000x128 : Shape := ⟨2, ![10000, 128]⟩
abbrev S10000x42 : Shape := ⟨2, ![10000, 42]⟩
abbrev S10000x8 : Shape := ⟨2, ![10000, 8]⟩
abbrev S10000x1 : Shape := ⟨2, ![10000, 1]⟩

abbrev nBuf : Space → Nat
  | .hbm => 73
  | .vmem => 57
  | .smem => 0
  | _ => 0

abbrev bufTy : (tb : Table) → Fin (tcTables nBuf tb) → BufTy
  | .hbm, ⟨0, _⟩ => ⟨S300000x128, .f32⟩
  | .hbm, ⟨1, _⟩ => ⟨S300000x6, .f32⟩
  | .hbm, ⟨2, _⟩ => ⟨S500000x42, .f32⟩
  | .hbm, ⟨3, _⟩ => ⟨S300000, .i32⟩
  | .hbm, ⟨4, _⟩ => ⟨S500000, .i32⟩
  | .hbm, ⟨5, _⟩ => ⟨S500000, .i32⟩
  | .hbm, ⟨6, _⟩ => ⟨S6x128, .f32⟩
  | .hbm, ⟨7, _⟩ => ⟨S42x8, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x8x128, .f32⟩
  | .hbm, ⟨13, _⟩ => ⟨S128x128, .f32⟩
  | .hbm, ⟨14, _⟩ => ⟨S128, .f32⟩
  | .hbm, ⟨15, _⟩ => ⟨S2x6x128, .f32⟩
  | .hbm, ⟨16, _⟩ => ⟨S2x3x128x128, .f32⟩
  | .hbm, ⟨17, _⟩ => ⟨S2x3x128, .f32⟩
  | .hbm, ⟨18, _⟩ => ⟨S2x128x128, .f32⟩
  | .hbm, ⟨19, _⟩ => ⟨S1x128, .f32⟩
  | .hbm, ⟨20, _⟩ => ⟨S1x128, .f32⟩
  | .hbm, ⟨21, _⟩ => ⟨S300000x128, .f32⟩
  | .hbm, ⟨22, _⟩ => ⟨S300000x128, .f32⟩
  | .hbm, ⟨23, _⟩ => ⟨S1x6x128, .f32⟩
  | .hbm, ⟨24, _⟩ => ⟨S6x128, .f32⟩
  | .hbm, ⟨25, _⟩ => ⟨S300000x128, .f32⟩
  | .hbm, ⟨26, _⟩ => ⟨S_, .f32⟩
  | .hbm, ⟨27, _⟩ => ⟨S20000x128, .f32⟩
  | .hbm, ⟨28, _⟩ => ⟨S300000x1, .i32⟩
  | .hbm, ⟨29, _⟩ => ⟨S20000x128, .f32⟩
  | .hbm, ⟨30, _⟩ => ⟨S1x3x128x128, .f32⟩
  | .hbm, ⟨31, _⟩ => ⟨S3x128x128, .f32⟩
  | .hbm, ⟨32, _⟩ => ⟨S1x3x128, .f32⟩
  | .hbm, ⟨33, _⟩ => ⟨S3x128, .f32⟩
  | .hbm, ⟨34, _⟩ => ⟨S1x128x128, .f32⟩
  | .hbm, ⟨35, _⟩ => ⟨S128x128, .f32⟩
  | .hbm, ⟨36, _⟩ => ⟨S3x1x128, .f32⟩
  | .hbm, ⟨37, _⟩ => ⟨S20000x128, .f32⟩
  | .hbm, ⟨38, _⟩ => ⟨S_, .i32⟩
  | .hbm, ⟨39, _⟩ => ⟨S500000, .i32⟩
  | .hbm, ⟨40, _⟩ => ⟨S500000, .i1⟩
  | .hbm, ⟨41, _⟩ => ⟨S_, .i32⟩
  | .hbm, ⟨42, _⟩ => ⟨S500000, .i32⟩
  | .hbm, ⟨43, _⟩ => ⟨S500000, .i32⟩
  | .hbm, ⟨44, _⟩ => ⟨S500000, .i32⟩
  | .hbm, ⟨45, _⟩ => ⟨S500000x1, .i32⟩
  | .hbm, ⟨46, _⟩ => ⟨S500000x128, .f32⟩
  | .hbm, ⟨47, _⟩ => ⟨S8x128x128, .f32⟩
  | .hbm, ⟨48, _⟩ => ⟨S500000x128, .f32⟩
  | .hbm, ⟨49, _⟩ => ⟨S_, .f32⟩
  | .hbm, ⟨50, _⟩ => ⟨S300000x128, .f32⟩
  | .hbm, ⟨51, _⟩ => ⟨S500000x1, .i32⟩
  | .hbm, ⟨52, _⟩ => ⟨S300000x128, .f32⟩
  | .hbm, ⟨53, _⟩ => ⟨S1x128, .f32⟩
  | .hbm, ⟨54, _⟩ => ⟨S300000x128, .f32⟩
  | .hbm, ⟨55, _⟩ => ⟨S1x6x128, .f32⟩
  | .hbm, ⟨56, _⟩ => ⟨S6x128, .f32⟩
  | .hbm, ⟨57, _⟩ => ⟨S300000x128, .f32⟩
  | .hbm, ⟨58, _⟩ => ⟨S_, .f32⟩
  | .hbm, ⟨59, _⟩ => ⟨S20000x128, .f32⟩
  | .hbm, ⟨60, _⟩ => ⟨S300000x1, .i32⟩
  | .hbm, ⟨61, _⟩ => ⟨S20000x128, .f32⟩
  | .hbm, ⟨62, _⟩ => ⟨S1x3x128x128, .f32⟩
  | .hbm, ⟨63, _⟩ => ⟨S3x128x128, .f32⟩
  | .hbm, ⟨64, _⟩ => ⟨S1x3x128, .f32⟩
  | .hbm, ⟨65, _⟩ => ⟨S3x128, .f32⟩
  | .hbm, ⟨66, _⟩ => ⟨S1x128x128, .f32⟩
  | .hbm, ⟨67, _⟩ => ⟨S128x128, .f32⟩
  | .hbm, ⟨68, _⟩ => ⟨S3x1x128, .f32⟩
  | .hbm, ⟨69, _⟩ => ⟨S20000x128, .f32⟩
  | .hbm, ⟨70, _⟩ => ⟨S20000x128, .f32⟩
  | .hbm, ⟨71, _⟩ => ⟨S_, .f32⟩
  | .hbm, ⟨72, _⟩ => ⟨S128, .f32⟩
  | .local _ .vmem, ⟨0, _⟩ => ⟨S6000x128, .f32⟩
  | .local _ .vmem, ⟨1, _⟩ => ⟨S6000x128, .f32⟩
  | .local _ .vmem, ⟨2, _⟩ => ⟨S6000x6, .f32⟩
  | .local _ .vmem, ⟨3, _⟩ => ⟨S6000x6, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S6x128, .f32⟩
  | .local _ .vmem, ⟨9, _⟩ => ⟨S6000x128, .f32⟩
  | .local _ .vmem, ⟨10, _⟩ => ⟨S6000x128, .f32⟩
  | .local _ .vmem, ⟨11, _⟩ => ⟨S6000x128, .f32⟩
  | .local _ .vmem, ⟨12, _⟩ => ⟨S6000x128, .f32⟩
  | .local _ .vmem, ⟨13, _⟩ => ⟨S6000x128, .f32⟩
  | .local _ .vmem, ⟨14, _⟩ => ⟨S6000x128, .f32⟩
  | .local _ .vmem, ⟨15, _⟩ => ⟨S6000x6, .f32⟩
  | .local _ .vmem, ⟨16, _⟩ => ⟨S6000x6, .f32⟩
  | .local _ .vmem, ⟨17, _⟩ => ⟨S6x128, .f32⟩
  | .local _ .vmem, ⟨18, _⟩ => ⟨S6000x128, .f32⟩
  | .local _ .vmem, ⟨19, _⟩ => ⟨S6000x128, .f32⟩
  | .local _ .vmem, ⟨20, _⟩ => ⟨S4000x128, .f32⟩
  | .local _ .vmem, ⟨21, _⟩ => ⟨S4000x128, .f32⟩
  | .local _ .vmem, ⟨22, _⟩ => ⟨S3x128x128, .f32⟩
  | .local _ .vmem, ⟨23, _⟩ => ⟨S3x1x128, .f32⟩
  | .local _ .vmem, ⟨24, _⟩ => ⟨S128x128, .f32⟩
  | .local _ .vmem, ⟨25, _⟩ => ⟨S4000x128, .f32⟩
  | .local _ .vmem, ⟨26, _⟩ => ⟨S4000x128, .f32⟩
  | .local _ .vmem, ⟨27, _⟩ => ⟨S10000x128, .f32⟩
  | .local _ .vmem, ⟨28, _⟩ => ⟨S10000x128, .f32⟩
  | .local _ .vmem, ⟨29, _⟩ => ⟨S10000x42, .f32⟩
  | .local _ .vmem, ⟨30, _⟩ => ⟨S10000x42, .f32⟩
  | .local _ .vmem, ⟨31, _⟩ => ⟨S42x8, .f32⟩
  | .local _ .vmem, ⟨32, _⟩ => ⟨S8x128x128, .f32⟩
  | .local _ .vmem, ⟨33, _⟩ => ⟨S10000x128, .f32⟩
  | .local _ .vmem, ⟨34, _⟩ => ⟨S10000x128, .f32⟩
  | .local _ .vmem, ⟨35, _⟩ => ⟨S6000x128, .f32⟩
  | .local _ .vmem, ⟨36, _⟩ => ⟨S6000x128, .f32⟩
  | .local _ .vmem, ⟨37, _⟩ => ⟨S6000x128, .f32⟩
  | .local _ .vmem, ⟨38, _⟩ => ⟨S6000x128, .f32⟩
  | .local _ .vmem, ⟨39, _⟩ => ⟨S128x128, .f32⟩
  | .local _ .vmem, ⟨40, _⟩ => ⟨S1x128, .f32⟩
  | .local _ .vmem, ⟨41, _⟩ => ⟨S6000x128, .f32⟩
  | .local _ .vmem, ⟨42, _⟩ => ⟨S6000x128, .f32⟩
  | .local _ .vmem, ⟨43, _⟩ => ⟨S6000x128, .f32⟩
  | .local _ .vmem, ⟨44, _⟩ => ⟨S6000x128, .f32⟩
  | .local _ .vmem, ⟨45, _⟩ => ⟨S6000x6, .f32⟩
  | .local _ .vmem, ⟨46, _⟩ => ⟨S6000x6, .f32⟩
  | .local _ .vmem, ⟨47, _⟩ => ⟨S6x128, .f32⟩
  | .local _ .vmem, ⟨48, _⟩ => ⟨S6000x128, .f32⟩
  | .local _ .vmem, ⟨49, _⟩ => ⟨S6000x128, .f32⟩
  | .local _ .vmem, ⟨50, _⟩ => ⟨S4000x128, .f32⟩
  | .local _ .vmem, ⟨51, _⟩ => ⟨S4000x128, .f32⟩
  | .local _ .vmem, ⟨52, _⟩ => ⟨S3x128x128, .f32⟩
  | .local _ .vmem, ⟨53, _⟩ => ⟨S3x1x128, .f32⟩
  | .local _ .vmem, ⟨54, _⟩ => ⟨S128x128, .f32⟩
  | .local _ .vmem, ⟨55, _⟩ => ⟨S4000x128, .f32⟩
  | .local _ .vmem, ⟨56, _⟩ => ⟨S4000x128, .f32⟩
  | _, _ => ⟨S300000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2_0 : Ref sig .tc := ⟨.hbm, 21, rfl⟩
abbrev main_v2_1 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_1 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_2 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_3 : Ref sig .tc := ⟨.hbm, 71, rfl⟩
abbrev main_v46 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg4_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg4_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg4_0 : Ref sig .tc := ⟨.vmem, 55, rfl⟩
abbrev cc6_stg4_1 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem4_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem3_0 : DmaSem sig := 40
abbrev cc4_sem4_0 : DmaSem sig := 41
abbrev cc4_sem4_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem3_0 : DmaSem sig := 48
abbrev cc5_sem3_1 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem3_0 : DmaSem sig := 54
abbrev cc6_sem4_0 : DmaSem sig := 55
abbrev cc6_sem4_1 : DmaSem sig := 56

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S6000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x6 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S6x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S6000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S3x1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x42 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S42x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S8x128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S6000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S6000x6 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S6x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S6000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S3x128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S3x1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S4000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  shapeCasts_S128_S1x128 : S128.ShapeCasts S1x128
  inb_S6000x128_S6000x128_0_0 : ∀ a, (![0, 0] : Fin 2 → Nat) a + S6000x128.size a ≤ S6000x128.size a
  h_S6000x128 : 0 < S6000x128.numel
  bitsLt_bf16_f32 : FTy.bits .bf16 < FTy.bits .f32
  inb_S6000x6_S6000x6_0_0 : ∀ a, (![0, 0] : Fin 2 → Nat) a + S6000x6.size a ≤ S6000x6.size a
  h_S6000x6 : 0 < S6000x6.numel
  inb_S128x128_S128x128_0_0 : ∀ a, (![0, 0] : Fin 2 → Nat) a + S128x128.size a ≤ S128x128.size a
  h_S128x128 : 0 < S128x128.numel
  inb_S6x128_S6x128_0_0 : ∀ a, (![0, 0] : Fin 2 → Nat) a + S6x128.size a ≤ S6x128.size a
  h_S6x128 : 0 < S6x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  slices_S2x6x128_S1x6x128_0_0_0 : S2x6x128.Slices ![0, 0, 0] S1x6x128
  shapeCasts_S1x6x128_S6x128 : S1x6x128.ShapeCasts S6x128
  shapeCasts_S6x128_S6x128 : S6x128.ShapeCasts S6x128
  bcast_S_S20000x128 : S_.BroadcastsInDim S20000x128 (![] : Fin 0 → Fin S20000x128.rank)
  bcast_S300000_S300000x1_0 : S300000.BroadcastsInDim S300000x1 (![0] : Fin 1 → Fin S300000x1.rank)
  slices_S2x3x128x128_S1x3x128x128_0_0_0_0 : S2x3x128x128.Slices ![0, 0, 0, 0] S1x3x128x128
  shapeCasts_S1x3x128x128_S3x128x128 : S1x3x128x128.ShapeCasts S3x128x128
  slices_S2x3x128_S1x3x128_0_0_0 : S2x3x128.Slices ![0, 0, 0] S1x3x128
  shapeCasts_S1x3x128_S3x128 : S1x3x128.ShapeCasts S3x128
  slices_S2x128x128_S1x128x128_0_0_0 : S2x128x128.Slices ![0, 0, 0] S1x128x128
  shapeCasts_S1x128x128_S128x128 : S1x128x128.ShapeCasts S128x128
  shapeCasts_S3x128_S3x1x128 : S3x128.ShapeCasts S3x1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S3x128x128_S1x128x128_0_0_0 : ∀ a, (![0, 0, 0] : Fin 3 → Nat) a + S1x128x128.size a ≤ S3x128x128.size a
  h_S1x128x128 : 0 < S1x128x128.numel
  inb_S3x1x128_S1x1x128_0_0_0 : ∀ a, (![0, 0, 0] : Fin 3 → Nat) a + S1x1x128.size a ≤ S3x1x128.size a
  h_S1x1x128 : 0 < S1x1x128.numel
  shapeCasts_S1x1x128_S1x128 : S1x1x128.ShapeCasts S1x128
  broadcasts_S1x128_S4000x128 : S1x128.Broadcasts S4000x128
  inb_S3x128x128_S1x128x128_1_0_0 : ∀ a, (![1, 0, 0] : Fin 3 → Nat) a + S1x128x128.size a ≤ S3x128x128.size a
  inb_S3x1x128_S1x1x128_1_0_0 : ∀ a, (![1, 0, 0] : Fin 3 → Nat) a + S1x1x128.size a ≤ S3x1x128.size a
  inb_S3x128x128_S1x128x128_2_0_0 : ∀ a, (![2, 0, 0] : Fin 3 → Nat) a + S1x128x128.size a ≤ S3x128x128.size a
  inb_S3x1x128_S1x1x128_2_0_0 : ∀ a, (![2, 0, 0] : Fin 3 → Nat) a + S1x1x128.size a ≤ S3x1x128.size a
  shapeCasts_S128x128_S128x128 : S128x128.ShapeCasts S128x128
  bcast_S_S500000 : S_.BroadcastsInDim S500000 (![] : Fin 0 → Fin S500000.rank)
  bcast_S500000_S500000x1_0 : S500000.BroadcastsInDim S500000x1 (![0] : Fin 1 → Fin S500000x1.rank)
  transposes_S128x8x128_S8x128x128_1_2_0 : S128x8x128.Transposes [1, 2, 0] S8x128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x42_S10000x42_0_0 : ∀ a, (![0, 0] : Fin 2 → Nat) a + S10000x42.size a ≤ S10000x42.size a
  h_S10000x42 : 0 < S10000x42.numel
  inb_S42x8_S42x8_0_0 : ∀ a, (![0, 0] : Fin 2 → Nat) a + S42x8.size a ≤ S42x8.size a
  h_S42x8 : 0 < S42x8.numel
  inb_S8x128x128_S1x128x128_0_0_0 : ∀ a, (![0, 0, 0] : Fin 3 → Nat) a + S1x128x128.size a ≤ S8x128x128.size a
  slices_S10000x8_o0_0_S10000x1 : S10000x8.Slices ![0, 0] S10000x1
  broadcasts_S10000x1_S10000x128 : S10000x1.Broadcasts S10000x128
  inb_S8x128x128_S1x128x128_1_0_0 : ∀ a, (![1, 0, 0] : Fin 3 → Nat) a + S1x128x128.size a ≤ S8x128x128.size a
  slices_S10000x8_o0_1_S10000x1 : S10000x8.Slices ![0, 1] S10000x1
  inb_S8x128x128_S1x128x128_2_0_0 : ∀ a, (![2, 0, 0] : Fin 3 → Nat) a + S1x128x128.size a ≤ S8x128x128.size a
  slices_S10000x8_o0_2_S10000x1 : S10000x8.Slices ![0, 2] S10000x1
  inb_S8x128x128_S1x128x128_3_0_0 : ∀ a, (![3, 0, 0] : Fin 3 → Nat) a + S1x128x128.size a ≤ S8x128x128.size a
  slices_S10000x8_o0_3_S10000x1 : S10000x8.Slices ![0, 3] S10000x1
  inb_S8x128x128_S1x128x128_4_0_0 : ∀ a, (![4, 0, 0] : Fin 3 → Nat) a + S1x128x128.size a ≤ S8x128x128.size a
  slices_S10000x8_o0_4_S10000x1 : S10000x8.Slices ![0, 4] S10000x1
  inb_S8x128x128_S1x128x128_5_0_0 : ∀ a, (![5, 0, 0] : Fin 3 → Nat) a + S1x128x128.size a ≤ S8x128x128.size a
  slices_S10000x8_o0_5_S10000x1 : S10000x8.Slices ![0, 5] S10000x1
  inb_S8x128x128_S1x128x128_6_0_0 : ∀ a, (![6, 0, 0] : Fin 3 → Nat) a + S1x128x128.size a ≤ S8x128x128.size a
  slices_S10000x8_o0_6_S10000x1 : S10000x8.Slices ![0, 6] S10000x1
  inb_S8x128x128_S1x128x128_7_0_0 : ∀ a, (![7, 0, 0] : Fin 3 → Nat) a + S1x128x128.size a ≤ S8x128x128.size a
  slices_S10000x8_o0_7_S10000x1 : S10000x8.Slices ![0, 7] S10000x1
  bcast_S_S300000x128 : S_.BroadcastsInDim S300000x128 (![] : Fin 0 → Fin S300000x128.rank)
  shapeCasts_S6000x128_S6000x128 : S6000x128.ShapeCasts S6000x128
  slices_S2x6x128_S1x6x128_1_0_0 : S2x6x128.Slices ![1, 0, 0] S1x6x128
  slices_S2x3x128x128_S1x3x128x128_1_0_0_0 : S2x3x128x128.Slices ![1, 0, 0, 0] S1x3x128x128
  slices_S2x3x128_S1x3x128_1_0_0 : S2x3x128.Slices ![1, 0, 0] S1x3x128
  slices_S2x128x128_S1x128x128_1_0_0 : S2x128x128.Slices ![1, 0, 0] S1x128x128
  reducesTo_S20000x128_S128_d0 : S20000x128.ReducesTo [0] S128
  h_S_ : 0 < S_.numel
  dot_S6000x128_S128x128_S6000x128_1_0_0_1_n_n_wf : DotDims.WF S6000x128 S128x128 S6000x128 [1] [0] [0] [1] [] []
  dot_S6000x6_S6x128_S6000x128_1_0_0_1_n_n_wf : DotDims.WF S6000x6 S6x128 S6000x128 [1] [0] [0] [1] [] []
  scatter_S20000x128_S300000x1_S300000x128_1_0_0_1_wf : ScatterDims.WF S20000x128 S300000x1 S300000x128 [1] [0] [0] 1
  dot_S4000x128_S128x128_S4000x128_1_0_0_1_n_n_wf : DotDims.WF S4000x128 S128x128 S4000x128 [1] [0] [0] [1] [] []
  gather_S300000x128_S500000x1_S500000x128_1_0_n_n_0_1_1128_wf : GatherDims.WF S300000x128 S500000x1 S500000x128 [1] [0] [] [0] [] 1 ![1, 128]
  dot_S10000x42_S42x8_S10000x8_1_0_0_1_n_n_wf : DotDims.WF S10000x42 S42x8 S10000x8 [1] [0] [0] [1] [] []
  dot_S10000x128_S128x128_S10000x128_1_0_0_1_n_n_wf : DotDims.WF S10000x128 S128x128 S10000x128 [1] [0] [0] [1] [] []
  scatter_S300000x128_S500000x1_S500000x128_1_0_0_1_wf : ScatterDims.WF S300000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S300000x128.size a
  hwx0_0 : ∀ i : grid0.Coords, EltTy.bits .f32 = 32 ∨ (Rect.block (s := S300000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x6.size a ≤ S300000x6.size a
  hwx0_1 : ∀ i : grid0.Coords, EltTy.bits .f32 = 32 ∨ (Rect.block (s := S300000x6) S6000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6x128.size a ≤ S6x128.size a
  hwx0_6 : ∀ i : grid0.Coords, EltTy.bits .f32 = 32 ∨ (Rect.block (s := S6x128) S6x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6000x128.size a ≤ S300000x128.size a
  hwx0_7 : ∀ i : grid0.Coords, EltTy.bits .f32 = 32 ∨ (Rect.block (s := S300000x128) S6000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S6000x128.size a ≤ S300000x128.size a
  hwx0_8 : ∀ i : grid0.Coords, EltTy.bits .f32 = 32 ∨ (Rect.block (s := S300000x128) S6000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x128.size a ≤ S300000x128.size a
  hwx1_0 : ∀ i : grid1.Coords, EltTy.bits .f32 = 32 ∨ (Rect.block (s := S300000x128) S6000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x6.size a ≤ S300000x6.size a
  hwx1_1 : ∀ i : grid1.Coords, EltTy.bits .f32 = 32 ∨ (Rect.block (s := S300000x6) S6000x6.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S6x128.size a ≤ S6x128.size a
  hwx1_2 : ∀ i : grid1.Coords, EltTy.bits .f32 = 32 ∨ (Rect.block (s := S6x128) S6x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6000x128.size a ≤ S300000x128.size a
  hwx1_3 : ∀ i : grid1.Coords, EltTy.bits .f32 = 32 ∨ (Rect.block (s := S300000x128) S6000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S20000x128.size a
  hwx2_0 : ∀ i : grid2.Coords, EltTy.bits .f32 = 32 ∨ (Rect.block (s := S20000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3x128x128.size a ≤ S3x128x128.size a
  hwx2_1 : ∀ i : grid2.Coords, EltTy.bits .f32 = 32 ∨ (Rect.block (s := S3x128x128) S3x128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x1x128.size a ≤ S3x1x128.size a
  hwx2_2 : ∀ i : grid2.Coords, EltTy.bits .f32 = 32 ∨ (Rect.block (s := S3x1x128) S3x1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S20000x128.size a
  hwx2_4 : ∀ i : grid2.Coords, EltTy.bits .f32 = 32 ∨ (Rect.block (s := S20000x128) S4000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S500000x128.size a
  hwx3_0 : ∀ i : grid3.Coords, EltTy.bits .f32 = 32 ∨ (Rect.block (s := S500000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x42.size a ≤ S500000x42.size a
  hwx3_1 : ∀ i : grid3.Coords, EltTy.bits .f32 = 32 ∨ (Rect.block (s := S500000x42) S10000x42.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S42x8.size a ≤ S42x8.size a
  hwx3_2 : ∀ i : grid3.Coords, EltTy.bits .f32 = 32 ∨ (Rect.block (s := S42x8) S42x8.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S8x128x128.size a ≤ S8x128x128.size a
  hwx3_3 : ∀ i : grid3.Coords, EltTy.bits .f32 = 32 ∨ (Rect.block (s := S8x128x128) S8x128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x128.size a ≤ S500000x128.size a
  hwx3_4 : ∀ i : grid3.Coords, EltTy.bits .f32 = 32 ∨ (Rect.block (s := S500000x128) S10000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x128.size a ≤ S300000x128.size a
  hwx4_0 : ∀ i : grid4.Coords, EltTy.bits .f32 = 32 ∨ (Rect.block (s := S300000x128) S6000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6000x128.size a ≤ S300000x128.size a
  hwx4_1 : ∀ i : grid4.Coords, EltTy.bits .f32 = 32 ∨ (Rect.block (s := S300000x128) S6000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S6000x128.size a ≤ S300000x128.size a
  hwx4_4 : ∀ i : grid4.Coords, EltTy.bits .f32 = 32 ∨ (Rect.block (s := S300000x128) S6000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6000x128.size a ≤ S300000x128.size a
  hwx5_0 : ∀ i : grid5.Coords, EltTy.bits .f32 = 32 ∨ (Rect.block (s := S300000x128) S6000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6000x6.size a ≤ S300000x6.size a
  hwx5_1 : ∀ i : grid5.Coords, EltTy.bits .f32 = 32 ∨ (Rect.block (s := S300000x6) S6000x6.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S6x128.size a ≤ S6x128.size a
  hwx5_2 : ∀ i : grid5.Coords, EltTy.bits .f32 = 32 ∨ (Rect.block (s := S6x128) S6x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S6000x128.size a ≤ S300000x128.size a
  hwx5_3 : ∀ i : grid5.Coords, EltTy.bits .f32 = 32 ∨ (Rect.block (s := S300000x128) S6000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S20000x128.size a
  hwx6_0 : ∀ i : grid6.Coords, EltTy.bits .f32 = 32 ∨ (Rect.block (s := S20000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S3x128x128.size a ≤ S3x128x128.size a
  hwx6_1 : ∀ i : grid6.Coords, EltTy.bits .f32 = 32 ∨ (Rect.block (s := S3x128x128) S3x128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S3x1x128.size a ≤ S3x1x128.size a
  hwx6_2 : ∀ i : grid6.Coords, EltTy.bits .f32 = 32 ∨ (Rect.block (s := S3x1x128) S3x1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S4000x128.size a ≤ S20000x128.size a
  hwx6_4 : ∀ i : grid6.Coords, EltTy.bits .f32 = 32 ∨ (Rect.block (s := S20000x128) S4000x128.size (cc6_transform_4 i) (hinb6_4 i)).WholeWords (EltTy.packing .f32)

variable [Facts₀]

def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def dot_S6000x6_S6x128_S6000x128_1_0_0_1_n_n : DotDims S6000x6 S6x128 S6000x128 where
  lhsContracting := [1]
  rhsContracting := [0]
  lhsNonContracting := [0]
  rhsNonContracting := [1]
  lhsBatch := []
  rhsBatch := []
  wf := dot_S6000x6_S6x128_S6000x128_1_0_0_1_n_n_wf
def scatter_S20000x128_S300000x1_S300000x128_1_0_0_1 : ScatterDims S20000x128 S300000x1 S300000x128 where
  updateWindowDims := [1]
  insertedWindowDims := [0]
  scatterDimsToOperandDims := [0]
  indexVectorDim := 1
  wf := scatter_S20000x128_S300000x1_S300000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S300000x128_S500000x1_S500000x128_1_0_n_n_0_1_1128 : GatherDims S300000x128 S500000x1 S500000x128 where
  offsetDims := [1]
  collapsedSliceDims := [0]
  operandBatchingDims := []
  startIndicesBatchingDims := []
  startIndexMap := [0]
  indexVectorDim := 1
  sliceSizes := ![1, 128]
  wf := gather_S300000x128_S500000x1_S500000x128_1_0_n_n_0_1_1128_wf
def dot_S10000x42_S42x8_S10000x8_1_0_0_1_n_n : DotDims S10000x42 S42x8 S10000x8 where
  lhsContracting := [1]
  rhsContracting := [0]
  lhsNonContracting := [0]
  rhsNonContracting := [1]
  lhsBatch := []
  rhsBatch := []
  wf := dot_S10000x42_S42x8_S10000x8_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S300000x128_S500000x1_S500000x128_1_0_0_1 : ScatterDims S300000x128 S500000x1 S500000x128 where
  updateWindowDims := [1]
  insertedWindowDims := [0]
  scatterDimsToOperandDims := [0]
  indexVectorDim := 1
  wf := scatter_S300000x128_S500000x1_S500000x128_1_0_0_1_wf

abbrev win0_0 : Pipeline.Window sig grid0 :=
  Pipeline.Window.ofSpec (Memref.whole main_arg0) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S6x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S6000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S6000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S6000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S6000x6.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S6x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S6000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S3x128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S3x1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v23) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S10000x42.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S42x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v24) S8x128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v25) S10000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v2_0) S6000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v28) S6000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v29) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v30) S6000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v30) S6000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg1) S6000x6.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v32) S6x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v33) S6000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v36) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v38) S3x128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v43) S3x1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v42) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v44) S4000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S300000x128 : Shape := ⟨2, ![300000, 128]⟩
abbrev S300000x6 : Shape := ⟨2, ![300000, 6]⟩
abbrev S500000x42 : Shape := ⟨2, ![500000, 42]⟩
abbrev S300000 : Shape := ⟨1, ![300000]⟩
abbrev S500000 : Shape := ⟨1, ![500000]⟩
abbrev S6x128 : Shape := ⟨2, ![6, 128]⟩
abbrev S42x8 : Shape := ⟨2, ![42, 8]⟩
abbrev S128x128 : Shape := ⟨2, ![128, 128]⟩
abbrev S128 : Shape := ⟨1, ![128]⟩
abbrev S128x8x128 : Shape := ⟨3, ![128, 8, 128]⟩
abbrev S2x6x128 : Shape := ⟨3, ![2, 6, 128]⟩
abbrev S2x3x128x128 : Shape := ⟨4, ![2, 3, 128, 128]⟩
abbrev S2x3x128 : Shape := ⟨3, ![2, 3, 128]⟩
abbrev S2x128x128 : Shape := ⟨3, ![2, 128, 128]⟩
abbrev S1x6x128 : Shape := ⟨3, ![1, 6, 128]⟩
abbrev S1x3x128x128 : Shape := ⟨4, ![1, 3, 128, 128]⟩
abbrev S3x128x128 : Shape := ⟨3, ![3, 128, 128]⟩
abbrev S1x3x128 : Shape := ⟨3, ![1, 3, 128]⟩
abbrev S3x128 : Shape := ⟨2, ![3, 128]⟩
abbrev S1x128x128 : Shape := ⟨3, ![1, 128, 128]⟩
abbrev S_ : Shape := ⟨0, ![]⟩
abbrev S20000x128 : Shape := ⟨2, ![20000, 128]⟩
abbrev S300000x1 : Shape := ⟨2, ![300000, 1]⟩
abbrev S1x128 : Shape := ⟨2, ![1, 128]⟩
abbrev S500000x8 : Shape := ⟨2, ![500000, 8]⟩
abbrev S500000x1 : Shape := ⟨2, ![500000, 1]⟩
abbrev S500000x128 : Shape := ⟨2, ![500000, 128]⟩
abbrev S128x1x128 : Shape := ⟨3, ![128, 1, 128]⟩

abbrev nBuf : Space → Nat
  | .hbm => 276
  | .vmem => 0
  | .smem => 0
  | _ => 0

abbrev hbmTy0_0 (i : Nat) : BufTy := match i % 128 with
  | 0 => ⟨S300000x128, .f32⟩
  | 1 => ⟨S300000x6, .f32⟩
  | 2 => ⟨S500000x42, .f32⟩
  | 3 => ⟨S300000, .i32⟩
  | 4 => ⟨S500000, .i32⟩
  | 5 => ⟨S500000, .i32⟩
  | 6 => ⟨S6x128, .f32⟩
  | 7 => ⟨S42x8, .f32⟩
  | 8 => ⟨S128x128, .f32⟩
  | 9 => ⟨S128, .f32⟩
  | 10 => ⟨S128x128, .f32⟩
  | 11 => ⟨S128, .f32⟩
  | 12 => ⟨S128x8x128, .f32⟩
  | 13 => ⟨S128x128, .f32⟩
  | 14 => ⟨S128, .f32⟩
  | 15 => ⟨S2x6x128, .f32⟩
  | 16 => ⟨S2x3x128x128, .f32⟩
  | 17 => ⟨S2x3x128, .f32⟩
  | 18 => ⟨S2x128x128, .f32⟩
  | 19 => ⟨S1x6x128, .f32⟩
  | 20 => ⟨S6x128, .f32⟩
  | 21 => ⟨S1x3x128x128, .f32⟩
  | 22 => ⟨S3x128x128, .f32⟩
  | 23 => ⟨S1x3x128, .f32⟩
  | 24 => ⟨S3x128, .f32⟩
  | 25 => ⟨S1x128x128, .f32⟩
  | 26 => ⟨S128x128, .f32⟩
  | 27 => ⟨S300000x128, .f32⟩
  | 28 => ⟨S300000x128, .f32⟩
  | 29 => ⟨S_, .f32⟩
  | 30 => ⟨S20000x128, .f32⟩
  | 31 => ⟨S300000x1, .i32⟩
  | 32 => ⟨S20000x128, .f32⟩
  | 33 => ⟨S1x128x128, .f32⟩
  | 34 => ⟨S128x128, .f32⟩
  | 35 => ⟨S20000x128, .f32⟩
  | 36 => ⟨S1x128, .f32⟩
  | 37 => ⟨S128, .f32⟩
  | 38 => ⟨S1x128, .f32⟩
  | 39 => ⟨S20000x128, .f32⟩
  | 40 => ⟨S20000x128, .f32⟩
  | 41 => ⟨S20000x128, .f32⟩
  | 42 => ⟨S20000x128, .f32⟩
  | 43 => ⟨S_, .f32⟩
  | 44 => ⟨S20000x128, .f32⟩
  | 45 => ⟨S20000x128, .f32⟩
  | 46 => ⟨S_, .f32⟩
  | 47 => ⟨S20000x128, .f32⟩
  | 48 => ⟨S20000x128, .f32⟩
  | 49 => ⟨S20000x128, .f32⟩
  | 50 => ⟨S1x128x128, .f32⟩
  | 51 => ⟨S128x128, .f32⟩
  | 52 => ⟨S20000x128, .f32⟩
  | 53 => ⟨S1x128, .f32⟩
  | 54 => ⟨S128, .f32⟩
  | 55 => ⟨S1x128, .f32⟩
  | 56 => ⟨S20000x128, .f32⟩
  | 57 => ⟨S20000x128, .f32⟩
  | 58 => ⟨S20000x128, .f32⟩
  | 59 => ⟨S20000x128, .f32⟩
  | 60 => ⟨S_, .f32⟩
  | 61 => ⟨S20000x128, .f32⟩
  | 62 => ⟨S20000x128, .f32⟩
  | 63 => ⟨S_, .f32⟩
  | 64 => ⟨S20000x128, .f32⟩
  | 65 => ⟨S20000x128, .f32⟩
  | 66 => ⟨S20000x128, .f32⟩
  | 67 => ⟨S1x128x128, .f32⟩
  | 68 => ⟨S128x128, .f32⟩
  | 69 => ⟨S20000x128, .f32⟩
  | 70 => ⟨S1x128, .f32⟩
  | 71 => ⟨S128, .f32⟩
  | 72 => ⟨S1x128, .f32⟩
  | 73 => ⟨S20000x128, .f32⟩
  | 74 => ⟨S20000x128, .f32⟩
  | 75 => ⟨S20000x128, .f32⟩
  | 76 => ⟨S20000x128, .f32⟩
  | 77 => ⟨S_, .f32⟩
  | 78 => ⟨S20000x128, .f32⟩
  | 79 => ⟨S20000x128, .f32⟩
  | 80 => ⟨S_, .f32⟩
  | 81 => ⟨S20000x128, .f32⟩
  | 82 => ⟨S20000x128, .f32⟩
  | 83 => ⟨S20000x128, .f32⟩
  | 84 => ⟨S20000x128, .f32⟩
  | 85 => ⟨S300000x128, .f32⟩
  | 86 => ⟨S500000x8, .f32⟩
  | 87 => ⟨S300000x128, .f32⟩
  | 88 => ⟨S1x128, .f32⟩
  | 89 => ⟨S300000x128, .f32⟩
  | 90 => ⟨S300000x128, .f32⟩
  | 91 => ⟨S300000x128, .f32⟩
  | 92 => ⟨S300000x128, .f32⟩
  | 93 => ⟨S_, .f32⟩
  | 94 => ⟨S300000x128, .f32⟩
  | 95 => ⟨S300000x128, .f32⟩
  | 96 => ⟨S_, .f32⟩
  | 97 => ⟨S300000x128, .f32⟩
  | 98 => ⟨S300000x128, .f32⟩
  | 99 => ⟨S300000x128, .f32⟩
  | 100 => ⟨S300000x128, .f32⟩
  | 101 => ⟨S1x128, .f32⟩
  | 102 => ⟨S300000x128, .f32⟩
  | 103 => ⟨S300000x128, .f32⟩
  | 104 => ⟨S300000x128, .f32⟩
  | 105 => ⟨S300000x128, .f32⟩
  | 106 => ⟨S_, .f32⟩
  | 107 => ⟨S300000x128, .f32⟩
  | 108 => ⟨S300000x128, .f32⟩
  | 109 => ⟨S_, .f32⟩
  | 110 => ⟨S300000x128, .f32⟩
  | 111 => ⟨S300000x128, .f32⟩
  | 112 => ⟨S300000x128, .f32⟩
  | 113 => ⟨S300000x128, .f32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S500000x1, .i32⟩
  | 122 => ⟨S500000x128, .f32⟩
  | 123 => ⟨S_, .f32⟩
  | 124 => ⟨S500000x128, .f32⟩
  | 125 => ⟨S500000x1, .f32⟩
  | 126 => ⟨S128x1x128, .f32⟩
  | 127 => ⟨S128x128, .f32⟩
  | _ => ⟨S300000x128, .f32⟩

abbrev hbmTy0_1 (i : Nat) : BufTy := match i % 128 with
  | 0 => ⟨S128x128, .f32⟩
  | 1 => ⟨S500000x128, .f32⟩
  | 2 => ⟨S500000x128, .f32⟩
  | 3 => ⟨S500000x128, .f32⟩
  | 4 => ⟨S500000x128, .f32⟩
  | 5 => ⟨S500000x1, .f32⟩
  | 6 => ⟨S128x1x128, .f32⟩
  | 7 => ⟨S128x128, .f32⟩
  | 8 => ⟨S128x128, .f32⟩
  | 9 => ⟨S500000x128, .f32⟩
  | 10 => ⟨S500000x128, .f32⟩
  | 11 => ⟨S500000x128, .f32⟩
  | 12 => ⟨S500000x128, .f32⟩
  | 13 => ⟨S500000x1, .f32⟩
  | 14 => ⟨S128x1x128, .f32⟩
  | 15 => ⟨S128x128, .f32⟩
  | 16 => ⟨S128x128, .f32⟩
  | 17 => ⟨S500000x128, .f32⟩
  | 18 => ⟨S500000x128, .f32⟩
  | 19 => ⟨S500000x128, .f32⟩
  | 20 => ⟨S500000x128, .f32⟩
  | 21 => ⟨S500000x1, .f32⟩
  | 22 => ⟨S128x1x128, .f32⟩
  | 23 => ⟨S128x128, .f32⟩
  | 24 => ⟨S128x128, .f32⟩
  | 25 => ⟨S500000x128, .f32⟩
  | 26 => ⟨S500000x128, .f32⟩
  | 27 => ⟨S500000x128, .f32⟩
  | 28 => ⟨S500000x128, .f32⟩
  | 29 => ⟨S500000x1, .f32⟩
  | 30 => ⟨S128x1x128, .f32⟩
  | 31 => ⟨S128x128, .f32⟩
  | 32 => ⟨S128x128, .f32⟩
  | 33 => ⟨S500000x128, .f32⟩
  | 34 => ⟨S500000x128, .f32⟩
  | 35 => ⟨S500000x128, .f32⟩
  | 36 => ⟨S500000x128, .f32⟩
  | 37 => ⟨S500000x1, .f32⟩
  | 38 => ⟨S128x1x128, .f32⟩
  | 39 => ⟨S128x128, .f32⟩
  | 40 => ⟨S128x128, .f32⟩
  | 41 => ⟨S500000x128, .f32⟩
  | 42 => ⟨S500000x128, .f32⟩
  | 43 => ⟨S500000x128, .f32⟩
  | 44 => ⟨S500000x128, .f32⟩
  | 45 => ⟨S500000x1, .f32⟩
  | 46 => ⟨S128x1x128, .f32⟩
  | 47 => ⟨S128x128, .f32⟩
  | 48 => ⟨S128x128, .f32⟩
  | 49 => ⟨S500000x128, .f32⟩
  | 50 => ⟨S500000x128, .f32⟩
  | 51 => ⟨S500000x128, .f32⟩
  | 52 => ⟨S500000x128, .f32⟩
  | 53 => ⟨S500000x1, .f32⟩
  | 54 => ⟨S128x1x128, .f32⟩
  | 55 => ⟨S128x128, .f32⟩
  | 56 => ⟨S128x128, .f32⟩
  | 57 => ⟨S500000x128, .f32⟩
  | 58 => ⟨S500000x128, .f32⟩
  | 59 => ⟨S500000x128, .f32⟩
  | 60 => ⟨S500000x128, .f32⟩
  | 61 => ⟨S_, .f32⟩
  | 62 => ⟨S300000x128, .f32⟩
  | 63 => ⟨S500000x1, .i32⟩
  | 64 => ⟨S300000x128, .f32⟩
  | 65 => ⟨S300000x128, .f32⟩
  | 66 => ⟨S300000x128, .f32⟩
  | 67 => ⟨S1x128, .f32⟩
  | 68 => ⟨S300000x128, .f32⟩
  | 69 => ⟨S300000x128, .f32⟩
  | 70 => ⟨S300000x128, .f32⟩
  | 71 => ⟨S300000x128, .f32⟩
  | 72 => ⟨S_, .f32⟩
  | 73 => ⟨S300000x128, .f32⟩
  | 74 => ⟨S300000x128, .f32⟩
  | 75 => ⟨S_, .f32⟩
  | 76 => ⟨S300000x128, .f32⟩
  | 77 => ⟨S300000x128, .f32⟩
  | 78 => ⟨S300000x128, .f32⟩
  | 79 => ⟨S1x6x128, .f32⟩
  | 80 => ⟨S6x128, .f32⟩
  | 81 => ⟨S1x3x128x128, .f32⟩
  | 82 => ⟨S3x128x128, .f32⟩
  | 83 => ⟨S1x3x128, .f32⟩
  | 84 => ⟨S3x128, .f32⟩
  | 85 => ⟨S1x128x128, .f32⟩
  | 86 => ⟨S128x128, .f32⟩
  | 87 => ⟨S300000x128, .f32⟩
  | 88 => ⟨S300000x128, .f32⟩
  | 89 => ⟨S_, .f32⟩
  | 90 => ⟨S20000x128, .f32⟩
  | 91 => ⟨S300000x1, .i32⟩
  | 92 => ⟨S20000x128, .f32⟩
  | 93 => ⟨S1x128x128, .f32⟩
  | 94 => ⟨S128x128, .f32⟩
  | 95 => ⟨S20000x128, .f32⟩
  | 96 => ⟨S1x128, .f32⟩
  | 97 => ⟨S128, .f32⟩
  | 98 => ⟨S1x128, .f32⟩
  | 99 => ⟨S20000x128, .f32⟩
  | 100 => ⟨S20000x128, .f32⟩
  | 101 => ⟨S20000x128, .f32⟩
  | 102 => ⟨S20000x128, .f32⟩
  | 103 => ⟨S_, .f32⟩
  | 104 => ⟨S20000x128, .f32⟩
  | 105 => ⟨S20000x128, .f32⟩
  | 106 => ⟨S_, .f32⟩
  | 107 => ⟨S20000x128, .f32⟩
  | 108 => ⟨S20000x128, .f32⟩
  | 109 => ⟨S20000x128, .f32⟩
  | 110 => ⟨S1x128x128, .f32⟩
  | 111 => ⟨S128x128, .f32⟩
  | 112 => ⟨S20000x128, .f32⟩
  | 113 => ⟨S1x128, .f32⟩
  | 114 => ⟨S128, .f32⟩
  | 115 => ⟨S1x128, .f32⟩
  | 116 => ⟨S20000x128, .f32⟩
  | 117 => ⟨S20000x128, .f32⟩
  | 118 => ⟨S20000x128, .f32⟩
  | 119 => ⟨S20000x128, .f32⟩
  | 120 => ⟨S_, .f32⟩
  | 121 => ⟨S20000x128, .f32⟩
  | 122 => ⟨S20000x128, .f32⟩
  | 123 => ⟨S_, .f32⟩
  | 124 => ⟨S20000x128, .f32⟩
  | 125 => ⟨S20000x128, .f32⟩
  | 126 => ⟨S20000x128, .f32⟩
  | 127 => ⟨S1x128x128, .f32⟩
  | _ => ⟨S300000x128, .f32⟩

abbrev hbmTy0_2 (i : Nat) : BufTy := match i % 128 with
  | 0 => ⟨S128x128, .f32⟩
  | 1 => ⟨S20000x128, .f32⟩
  | 2 => ⟨S1x128, .f32⟩
  | 3 => ⟨S128, .f32⟩
  | 4 => ⟨S1x128, .f32⟩
  | 5 => ⟨S20000x128, .f32⟩
  | 6 => ⟨S20000x128, .f32⟩
  | 7 => ⟨S20000x128, .f32⟩
  | 8 => ⟨S20000x128, .f32⟩
  | 9 => ⟨S_, .f32⟩
  | 10 => ⟨S20000x128, .f32⟩
  | 11 => ⟨S20000x128, .f32⟩
  | 12 => ⟨S_, .f32⟩
  | 13 => ⟨S20000x128, .f32⟩
  | 14 => ⟨S20000x128, .f32⟩
  | 15 => ⟨S20000x128, .f32⟩
  | 16 => ⟨S20000x128, .f32⟩
  | 17 => ⟨S20000x128, .f32⟩
  | 18 => ⟨S_, .f32⟩
  | 19 => ⟨S128, .f32⟩
  | _ => ⟨S300000x128, .f32⟩

abbrev hbmTy (i : Nat) : BufTy := match i / 128 with
  | 0 => hbmTy0_0 i
  | 1 => hbmTy0_1 i
  | 2 => hbmTy0_2 i
  | _ => ⟨S300000x128, .f32⟩

abbrev bufTy : (tb : Table) → Fin (tcTables nBuf tb) → BufTy
  | .hbm, ⟨i, _⟩ => hbmTy i
  | _, _ => ⟨S300000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_4 : Ref sig .tc := ⟨.hbm, 77, rfl⟩
abbrev main_v53 : Ref sig .tc := ⟨.hbm, 78, rfl⟩
abbrev main_v54 : Ref sig .tc := ⟨.hbm, 79, rfl⟩
abbrev main_cst_5 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_6 : Ref sig .tc := ⟨.hbm, 93, rfl⟩
abbrev main_v67 : Ref sig .tc := ⟨.hbm, 94, rfl⟩
abbrev main_v68 : Ref sig .tc := ⟨.hbm, 95, rfl⟩
abbrev main_cst_7 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_8 : Ref sig .tc := ⟨.hbm, 106, rfl⟩
abbrev main_v78 : Ref sig .tc := ⟨.hbm, 107, rfl⟩
abbrev main_v79 : Ref sig .tc := ⟨.hbm, 108, rfl⟩
abbrev main_cst_9 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c : Ref sig .tc := ⟨.hbm, 114, rfl⟩
abbrev main_v84 : Ref sig .tc := ⟨.hbm, 115, rfl⟩
abbrev main_v85 : Ref sig .tc := ⟨.hbm, 116, rfl⟩
abbrev main_c_10 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_11 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_cst_12 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_cst_13 : Ref sig .tc := ⟨.hbm, 200, rfl⟩
abbrev main_v166 : Ref sig .tc := ⟨.hbm, 201, rfl⟩
abbrev main_v167 : Ref sig .tc := ⟨.hbm, 202, rfl⟩
abbrev main_cst_14 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_cst_15 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_cst_16 : Ref sig .tc := ⟨.hbm, 231, rfl⟩
abbrev main_v194 : Ref sig .tc := ⟨.hbm, 232, rfl⟩
abbrev main_v195 : Ref sig .tc := ⟨.hbm, 233, rfl⟩
abbrev main_cst_17 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_cst_18 : Ref sig .tc := ⟨.hbm, 248, rfl⟩
abbrev main_v209 : Ref sig .tc := ⟨.hbm, 249, rfl⟩
abbrev main_v210 : Ref sig .tc := ⟨.hbm, 250, rfl⟩
abbrev main_cst_19 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_cst_20 : Ref sig .tc := ⟨.hbm, 265, rfl⟩
abbrev main_v224 : Ref sig .tc := ⟨.hbm, 266, rfl⟩
abbrev main_v225 : Ref sig .tc := ⟨.hbm, 267, rfl⟩
abbrev main_cst_21 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_cst_22 : Ref sig .tc := ⟨.hbm, 274, rfl⟩
abbrev main_v231 : Ref sig .tc := ⟨.hbm, 275, rfl⟩

abbrev nD : Nat := 1
abbrev τ : Topo := Topo.v7x

variable {F : FTy → Type} [FloatOps F]

class Facts₀ : Prop where
  slices_S2x6x128_S1x6x128_0_0_0 : S2x6x128.Slices ![0, 0, 0] S1x6x128
  shapeCasts_S1x6x128_S6x128 : S1x6x128.ShapeCasts S6x128
  slices_S2x3x128x128_S1x3x128x128_0_0_0_0 : S2x3x128x128.Slices ![0, 0, 0, 0] S1x3x128x128
  shapeCasts_S1x3x128x128_S3x128x128 : S1x3x128x128.ShapeCasts S3x128x128
  slices_S2x3x128_S1x3x128_0_0_0 : S2x3x128.Slices ![0, 0, 0] S1x3x128
  shapeCasts_S1x3x128_S3x128 : S1x3x128.ShapeCasts S3x128
  slices_S2x128x128_S1x128x128_0_0_0 : S2x128x128.Slices ![0, 0, 0] S1x128x128
  shapeCasts_S1x128x128_S128x128 : S1x128x128.ShapeCasts S128x128
  bcast_S_S20000x128 : S_.BroadcastsInDim S20000x128 (![] : Fin 0 → Fin S20000x128.rank)
  bcast_S300000_S300000x1_0 : S300000.BroadcastsInDim S300000x1 (![0] : Fin 1 → Fin S300000x1.rank)
  slices_S3x128x128_S1x128x128_0_0_0 : S3x128x128.Slices ![0, 0, 0] S1x128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S1x128_S300000x128_0_1 : S1x128.BroadcastsInDim S300000x128 (![0, 1] : Fin 2 → Fin S300000x128.rank)
  bcast_S_S300000x128 : S_.BroadcastsInDim S300000x128 (![] : Fin 0 → Fin S300000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S500000x128 : S_.BroadcastsInDim S500000x128 (![] : Fin 0 → Fin S500000x128.rank)
  slices_S500000x8_S500000x1_0_0 : S500000x8.Slices ![0, 0] S500000x1
  slices_S128x8x128_S128x1x128_0_0_0 : S128x8x128.Slices ![0, 0, 0] S128x1x128
  shapeCasts_S128x1x128_S128x128 : S128x1x128.ShapeCasts S128x128
  transposes_S128x128_S128x128_1_0 : S128x128.Transposes [1, 0] S128x128
  bcast_S500000x1_S500000x128_0_1 : S500000x1.BroadcastsInDim S500000x128 (![0, 1] : Fin 2 → Fin S500000x128.rank)
  slices_S500000x8_S500000x1_0_1 : S500000x8.Slices ![0, 1] S500000x1
  slices_S128x8x128_S128x1x128_0_1_0 : S128x8x128.Slices ![0, 1, 0] S128x1x128
  slices_S500000x8_S500000x1_0_2 : S500000x8.Slices ![0, 2] S500000x1
  slices_S128x8x128_S128x1x128_0_2_0 : S128x8x128.Slices ![0, 2, 0] S128x1x128
  slices_S500000x8_S500000x1_0_3 : S500000x8.Slices ![0, 3] S500000x1
  slices_S128x8x128_S128x1x128_0_3_0 : S128x8x128.Slices ![0, 3, 0] S128x1x128
  slices_S500000x8_S500000x1_0_4 : S500000x8.Slices ![0, 4] S500000x1
  slices_S128x8x128_S128x1x128_0_4_0 : S128x8x128.Slices ![0, 4, 0] S128x1x128
  slices_S500000x8_S500000x1_0_5 : S500000x8.Slices ![0, 5] S500000x1
  slices_S128x8x128_S128x1x128_0_5_0 : S128x8x128.Slices ![0, 5, 0] S128x1x128
  slices_S500000x8_S500000x1_0_6 : S500000x8.Slices ![0, 6] S500000x1
  slices_S128x8x128_S128x1x128_0_6_0 : S128x8x128.Slices ![0, 6, 0] S128x1x128
  slices_S500000x8_S500000x1_0_7 : S500000x8.Slices ![0, 7] S500000x1
  slices_S128x8x128_S128x1x128_0_7_0 : S128x8x128.Slices ![0, 7, 0] S128x1x128
  slices_S2x6x128_S1x6x128_1_0_0 : S2x6x128.Slices ![1, 0, 0] S1x6x128
  slices_S2x3x128x128_S1x3x128x128_1_0_0_0 : S2x3x128x128.Slices ![1, 0, 0, 0] S1x3x128x128
  slices_S2x3x128_S1x3x128_1_0_0 : S2x3x128.Slices ![1, 0, 0] S1x3x128
  slices_S2x128x128_S1x128x128_1_0_0 : S2x128x128.Slices ![1, 0, 0] S1x128x128
  reducesTo_S20000x128_S128_d0 : S20000x128.ReducesTo [0] S128
  h_S_ : 0 < S_.numel
  dot_S300000x6_S6x128_S300000x128_1_0_0_1_n_n_wf : DotDims.WF S300000x6 S6x128 S300000x128 [1] [0] [0] [1] [] []
  scatter_S20000x128_S300000x1_S300000x128_1_0_0_1_wf : ScatterDims.WF S20000x128 S300000x1 S300000x128 [1] [0] [0] 1
  dot_S20000x128_S128x128_S20000x128_1_0_0_1_n_n_wf : DotDims.WF S20000x128 S128x128 S20000x128 [1] [0] [0] [1] [] []
  dot_S500000x42_S42x8_S500000x8_1_0_0_1_n_n_wf : DotDims.WF S500000x42 S42x8 S500000x8 [1] [0] [0] [1] [] []
  dot_S300000x128_S128x128_S300000x128_1_0_0_1_n_n_wf : DotDims.WF S300000x128 S128x128 S300000x128 [1] [0] [0] [1] [] []
  gather_S300000x128_S500000x1_S500000x128_1_0_n_n_0_1_1128_wf : GatherDims.WF S300000x128 S500000x1 S500000x128 [1] [0] [] [0] [] 1 ![1, 128]
  dot_S500000x128_S128x128_S500000x128_1_0_0_1_n_n_wf : DotDims.WF S500000x128 S128x128 S500000x128 [1] [0] [0] [1] [] []
  scatter_S300000x128_S500000x1_S500000x128_1_0_0_1_wf : ScatterDims.WF S300000x128 S500000x1 S500000x128 [1] [0] [0] 1

variable [Facts₀]

def dot_S300000x6_S6x128_S300000x128_1_0_0_1_n_n : DotDims S300000x6 S6x128 S300000x128 where
  lhsContracting := [1]
  rhsContracting := [0]
  lhsNonContracting := [0]
  rhsNonContracting := [1]
  lhsBatch := []
  rhsBatch := []
  wf := dot_S300000x6_S6x128_S300000x128_1_0_0_1_n_n_wf
def scatter_S20000x128_S300000x1_S300000x128_1_0_0_1 : ScatterDims S20000x128 S300000x1 S300000x128 where
  updateWindowDims := [1]
  insertedWindowDims := [0]
  scatterDimsToOperandDims := [0]
  indexVectorDim := 1
  wf := scatter_S20000x128_S300000x1_S300000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S500000x42_S42x8_S500000x8_1_0_0_1_n_n : DotDims S500000x42 S42x8 S500000x8 where
  lhsContracting := [1]
  rhsContracting := [0]
  lhsNonContracting := [0]
  rhsNonContracting := [1]
  lhsBatch := []
  rhsBatch := []
  wf := dot_S500000x42_S42x8_S500000x8_1_0_0_1_n_n_wf
def dot_S300000x128_S128x128_S300000x128_1_0_0_1_n_n : DotDims S300000x128 S128x128 S300000x128 where
  lhsContracting := [1]
  rhsContracting := [0]
  lhsNonContracting := [0]
  rhsNonContracting := [1]
  lhsBatch := []
  rhsBatch := []
  wf := dot_S300000x128_S128x128_S300000x128_1_0_0_1_n_n_wf
def gather_S300000x128_S500000x1_S500000x128_1_0_n_n_0_1_1128 : GatherDims S300000x128 S500000x1 S500000x128 where
  offsetDims := [1]
  collapsedSliceDims := [0]
  operandBatchingDims := []
  startIndicesBatchingDims := []
  startIndexMap := [0]
  indexVectorDim := 1
  sliceSizes := ![1, 128]
  wf := gather_S300000x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S300000x128_S500000x1_S500000x128_1_0_0_1 : ScatterDims S300000x128 S500000x1 S500000x128 where
  updateWindowDims := [1]
  insertedWindowDims := [0]
  scatterDimsToOperandDims := [0]
  indexVectorDim := 1
  wf := scatter_S300000x128_S500000x1_S500000x128_1_0_0_1_wf

class Facts : Prop extends Facts₀ where

variable [Facts]
-- ==== Proof.KernelHost.lean ====
/-
  The host stretches of the idealized kernel program, read one at a time.

  Between two consecutive regions @main runs a short line of host operations (reshapes, slices of the stacked
  parameters, the index arithmetic before the gather, the three segment sums, the gather, the final add and column sum).
  For each stretch: the list of buffers it writes — every other buffer keeps its contents through it — and, for each
  buffer that a later region stages or that is the program's result, its value after the stretch as the stretch's
  operations composed over the contents the stretch starts from.  All for any float values and any starting contents.
-/
import proofs.«109498_j75754633167331_1_alg».proof.Proof.Gen.KernelIdeal.Launch
import Idealize.ShloMosaic.Lib.StableHlo.Run

set_option maxRecDepth 16384

noncomputable section

namespace Cert.KernelIdeal.HostRead

open Cert.KernelIdeal Cert.KernelIdeal.Gen Idealize.ShloMosaic Idealize.ShloMosaic.TcCoe Idealize.SL.Sem Idealize.ShloMosaic.StableHlo

variable {F : FTy → Type} [FloatOps F]

/-- The buffers stretch 0 writes. -/
abbrev written0 : List (Ref sig .tc) := [main_v0, main_v1]
theorem writes0 : (hostOps0 : List (HloOp τ sig (Elt F))).Forall fun op => op.writes ⊆ (written0.map (Proc.devRef (τ := τ) .tc)).toFinset := by
  simp only [hostOps0, List.Forall, nullary_writes, unary_writes, binary_writes, ternary_writes, quaternary_writes, reshape_writes,
    binaryIndexed_writes, Finset.singleton_subset_iff, List.mem_toFinset]
  repeat' apply And.intro
  all_goals exact List.mem_map_of_mem (by decide)
/-- A buffer stretch 0 does not write keeps its contents through it. -/
theorem keep0 (W : Valuation τ sig (Elt F)) (r : Ref sig .tc) (h : r ∉ written0) :
    after hostOps0 W (Proc.devRef .tc r) = W (Proc.devRef .tc r) :=
  after_of_writes_sub hostOps0 _ writes0 h

/-- The buffers stretch 1 writes. -/
abbrev written1 : List (Ref sig .tc) := [main_v3, main_v4]
theorem writes1 : (hostOps1 : List (HloOp τ sig (Elt F))).Forall fun op => op.writes ⊆ (written1.map (Proc.devRef (τ := τ) .tc)).toFinset := by
  simp only [hostOps1, List.Forall, nullary_writes, unary_writes, binary_writes, ternary_writes, quaternary_writes, reshape_writes,
    binaryIndexed_writes, Finset.singleton_subset_iff, List.mem_toFinset]
  repeat' apply And.intro
  all_goals exact List.mem_map_of_mem (by decide)
/-- A buffer stretch 1 does not write keeps its contents through it. -/
theorem keep1 (W : Valuation τ sig (Elt F)) (r : Ref sig .tc) (h : r ∉ written1) :
    after hostOps1 W (Proc.devRef .tc r) = W (Proc.devRef .tc r) :=
  after_of_writes_sub hostOps1 _ writes1 h

/-- The buffers stretch 2 writes. -/
abbrev written2 : List (Ref sig .tc) := [main_cst, main_v6, main_v7, main_v8, main_v9, main_v10, main_v11, main_v12, main_v13, main_v14, main_v15]
theorem writes2 : (hostOps2 : List (HloOp τ sig (Elt F))).Forall fun op => op.writes ⊆ (written2.map (Proc.devRef (τ := τ) .tc)).toFinset := by
  simp only [hostOps2, List.Forall, nullary_writes, unary_writes, binary_writes, ternary_writes, quaternary_writes, reshape_writes,
    binaryIndexed_writes, Finset.singleton_subset_iff, List.mem_toFinset]
  repeat' apply And.intro
  all_goals exact List.mem_map_of_mem (by decide)
/-- A buffer stretch 2 does not write keeps its contents through it. -/
theorem keep2 (W : Valuation τ sig (Elt F)) (r : Ref sig .tc) (h : r ∉ written2) :
    after hostOps2 W (Proc.devRef .tc r) = W (Proc.devRef .tc r) :=
  after_of_writes_sub hostOps2 _ writes2 h

/-- The buffers stretch 3 writes. -/
abbrev written3 : List (Ref sig .tc) := [main_c, main_v17, main_v18, main_c_0, main_v19, main_v20, main_v21, main_v22, main_v23, main_v24]
theorem writes3 : (hostOps3 : List (HloOp τ sig (Elt F))).Forall fun op => op.writes ⊆ (written3.map (Proc.devRef (τ := τ) .tc)).toFinset := by
  simp only [hostOps3, List.Forall, nullary_writes, unary_writes, binary_writes, ternary_writes, quaternary_writes, reshape_writes,
    binaryIndexed_writes, Finset.singleton_subset_iff, List.mem_toFinset]
  repeat' apply And.intro
  all_goals exact List.mem_map_of_mem (by decide)
/-- A buffer stretch 3 does not write keeps its contents through it. -/
theorem keep3 (W : Valuation τ sig (Elt F)) (r : Ref sig .tc) (h : r ∉ written3) :
    after hostOps3 W (Proc.devRef .tc r) = W (Proc.devRef .tc r) :=
  after_of_writes_sub hostOps3 _ writes3 h

/-- The buffers stretch 4 writes. -/
abbrev written4 : List (Ref sig .tc) := [main_cst_1, main_v26, main_v27, main_v28, main_v29]
theorem writes4 : (hostOps4 : List (HloOp τ sig (Elt F))).Forall fun op => op.writes ⊆ (written4.map (Proc.devRef (τ := τ) .tc)).toFinset := by
  simp only [hostOps4, List.Forall, nullary_writes, unary_writes, binary_writes, ternary_writes, quaternary_writes, reshape_writes,
    binaryIndexed_writes, Finset.singleton_subset_iff, List.mem_toFinset]
  repeat' apply And.intro
  all_goals exact List.mem_map_of_mem (by decide)
/-- A buffer stretch 4 does not write keeps its contents through it. -/
theorem keep4 (W : Valuation τ sig (Elt F)) (r : Ref sig .tc) (h : r ∉ written4) :
    after hostOps4 W (Proc.devRef .tc r) = W (Proc.devRef .tc r) :=
  after_of_writes_sub hostOps4 _ writes4 h

/-- The buffers stretch 5 writes. -/
abbrev written5 : List (Ref sig .tc) := [main_v31, main_v32]
theorem writes5 : (hostOps5 : List (HloOp τ sig (Elt F))).Forall fun op => op.writes ⊆ (written5.map (Proc.devRef (τ := τ) .tc)).toFinset := by
  simp only [hostOps5, List.Forall, nullary_writes, unary_writes, binary_writes, ternary_writes, quaternary_writes, reshape_writes,
    binaryIndexed_writes, Finset.singleton_subset_iff, List.mem_toFinset]
  repeat' apply And.intro
  all_goals exact List.mem_map_of_mem (by decide)
/-- A buffer stretch 5 does not write keeps its contents through it. -/
theorem keep5 (W : Valuation τ sig (Elt F)) (r : Ref sig .tc) (h : r ∉ written5) :
    after hostOps5 W (Proc.devRef .tc r) = W (Proc.devRef .tc r) :=
  after_of_writes_sub hostOps5 _ writes5 h

/-- The buffers stretch 6 writes. -/
abbrev written6 : List (Ref sig .tc) := [main_cst_2, main_v34, main_v35, main_v36, main_v37, main_v38, main_v39, main_v40, main_v41, main_v42, main_v43]
theorem writes6 : (hostOps6 : List (HloOp τ sig (Elt F))).Forall fun op => op.writes ⊆ (written6.map (Proc.devRef (τ := τ) .tc)).toFinset := by
  simp only [hostOps6, List.Forall, nullary_writes, unary_writes, binary_writes, ternary_writes, quaternary_writes, reshape_writes,
    binaryIndexed_writes, Finset.singleton_subset_iff, List.mem_toFinset]
  repeat' apply And.intro
  all_goals exact List.mem_map_of_mem (by decide)
/-- A buffer stretch 6 does not write keeps its contents through it. -/
theorem keep6 (W : Valuation τ sig (Elt F)) (r : Ref sig .tc) (h : r ∉ written6) :
    after hostOps6 W (Proc.devRef .tc r) = W (Proc.devRef .tc r) :=
  after_of_writes_sub hostOps6 _ writes6 h

/-- The buffers stretch 7 writes. -/
abbrev written7 : List (Ref sig .tc) := [main_v45, main_cst_3, main_v46]
theorem writes7 : (hostOps7 : List (HloOp τ sig (Elt F))).Forall fun op => op.writes ⊆ (written7.map (Proc.devRef (τ := τ) .tc)).toFinset := by
  simp only [hostOps7, List.Forall, nullary_writes, unary_writes, binary_writes, ternary_writes, quaternary_writes, reshape_writes,
    binaryIndexed_writes, Finset.singleton_subset_iff, List.mem_toFinset]
  repeat' apply And.intro
  all_goals exact List.mem_map_of_mem (by decide)
/-- A buffer stretch 7 does not write keeps its contents through it. -/
theorem keep7 (W : Valuation τ sig (Elt F)) (r : Ref sig .tc) (h : r ∉ written7) :
    after hostOps7 W (Proc.devRef .tc r) = W (Proc.devRef .tc r) :=
  after_of_writes_sub hostOps7 _ writes7 h

theorem read0_main_v0 (W : Valuation τ sig (Elt F)) :
    after hostOps0 W (no_index (Proc.devRef .tc main_v0)) = shapeCast _ (W (Proc.devRef .tc main_arg11)) shapeCasts_S128_S1x128 := by
  simp only [hostOps0]
  after_results_simp
  all_goals rfl

theorem read0_main_v1 (W : Valuation τ sig (Elt F)) :
    after hostOps0 W (no_index (Proc.devRef .tc main_v1)) = shapeCast _ (W (Proc.devRef .tc main_arg9)) shapeCasts_S128_S1x128 := by
  simp only [hostOps0]
  after_results_simp
  all_goals rfl

theorem read1_main_v4 (W : Valuation τ sig (Elt F)) :
    after hostOps1 W (no_index (Proc.devRef .tc main_v4)) = shapeCast _ (extractStridedSlice S1x6x128 ![0, 0, 0] (W (Proc.devRef .tc main_arg15)) slices_S2x6x128_S1x6x128_0_0_0) shapeCasts_S1x6x128_S6x128 := by
  simp only [hostOps1]
  after_results_simp
  all_goals rfl

theorem read2_main_v8 (W : Valuation τ sig (Elt F)) :
    after hostOps2 W (no_index (Proc.devRef .tc main_v8)) = Host.scatterAdd scatter_S20000x128_S300000x1_S300000x128_1_0_0_1 (broadcastInDim S20000x128 ![] bcast_S_S20000x128 (constant S_ .f32 0x00000000#32)) (broadcastInDim S300000x1 ![0] bcast_S300000_S300000x1_0 (W (Proc.devRef .tc main_arg3))) (W (Proc.devRef .tc main_v5)) := by
  simp only [hostOps2]
  after_results_simp
  all_goals rfl

theorem read2_main_v10 (W : Valuation τ sig (Elt F)) :
    after hostOps2 W (no_index (Proc.devRef .tc main_v10)) = shapeCast _ (extractStridedSlice S1x3x128x128 ![0, 0, 0, 0] (W (Proc.devRef .tc main_arg16)) slices_S2x3x128x128_S1x3x128x128_0_0_0_0) shapeCasts_S1x3x128x128_S3x128x128 := by
  simp only [hostOps2]
  after_results_simp
  all_goals rfl

theorem read2_main_v15 (W : Valuation τ sig (Elt F)) :
    after hostOps2 W (no_index (Proc.devRef .tc main_v15)) = shapeCast _ (shapeCast _ (extractStridedSlice S1x3x128 ![0, 0, 0] (W (Proc.devRef .tc main_arg17)) slices_S2x3x128_S1x3x128_0_0_0) shapeCasts_S1x3x128_S3x128) shapeCasts_S3x128_S3x1x128 := by
  simp only [hostOps2]
  after_results_simp
  all_goals rfl

theorem read2_main_v14 (W : Valuation τ sig (Elt F)) :
    after hostOps2 W (no_index (Proc.devRef .tc main_v14)) = shapeCast _ (extractStridedSlice S1x128x128 ![0, 0, 0] (W (Proc.devRef .tc main_arg18)) slices_S2x128x128_S1x128x128_0_0_0) shapeCasts_S1x128x128_S128x128 := by
  simp only [hostOps2]
  after_results_simp
  all_goals rfl

theorem read3_main_v23 (W : Valuation τ sig (Elt F)) :
    after hostOps3 W (no_index (Proc.devRef .tc main_v23)) = Host.gather gather_S300000x128_S500000x1_S500000x128_1_0_n_n_0_1_1128 (W (Proc.devRef .tc main_v2_1)) (broadcastInDim S500000x1 ![0] bcast_S500000_S500000x1_0 (select (cmpi .slt (W (Proc.devRef .tc main_arg4)) (broadcastInDim S500000 ![] bcast_S_S500000 (constantI S_ 32 0#32))) (addi (W (Proc.devRef .tc main_arg4)) (broadcastInDim S500000 ![] bcast_S_S500000 (constantI S_ 32 300000#32))) (W (Proc.devRef .tc main_arg4)))) := by
  simp only [hostOps3]
  after_results_simp
  all_goals rfl

theorem read3_main_v24 (W : Valuation τ sig (Elt F)) :
    after hostOps3 W (no_index (Proc.devRef .tc main_v24)) = transpose S8x128x128 [1, 2, 0] (W (Proc.devRef .tc main_arg12)) transposes_S128x8x128_S8x128x128_1_2_0 := by
  simp only [hostOps3]
  after_results_simp
  all_goals rfl

theorem read4_main_v28 (W : Valuation τ sig (Elt F)) :
    after hostOps4 W (no_index (Proc.devRef .tc main_v28)) = Host.scatterAdd scatter_S300000x128_S500000x1_S500000x128_1_0_0_1 (broadcastInDim S300000x128 ![] bcast_S_S300000x128 (constant S_ .f32 0x00000000#32)) (broadcastInDim S500000x1 ![0] bcast_S500000_S500000x1_0 (W (Proc.devRef .tc main_arg5))) (W (Proc.devRef .tc main_v25)) := by
  simp only [hostOps4]
  after_results_simp
  all_goals rfl

theorem read4_main_v29 (W : Valuation τ sig (Elt F)) :
    after hostOps4 W (no_index (Proc.devRef .tc main_v29)) = shapeCast _ (W (Proc.devRef .tc main_arg14)) shapeCasts_S128_S1x128 := by
  simp only [hostOps4]
  after_results_simp
  all_goals rfl

theorem read5_main_v32 (W : Valuation τ sig (Elt F)) :
    after hostOps5 W (no_index (Proc.devRef .tc main_v32)) = shapeCast _ (extractStridedSlice S1x6x128 ![1, 0, 0] (W (Proc.devRef .tc main_arg15)) slices_S2x6x128_S1x6x128_1_0_0) shapeCasts_S1x6x128_S6x128 := by
  simp only [hostOps5]
  after_results_simp
  all_goals rfl

theorem read6_main_v36 (W : Valuation τ sig (Elt F)) :
    after hostOps6 W (no_index (Proc.devRef .tc main_v36)) = Host.scatterAdd scatter_S20000x128_S300000x1_S300000x128_1_0_0_1 (broadcastInDim S20000x128 ![] bcast_S_S20000x128 (constant S_ .f32 0x00000000#32)) (broadcastInDim S300000x1 ![0] bcast_S300000_S300000x1_0 (W (Proc.devRef .tc main_arg3))) (W (Proc.devRef .tc main_v33)) := by
  simp only [hostOps6]
  after_results_simp
  all_goals rfl

theorem read6_main_v38 (W : Valuation τ sig (Elt F)) :
    after hostOps6 W (no_index (Proc.devRef .tc main_v38)) = shapeCast _ (extractStridedSlice S1x3x128x128 ![1, 0, 0, 0] (W (Proc.devRef .tc main_arg16)) slices_S2x3x128x128_S1x3x128x128_1_0_0_0) shapeCasts_S1x3x128x128_S3x128x128 := by
  simp only [hostOps6]
  after_results_simp
  all_goals rfl

theorem read6_main_v43 (W : Valuation τ sig (Elt F)) :
    after hostOps6 W (no_index (Proc.devRef .tc main_v43)) = shapeCast _ (shapeCast _ (extractStridedSlice S1x3x128 ![1, 0, 0] (W (Proc.devRef .tc main_arg17)) slices_S2x3x128_S1x3x128_1_0_0) shapeCasts_S1x3x128_S3x128) shapeCasts_S3x128_S3x1x128 := by
  simp only [hostOps6]
  after_results_simp
  all_goals rfl

theorem read6_main_v42 (W : Valuation τ sig (Elt F)) :
    after hostOps6 W (no_index (Proc.devRef .tc main_v42)) = shapeCast _ (extractStridedSlice S1x128x128 ![1, 0, 0] (W (Proc.devRef .tc main_arg18)) slices_S2x128x128_S1x128x128_1_0_0) shapeCasts_S1x128x128_S128x128 := by
  simp only [hostOps6]
  after_results_simp
  all_goals rfl

theorem read7_main_v46 (W : Valuation τ sig (Elt F)) :
    after hostOps7 W (no_index (Proc.devRef .tc main_v46)) = Host.reduceAdd (addf (W (Proc.devRef .tc main_v16)) (W (Proc.devRef .tc main_v44))) (constant S_ .f32 0x00000000#32) reducesTo_S20000x128_S128_d0 h_S_ := by
  simp only [hostOps7]
  after_results_simp
  all_goals rfl

end Cert.KernelIdeal.HostRead

end
-- ==== Proof.KernelRun.lean ====
/-
  The idealized kernel program's run, with its buffers named at the end.

  @main is a chain of host stretches and seven pipelined regions.  Running the chain from the launch memory, every
  weakly fair execution terminates without a fault, and at the end every buffer that is not scoped to a region holds
  the contents of the last boundary of the chain: the launch contents pushed through each host stretch
  (`StableHlo.after`) and through each region (its window arrays at what the write-backs leave, every other buffer
  as it was).  In particular the result buffer holds that boundary's value, which the other modules read back as a
  function of the argument arrays.
-/
import proofs.«109498_j75754633167331_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from the memory `m` terminates, nothing faulting, and ends with every
    unscoped TensorCore buffer at the last boundary's contents `W15`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

end Cert.KernelIdeal.Run

end
-- ==== Proof.KernelValue.lean ====
/-
  The value of the idealized kernel program's result, as one function of its nineteen argument arrays.

  The program is a chain: host stretch, region, host stretch, region, …  Each region's output array, after the
  region, is a whole-array function of the arrays the region stages (five such functions occur: the activated dense
  layer, the edge map x_kj · r, the gate, the node network, the bilinear triplet map — taken here as parameters,
  together with the eight facts that say which region computes which).  Reading the chain boundary by boundary —
  a buffer a stretch does not write and a region does not own keeps its contents; a buffer a stretch writes is the
  stretch's operations applied to the contents before it; a region's output is its function of its inputs — gives
  every intermediate array, and at the end the result, as a closed term in the launch contents of the arguments.
-/
import proofs.«109498_j75754633167331_1_alg».proof.Proof.KernelHost
import proofs.«109498_j75754633167331_1_alg».proof.Proof.KernelRun
import Idealize.ShloMosaic.PureOps.Ideal.Laws

set_option maxRecDepth 16384

noncomputable section

namespace Cert.KernelIdeal.Value

open Cert.KernelIdeal Cert.KernelIdeal.Gen Idealize.ShloMosaic Idealize.ShloMosaic.TcCoe Idealize.SL.Sem

/-- The nineteen argument arrays. -/
structure Args where
  a0 : FVec Ideal S300000x128 .f32
  a1 : FVec Ideal S300000x6 .f32
  a2 : FVec Ideal S500000x42 .f32
  a3 : (⟨S300000, .i32⟩ : BufTy).Contents (Elt Ideal)
  a4 : (⟨S500000, .i32⟩ : BufTy).Contents (Elt Ideal)
  a5 : (⟨S500000, .i32⟩ : BufTy).Contents (Elt Ideal)
  a6 : FVec Ideal S6x128 .f32
  a7 : FVec Ideal S42x8 .f32
  a8 : FVec Ideal S128x128 .f32
  a9 : FVec Ideal S128 .f32
  a10 : FVec Ideal S128x128 .f32
  a11 : FVec Ideal S128 .f32
  a12 : FVec Ideal S128x8x128 .f32
  a13 : FVec Ideal S128x128 .f32
  a14 : FVec Ideal S128 .f32
  a15 : FVec Ideal S2x6x128 .f32
  a16 : FVec Ideal S2x3x128x128 .f32
  a17 : FVec Ideal S2x3x128 .f32
  a18 : FVec Ideal S2x128x128 .f32

/-- The five whole-array functions the regions compute. -/
structure Fns where
  dense : FVec Ideal S300000x128 .f32 → FVec Ideal S128x128 .f32 → FVec Ideal S1x128 .f32 → FVec Ideal S300000x128 .f32
  edge : FVec Ideal S300000x128 .f32 → FVec Ideal S300000x6 .f32 → FVec Ideal S128x128 .f32 → FVec Ideal S1x128 .f32 → FVec Ideal S6x128 .f32 → FVec Ideal S300000x128 .f32
  gate : FVec Ideal S300000x128 .f32 → FVec Ideal S300000x6 .f32 → FVec Ideal S6x128 .f32 → FVec Ideal S300000x128 .f32
  mlp : FVec Ideal S20000x128 .f32 → FVec Ideal S3x128x128 .f32 → FVec Ideal S3x1x128 .f32 → FVec Ideal S128x128 .f32 → FVec Ideal S20000x128 .f32
  bil : FVec Ideal S500000x128 .f32 → FVec Ideal S500000x42 .f32 → FVec Ideal S42x8 .f32 → FVec Ideal S8x128x128 .f32 → FVec Ideal S500000x128 .f32

/-! ## Every intermediate array as a term in the arguments -/

def bji (a : Args) : FVec Ideal S1x128 .f32 :=
  shapeCast _ a.a11 shapeCasts_S128_S1x128
def bkj (a : Args) : FVec Ideal S1x128 .f32 :=
  shapeCast _ a.a9 shapeCasts_S128_S1x128
def xji (fn : Fns) (a : Args) : FVec Ideal S300000x128 .f32 :=
  fn.dense a.a0 a.a10 (bji a)
def xkjr (fn : Fns) (a : Args) : FVec Ideal S300000x128 .f32 :=
  fn.edge a.a0 a.a1 a.a8 (bkj a) a.a6
def lin0 (a : Args) : FVec Ideal S6x128 .f32 :=
  shapeCast _ (extractStridedSlice S1x6x128 ![0, 0, 0] a.a15 slices_S2x6x128_S1x6x128_0_0_0) shapeCasts_S1x6x128_S6x128
def g0 (fn : Fns) (a : Args) : FVec Ideal S300000x128 .f32 :=
  fn.gate a.a0 a.a1 (lin0 a)
def g0n (fn : Fns) (a : Args) : FVec Ideal S20000x128 .f32 :=
  Host.scatterAdd (F := Ideal) scatter_S20000x128_S300000x1_S300000x128_1_0_0_1 (broadcastInDim S20000x128 ![] bcast_S_S20000x128 (constant (F := Ideal) S_ .f32 0x00000000#32)) (broadcastInDim S300000x1 ![0] bcast_S300000_S300000x1_0 a.a3) (g0 fn a)
def w30 (a : Args) : FVec Ideal S3x128x128 .f32 :=
  shapeCast _ (extractStridedSlice S1x3x128x128 ![0, 0, 0, 0] a.a16 slices_S2x3x128x128_S1x3x128x128_0_0_0_0) shapeCasts_S1x3x128x128_S3x128x128
def b30 (a : Args) : FVec Ideal S3x1x128 .f32 :=
  shapeCast _ (shapeCast _ (extractStridedSlice S1x3x128 ![0, 0, 0] a.a17 slices_S2x3x128_S1x3x128_0_0_0) shapeCasts_S1x3x128_S3x128) shapeCasts_S3x128_S3x1x128
def wo0 (a : Args) : FVec Ideal S128x128 .f32 :=
  shapeCast _ (extractStridedSlice S1x128x128 ![0, 0, 0] a.a18 slices_S2x128x128_S1x128x128_0_0_0) shapeCasts_S1x128x128_S128x128
def p0 (fn : Fns) (a : Args) : FVec Ideal S20000x128 .f32 :=
  fn.mlp (g0n fn a) (w30 a) (b30 a) (wo0 a)
def xg (fn : Fns) (a : Args) : FVec Ideal S500000x128 .f32 :=
  Host.gather gather_S300000x128_S500000x1_S500000x128_1_0_n_n_0_1_1128 (xkjr fn a) (broadcastInDim S500000x1 ![0] bcast_S500000_S500000x1_0 (select (cmpi .slt a.a4 (broadcastInDim S500000 ![] bcast_S_S500000 (constantI S_ 32 0#32))) (addi a.a4 (broadcastInDim S500000 ![] bcast_S_S500000 (constantI S_ 32 300000#32))) a.a4))
def wt (a : Args) : FVec Ideal S8x128x128 .f32 :=
  transpose S8x128x128 [1, 2, 0] a.a12 transposes_S128x8x128_S8x128x128_1_2_0
def tt (fn : Fns) (a : Args) : FVec Ideal S500000x128 .f32 :=
  fn.bil (xg fn a) a.a2 a.a7 (wt a)
def agg (fn : Fns) (a : Args) : FVec Ideal S300000x128 .f32 :=
  Host.scatterAdd (F := Ideal) scatter_S300000x128_S500000x1_S500000x128_1_0_0_1 (broadcastInDim S300000x128 ![] bcast_S_S300000x128 (constant (F := Ideal) S_ .f32 0x00000000#32)) (broadcastInDim S500000x1 ![0] bcast_S500000_S500000x1_0 a.a5) (tt fn a)
def blin (a : Args) : FVec Ideal S1x128 .f32 :=
  shapeCast _ a.a14 shapeCasts_S128_S1x128
def x2 (fn : Fns) (a : Args) : FVec Ideal S300000x128 .f32 :=
  fn.dense (addf (F := Ideal) (xji fn a) (agg fn a)) a.a13 (blin a)
def lin1 (a : Args) : FVec Ideal S6x128 .f32 :=
  shapeCast _ (extractStridedSlice S1x6x128 ![1, 0, 0] a.a15 slices_S2x6x128_S1x6x128_1_0_0) shapeCasts_S1x6x128_S6x128
def g1 (fn : Fns) (a : Args) : FVec Ideal S300000x128 .f32 :=
  fn.gate (x2 fn a) a.a1 (lin1 a)
def g1n (fn : Fns) (a : Args) : FVec Ideal S20000x128 .f32 :=
  Host.scatterAdd (F := Ideal) scatter_S20000x128_S300000x1_S300000x128_1_0_0_1 (broadcastInDim S20000x128 ![] bcast_S_S20000x128 (constant (F := Ideal) S_ .f32 0x00000000#32)) (broadcastInDim S300000x1 ![0] bcast_S300000_S300000x1_0 a.a3) (g1 fn a)
def w31 (a : Args) : FVec Ideal S3x128x128 .f32 :=
  shapeCast _ (extractStridedSlice S1x3x128x128 ![1, 0, 0, 0] a.a16 slices_S2x3x128x128_S1x3x128x128_1_0_0_0) shapeCasts_S1x3x128x128_S3x128x128
def b31 (a : Args) : FVec Ideal S3x1x128 .f32 :=
  shapeCast _ (shapeCast _ (extractStridedSlice S1x3x128 ![1, 0, 0] a.a17 slices_S2x3x128_S1x3x128_1_0_0) shapeCasts_S1x3x128_S3x128) shapeCasts_S3x128_S3x1x128
def wo1 (a : Args) : FVec Ideal S128x128 .f32 :=
  shapeCast _ (extractStridedSlice S1x128x128 ![1, 0, 0] a.a18 slices_S2x128x128_S1x128x128_1_0_0) shapeCasts_S1x128x128_S128x128
def p1 (fn : Fns) (a : Args) : FVec Ideal S20000x128 .f32 :=
  fn.mlp (g1n fn a) (w31 a) (b31 a) (wo1 a)
def out (fn : Fns) (a : Args) : FVec Ideal S128 .f32 :=
  Host.reduceAdd (F := Ideal) (addf (F := Ideal) (p0 fn a) (p1 fn a)) (constant (F := Ideal) S_ .f32 0x00000000#32) reducesTo_S20000x128_S128_d0 h_S_

/-- Which region computes which function: each region's output array after the region, for any contents `V` the
    region is entered with, is the function of the arrays it stages. -/
structure Facts (fn : Fns) : Prop where
  h07 : ∀ (V : (c : Dev nD) → (b : Ref sig .tc) → Buf (Elt Ideal) ((c : Thread nD τ).loc b)) (c : Dev nD),
    (dat0 (F := Ideal) V c).arrAt 7 cfg0.N = fn.dense (V c main_arg0) (V c main_arg10) (V c main_v0)
  h08 : ∀ (V : (c : Dev nD) → (b : Ref sig .tc) → Buf (Elt Ideal) ((c : Thread nD τ).loc b)) (c : Dev nD),
    (dat0 (F := Ideal) V c).arrAt 8 cfg0.N = fn.edge (V c main_arg0) (V c main_arg1) (V c main_arg8) (V c main_v1) (V c main_arg6)
  h13 : ∀ (V : (c : Dev nD) → (b : Ref sig .tc) → Buf (Elt Ideal) ((c : Thread nD τ).loc b)) (c : Dev nD),
    (dat1 (F := Ideal) V c).arrAt 3 cfg1.N = fn.gate (V c main_arg0) (V c main_arg1) (V c main_v4)
  h24 : ∀ (V : (c : Dev nD) → (b : Ref sig .tc) → Buf (Elt Ideal) ((c : Thread nD τ).loc b)) (c : Dev nD),
    (dat2 (F := Ideal) V c).arrAt 4 cfg2.N = fn.mlp (V c main_v8) (V c main_v10) (V c main_v15) (V c main_v14)
  h34 : ∀ (V : (c : Dev nD) → (b : Ref sig .tc) → Buf (Elt Ideal) ((c : Thread nD τ).loc b)) (c : Dev nD),
    (dat3 (F := Ideal) V c).arrAt 4 cfg3.N = fn.bil (V c main_v23) (V c main_arg2) (V c main_arg7) (V c main_v24)
  h44 : ∀ (V : (c : Dev nD) → (b : Ref sig .tc) → Buf (Elt Ideal) ((c : Thread nD τ).loc b)) (c : Dev nD),
    (dat4 (F := Ideal) V c).arrAt 4 cfg4.N = fn.dense (addf (F := Ideal) (s := S300000x128) (φ := .f32) (V c main_v2_0) (V c main_v28)) (V c main_arg13) (V c main_v29)
  h53 : ∀ (V : (c : Dev nD) → (b : Ref sig .tc) → Buf (Elt Ideal) ((c : Thread nD τ).loc b)) (c : Dev nD),
    (dat5 (F := Ideal) V c).arrAt 3 cfg5.N = fn.gate (V c main_v30) (V c main_arg1) (V c main_v32)
  h64 : ∀ (V : (c : Dev nD) → (b : Ref sig .tc) → Buf (Elt Ideal) ((c : Thread nD τ).loc b)) (c : Dev nD),
    (dat6 (F := Ideal) V c).arrAt 4 cfg6.N = fn.mlp (V c main_v36) (V c main_v38) (V c main_v43) (V c main_v42)

/-! ## The chain read boundary by boundary -/

variable (fn : Fns)
variable (m : (ℓ : Loc nD τ sig) → Buf (Elt Ideal) ℓ) (ρ : Dev nD → PrngReg) (c : Dev nD)

/-- The launch contents of the arguments. -/
def argsOf : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18)⟩

theorem val0_main_arg0 : W0 m ρ c (Proc.devRef .tc main_arg0) = (argsOf m c).a0 :=
  rfl

theorem val1_main_arg0 : W1 m ρ c (Proc.devRef .tc main_arg0) = (argsOf m c).a0 :=
  (HostRead.keep0 (W0 m ρ c) main_arg0 (by decide)).trans
    (val0_main_arg0 m ρ c)

theorem val0_main_arg1 : W0 m ρ c (Proc.devRef .tc main_arg1) = (argsOf m c).a1 :=
  rfl

theorem val1_main_arg1 : W1 m ρ c (Proc.devRef .tc main_arg1) = (argsOf m c).a1 :=
  (HostRead.keep0 (W0 m ρ c) main_arg1 (by decide)).trans
    (val0_main_arg1 m ρ c)

theorem val0_main_arg10 : W0 m ρ c (Proc.devRef .tc main_arg10) = (argsOf m c).a10 :=
  rfl

theorem val1_main_arg10 : W1 m ρ c (Proc.devRef .tc main_arg10) = (argsOf m c).a10 :=
  (HostRead.keep0 (W0 m ρ c) main_arg10 (by decide)).trans
    (val0_main_arg10 m ρ c)

theorem val0_main_arg11 : W0 m ρ c (Proc.devRef .tc main_arg11) = (argsOf m c).a11 :=
  rfl

theorem val1_main_v0 : W1 m ρ c (Proc.devRef .tc main_v0) = bji (argsOf m c) :=
  (HostRead.read0_main_v0 (W0 m ρ c)).trans (by
    simp only [val0_main_arg11 m ρ c] <;> rfl)

theorem val0_main_arg8 : W0 m ρ c (Proc.devRef .tc main_arg8) = (argsOf m c).a8 :=
  rfl

theorem val1_main_arg8 : W1 m ρ c (Proc.devRef .tc main_arg8) = (argsOf m c).a8 :=
  (HostRead.keep0 (W0 m ρ c) main_arg8 (by decide)).trans
    (val0_main_arg8 m ρ c)

theorem val0_main_arg9 : W0 m ρ c (Proc.devRef .tc main_arg9) = (argsOf m c).a9 :=
  rfl

theorem val1_main_v1 : W1 m ρ c (Proc.devRef .tc main_v1) = bkj (argsOf m c) :=
  (HostRead.read0_main_v1 (W0 m ρ c)).trans (by
    simp only [val0_main_arg9 m ρ c] <;> rfl)

theorem val0_main_arg6 : W0 m ρ c (Proc.devRef .tc main_arg6) = (argsOf m c).a6 :=
  rfl

theorem val1_main_arg6 : W1 m ρ c (Proc.devRef .tc main_arg6) = (argsOf m c).a6 :=
  (HostRead.keep0 (W0 m ρ c) main_arg6 (by decide)).trans
    (val0_main_arg6 m ρ c)

theorem val3_main_arg0 : W3 m ρ c (Proc.devRef .tc main_arg0) = (argsOf m c).a0 :=
  (HostRead.keep1 (W2 m ρ c) main_arg0 (by decide)).trans
    (((W2_arr m ρ c 0).trans (((dat0 (V1 m ρ) c).arrAt_in 0 rfl _).trans (A_eq0 (V1 m ρ) c 0))).trans
    ((HostRead.keep0 (W0 m ρ c) main_arg0 (by decide)).trans
    (val0_main_arg0 m ρ c)))

theorem val3_main_arg1 : W3 m ρ c (Proc.devRef .tc main_arg1) = (argsOf m c).a1 :=
  (HostRead.keep1 (W2 m ρ c) main_arg1 (by decide)).trans
    (((W2_arr m ρ c 1).trans (((dat0 (V1 m ρ) c).arrAt_in 1 rfl _).trans (A_eq0 (V1 m ρ) c 1))).trans
    ((HostRead.keep0 (W0 m ρ c) main_arg1 (by decide)).trans
    (val0_main_arg1 m ρ c)))

theorem val0_main_arg15 : W0 m ρ c (Proc.devRef .tc main_arg15) = (argsOf m c).a15 :=
  rfl

theorem val2_main_arg15 : W2 m ρ c (Proc.devRef .tc main_arg15) = (argsOf m c).a15 :=
  (W2_of_ne m ρ c main_arg15 (by decide)).trans
    ((HostRead.keep0 (W0 m ρ c) main_arg15 (by decide)).trans
    (val0_main_arg15 m ρ c))

theorem val3_main_v4 : W3 m ρ c (Proc.devRef .tc main_v4) = lin0 (argsOf m c) :=
  (HostRead.read1_main_v4 (W2 m ρ c)).trans (by
    simp only [val2_main_arg15 m ρ c] <;> rfl)

theorem val0_main_arg3 : W0 m ρ c (Proc.devRef .tc main_arg3) = (argsOf m c).a3 :=
  rfl

theorem val4_main_arg3 : W4 m ρ c (Proc.devRef .tc main_arg3) = (argsOf m c).a3 :=
  (W4_of_ne m ρ c main_arg3 (by decide)).trans
    ((HostRead.keep1 (W2 m ρ c) main_arg3 (by decide)).trans
    ((W2_of_ne m ρ c main_arg3 (by decide)).trans
    ((HostRead.keep0 (W0 m ρ c) main_arg3 (by decide)).trans
    (val0_main_arg3 m ρ c))))

theorem val4_main_v5 (H : Facts fn) : W4 m ρ c (Proc.devRef .tc main_v5) = g0 fn (argsOf m c) :=
  (W4_arr m ρ c 3).trans ((H.h13 (V3 m ρ) c).trans (by
    simp only [V3, val3_main_arg0 m ρ c, val3_main_arg1 m ρ c, val3_main_v4 m ρ c] <;> rfl))

theorem val5_main_v8 (H : Facts fn) : W5 m ρ c (Proc.devRef .tc main_v8) = g0n fn (argsOf m c) :=
  (HostRead.read2_main_v8 (W4 m ρ c)).trans (by
    simp only [val4_main_arg3 m ρ c, val4_main_v5 fn m ρ c H] <;> rfl)

theorem val0_main_arg16 : W0 m ρ c (Proc.devRef .tc main_arg16) = (argsOf m c).a16 :=
  rfl

theorem val4_main_arg16 : W4 m ρ c (Proc.devRef .tc main_arg16) = (argsOf m c).a16 :=
  (W4_of_ne m ρ c main_arg16 (by decide)).trans
    ((HostRead.keep1 (W2 m ρ c) main_arg16 (by decide)).trans
    ((W2_of_ne m ρ c main_arg16 (by decide)).trans
    ((HostRead.keep0 (W0 m ρ c) main_arg16 (by decide)).trans
    (val0_main_arg16 m ρ c))))

theorem val5_main_v10 : W5 m ρ c (Proc.devRef .tc main_v10) = w30 (argsOf m c) :=
  (HostRead.read2_main_v10 (W4 m ρ c)).trans (by
    simp only [val4_main_arg16 m ρ c] <;> rfl)

theorem val0_main_arg17 : W0 m ρ c (Proc.devRef .tc main_arg17) = (argsOf m c).a17 :=
  rfl

theorem val4_main_arg17 : W4 m ρ c (Proc.devRef .tc main_arg17) = (argsOf m c).a17 :=
  (W4_of_ne m ρ c main_arg17 (by decide)).trans
    ((HostRead.keep1 (W2 m ρ c) main_arg17 (by decide)).trans
    ((W2_of_ne m ρ c main_arg17 (by decide)).trans
    ((HostRead.keep0 (W0 m ρ c) main_arg17 (by decide)).trans
    (val0_main_arg17 m ρ c))))

theorem val5_main_v15 : W5 m ρ c (Proc.devRef .tc main_v15) = b30 (argsOf m c) :=
  (HostRead.read2_main_v15 (W4 m ρ c)).trans (by
    simp only [val4_main_arg17 m ρ c] <;> rfl)

theorem val0_main_arg18 : W0 m ρ c (Proc.devRef .tc main_arg18) = (argsOf m c).a18 :=
  rfl

theorem val4_main_arg18 : W4 m ρ c (Proc.devRef .tc main_arg18) = (argsOf m c).a18 :=
  (W4_of_ne m ρ c main_arg18 (by decide)).trans
    ((HostRead.keep1 (W2 m ρ c) main_arg18 (by decide)).trans
    ((W2_of_ne m ρ c main_arg18 (by decide)).trans
    ((HostRead.keep0 (W0 m ρ c) main_arg18 (by decide)).trans
    (val0_main_arg18 m ρ c))))

theorem val5_main_v14 : W5 m ρ c (Proc.devRef .tc main_v14) = wo0 (argsOf m c) :=
  (HostRead.read2_main_v14 (W4 m ρ c)).trans (by
    simp only [val4_main_arg18 m ρ c] <;> rfl)

theorem val2_main_v2_1 (H : Facts fn) : W2 m ρ c (Proc.devRef .tc main_v2_1) = xkjr fn (argsOf m c) :=
  (W2_arr m ρ c 8).trans ((H.h08 (V1 m ρ) c).trans (by
    simp only [V1, val1_main_arg0 m ρ c, val1_main_arg1 m ρ c, val1_main_arg10 m ρ c, val1_main_v0 m ρ c, val1_main_arg8 m ρ c, val1_main_v1 m ρ c, val1_main_arg6 m ρ c] <;> rfl))

theorem val6_main_v2_1 (H : Facts fn) : W6 m ρ c (Proc.devRef .tc main_v2_1) = xkjr fn (argsOf m c) :=
  (W6_of_ne m ρ c main_v2_1 (by decide)).trans
    ((HostRead.keep2 (W4 m ρ c) main_v2_1 (by decide)).trans
    ((W4_of_ne m ρ c main_v2_1 (by decide)).trans
    ((HostRead.keep1 (W2 m ρ c) main_v2_1 (by decide)).trans
    (val2_main_v2_1 fn m ρ c H))))

theorem val0_main_arg4 : W0 m ρ c (Proc.devRef .tc main_arg4) = (argsOf m c).a4 :=
  rfl

theorem val6_main_arg4 : W6 m ρ c (Proc.devRef .tc main_arg4) = (argsOf m c).a4 :=
  (W6_of_ne m ρ c main_arg4 (by decide)).trans
    ((HostRead.keep2 (W4 m ρ c) main_arg4 (by decide)).trans
    ((W4_of_ne m ρ c main_arg4 (by decide)).trans
    ((HostRead.keep1 (W2 m ρ c) main_arg4 (by decide)).trans
    ((W2_of_ne m ρ c main_arg4 (by decide)).trans
    ((HostRead.keep0 (W0 m ρ c) main_arg4 (by decide)).trans
    (val0_main_arg4 m ρ c))))))

theorem val7_main_v23 (H : Facts fn) : W7 m ρ c (Proc.devRef .tc main_v23) = xg fn (argsOf m c) :=
  (HostRead.read3_main_v23 (W6 m ρ c)).trans (by
    simp only [val6_main_v2_1 fn m ρ c H, val6_main_arg4 m ρ c] <;> rfl)

theorem val0_main_arg2 : W0 m ρ c (Proc.devRef .tc main_arg2) = (argsOf m c).a2 :=
  rfl

theorem val7_main_arg2 : W7 m ρ c (Proc.devRef .tc main_arg2) = (argsOf m c).a2 :=
  (HostRead.keep3 (W6 m ρ c) main_arg2 (by decide)).trans
    ((W6_of_ne m ρ c main_arg2 (by decide)).trans
    ((HostRead.keep2 (W4 m ρ c) main_arg2 (by decide)).trans
    ((W4_of_ne m ρ c main_arg2 (by decide)).trans
    ((HostRead.keep1 (W2 m ρ c) main_arg2 (by decide)).trans
    ((W2_of_ne m ρ c main_arg2 (by decide)).trans
    ((HostRead.keep0 (W0 m ρ c) main_arg2 (by decide)).trans
    (val0_main_arg2 m ρ c)))))))

theorem val0_main_arg7 : W0 m ρ c (Proc.devRef .tc main_arg7) = (argsOf m c).a7 :=
  rfl

theorem val7_main_arg7 : W7 m ρ c (Proc.devRef .tc main_arg7) = (argsOf m c).a7 :=
  (HostRead.keep3 (W6 m ρ c) main_arg7 (by decide)).trans
    ((W6_of_ne m ρ c main_arg7 (by decide)).trans
    ((HostRead.keep2 (W4 m ρ c) main_arg7 (by decide)).trans
    ((W4_of_ne m ρ c main_arg7 (by decide)).trans
    ((HostRead.keep1 (W2 m ρ c) main_arg7 (by decide)).trans
    ((W2_of_ne m ρ c main_arg7 (by decide)).trans
    ((HostRead.keep0 (W0 m ρ c) main_arg7 (by decide)).trans
    (val0_main_arg7 m ρ c)))))))

theorem val0_main_arg12 : W0 m ρ c (Proc.devRef .tc main_arg12) = (argsOf m c).a12 :=
  rfl

theorem val6_main_arg12 : W6 m ρ c (Proc.devRef .tc main_arg12) = (argsOf m c).a12 :=
  (W6_of_ne m ρ c main_arg12 (by decide)).trans
    ((HostRead.keep2 (W4 m ρ c) main_arg12 (by decide)).trans
    ((W4_of_ne m ρ c main_arg12 (by decide)).trans
    ((HostRead.keep1 (W2 m ρ c) main_arg12 (by decide)).trans
    ((W2_of_ne m ρ c main_arg12 (by decide)).trans
    ((HostRead.keep0 (W0 m ρ c) main_arg12 (by decide)).trans
    (val0_main_arg12 m ρ c))))))

theorem val7_main_v24 : W7 m ρ c (Proc.devRef .tc main_v24) = wt (argsOf m c) :=
  (HostRead.read3_main_v24 (W6 m ρ c)).trans (by
    simp only [val6_main_arg12 m ρ c] <;> rfl)

theorem val2_main_v2_0 (H : Facts fn) : W2 m ρ c (Proc.devRef .tc main_v2_0) = xji fn (argsOf m c) :=
  (W2_arr m ρ c 7).trans ((H.h07 (V1 m ρ) c).trans (by
    simp only [V1, val1_main_arg0 m ρ c, val1_main_arg1 m ρ c, val1_main_arg10 m ρ c, val1_main_v0 m ρ c, val1_main_arg8 m ρ c, val1_main_v1 m ρ c, val1_main_arg6 m ρ c] <;> rfl))

theorem val9_main_v2_0 (H : Facts fn) : W9 m ρ c (Proc.devRef .tc main_v2_0) = xji fn (argsOf m c) :=
  (HostRead.keep4 (W8 m ρ c) main_v2_0 (by decide)).trans
    ((W8_of_ne m ρ c main_v2_0 (by decide)).trans
    ((HostRead.keep3 (W6 m ρ c) main_v2_0 (by decide)).trans
    ((W6_of_ne m ρ c main_v2_0 (by decide)).trans
    ((HostRead.keep2 (W4 m ρ c) main_v2_0 (by decide)).trans
    ((W4_of_ne m ρ c main_v2_0 (by decide)).trans
    ((HostRead.keep1 (W2 m ρ c) main_v2_0 (by decide)).trans
    (val2_main_v2_0 fn m ρ c H)))))))

theorem val0_main_arg5 : W0 m ρ c (Proc.devRef .tc main_arg5) = (argsOf m c).a5 :=
  rfl

theorem val8_main_arg5 : W8 m ρ c (Proc.devRef .tc main_arg5) = (argsOf m c).a5 :=
  (W8_of_ne m ρ c main_arg5 (by decide)).trans
    ((HostRead.keep3 (W6 m ρ c) main_arg5 (by decide)).trans
    ((W6_of_ne m ρ c main_arg5 (by decide)).trans
    ((HostRead.keep2 (W4 m ρ c) main_arg5 (by decide)).trans
    ((W4_of_ne m ρ c main_arg5 (by decide)).trans
    ((HostRead.keep1 (W2 m ρ c) main_arg5 (by decide)).trans
    ((W2_of_ne m ρ c main_arg5 (by decide)).trans
    ((HostRead.keep0 (W0 m ρ c) main_arg5 (by decide)).trans
    (val0_main_arg5 m ρ c))))))))

theorem val8_main_v25 (H : Facts fn) : W8 m ρ c (Proc.devRef .tc main_v25) = tt fn (argsOf m c) :=
  (W8_arr m ρ c 4).trans ((H.h34 (V7 m ρ) c).trans (by
    simp only [V7, val7_main_v23 fn m ρ c H, val7_main_arg2 m ρ c, val7_main_arg7 m ρ c, val7_main_v24 m ρ c] <;> rfl))

theorem val9_main_v28 (H : Facts fn) : W9 m ρ c (Proc.devRef .tc main_v28) = agg fn (argsOf m c) :=
  (HostRead.read4_main_v28 (W8 m ρ c)).trans (by
    simp only [val8_main_arg5 m ρ c, val8_main_v25 fn m ρ c H] <;> rfl)

theorem val0_main_arg13 : W0 m ρ c (Proc.devRef .tc main_arg13) = (argsOf m c).a13 :=
  rfl

theorem val9_main_arg13 : W9 m ρ c (Proc.devRef .tc main_arg13) = (argsOf m c).a13 :=
  (HostRead.keep4 (W8 m ρ c) main_arg13 (by decide)).trans
    ((W8_of_ne m ρ c main_arg13 (by decide)).trans
    ((HostRead.keep3 (W6 m ρ c) main_arg13 (by decide)).trans
    ((W6_of_ne m ρ c main_arg13 (by decide)).trans
    ((HostRead.keep2 (W4 m ρ c) main_arg13 (by decide)).trans
    ((W4_of_ne m ρ c main_arg13 (by decide)).trans
    ((HostRead.keep1 (W2 m ρ c) main_arg13 (by decide)).trans
    ((W2_of_ne m ρ c main_arg13 (by decide)).trans
    ((HostRead.keep0 (W0 m ρ c) main_arg13 (by decide)).trans
    (val0_main_arg13 m ρ c)))))))))

theorem val0_main_arg14 : W0 m ρ c (Proc.devRef .tc main_arg14) = (argsOf m c).a14 :=
  rfl

theorem val8_main_arg14 : W8 m ρ c (Proc.devRef .tc main_arg14) = (argsOf m c).a14 :=
  (W8_of_ne m ρ c main_arg14 (by decide)).trans
    ((HostRead.keep3 (W6 m ρ c) main_arg14 (by decide)).trans
    ((W6_of_ne m ρ c main_arg14 (by decide)).trans
    ((HostRead.keep2 (W4 m ρ c) main_arg14 (by decide)).trans
    ((W4_of_ne m ρ c main_arg14 (by decide)).trans
    ((HostRead.keep1 (W2 m ρ c) main_arg14 (by decide)).trans
    ((W2_of_ne m ρ c main_arg14 (by decide)).trans
    ((HostRead.keep0 (W0 m ρ c) main_arg14 (by decide)).trans
    (val0_main_arg14 m ρ c))))))))

theorem val9_main_v29 : W9 m ρ c (Proc.devRef .tc main_v29) = blin (argsOf m c) :=
  (HostRead.read4_main_v29 (W8 m ρ c)).trans (by
    simp only [val8_main_arg14 m ρ c] <;> rfl)

theorem val10_main_v30 (H : Facts fn) : W10 m ρ c (Proc.devRef .tc main_v30) = x2 fn (argsOf m c) :=
  (W10_arr m ρ c 4).trans ((H.h44 (V9 m ρ) c).trans (by
    simp only [V9, val9_main_v2_0 fn m ρ c H, val9_main_v28 fn m ρ c H, val9_main_arg13 m ρ c, val9_main_v29 m ρ c] <;> rfl))

theorem val11_main_v30 (H : Facts fn) : W11 m ρ c (Proc.devRef .tc main_v30) = x2 fn (argsOf m c) :=
  (HostRead.keep5 (W10 m ρ c) main_v30 (by decide)).trans
    (val10_main_v30 fn m ρ c H)

theorem val11_main_arg1 : W11 m ρ c (Proc.devRef .tc main_arg1) = (argsOf m c).a1 :=
  (HostRead.keep5 (W10 m ρ c) main_arg1 (by decide)).trans
    ((W10_of_ne m ρ c main_arg1 (by decide)).trans
    ((HostRead.keep4 (W8 m ρ c) main_arg1 (by decide)).trans
    ((W8_of_ne m ρ c main_arg1 (by decide)).trans
    ((HostRead.keep3 (W6 m ρ c) main_arg1 (by decide)).trans
    ((W6_of_ne m ρ c main_arg1 (by decide)).trans
    ((HostRead.keep2 (W4 m ρ c) main_arg1 (by decide)).trans
    (((W4_arr m ρ c 1).trans (((dat1 (V3 m ρ) c).arrAt_in 1 rfl _).trans (A_eq1 (V3 m ρ) c 1))).trans
    ((HostRead.keep1 (W2 m ρ c) main_arg1 (by decide)).trans
    (((W2_arr m ρ c 1).trans (((dat0 (V1 m ρ) c).arrAt_in 1 rfl _).trans (A_eq0 (V1 m ρ) c 1))).trans
    ((HostRead.keep0 (W0 m ρ c) main_arg1 (by decide)).trans
    (val0_main_arg1 m ρ c)))))))))))

theorem val10_main_arg15 : W10 m ρ c (Proc.devRef .tc main_arg15) = (argsOf m c).a15 :=
  (W10_of_ne m ρ c main_arg15 (by decide)).trans
    ((HostRead.keep4 (W8 m ρ c) main_arg15 (by decide)).trans
    ((W8_of_ne m ρ c main_arg15 (by decide)).trans
    ((HostRead.keep3 (W6 m ρ c) main_arg15 (by decide)).trans
    ((W6_of_ne m ρ c main_arg15 (by decide)).trans
    ((HostRead.keep2 (W4 m ρ c) main_arg15 (by decide)).trans
    ((W4_of_ne m ρ c main_arg15 (by decide)).trans
    ((HostRead.keep1 (W2 m ρ c) main_arg15 (by decide)).trans
    ((W2_of_ne m ρ c main_arg15 (by decide)).trans
    ((HostRead.keep0 (W0 m ρ c) main_arg15 (by decide)).trans
    (val0_main_arg15 m ρ c))))))))))

theorem val11_main_v32 : W11 m ρ c (Proc.devRef .tc main_v32) = lin1 (argsOf m c) :=
  (HostRead.read5_main_v32 (W10 m ρ c)).trans (by
    simp only [val10_main_arg15 m ρ c] <;> rfl)

theorem val12_main_arg3 : W12 m ρ c (Proc.devRef .tc main_arg3) = (argsOf m c).a3 :=
  (W12_of_ne m ρ c main_arg3 (by decide)).trans
    ((HostRead.keep5 (W10 m ρ c) main_arg3 (by decide)).trans
    ((W10_of_ne m ρ c main_arg3 (by decide)).trans
    ((HostRead.keep4 (W8 m ρ c) main_arg3 (by decide)).trans
    ((W8_of_ne m ρ c main_arg3 (by decide)).trans
    ((HostRead.keep3 (W6 m ρ c) main_arg3 (by decide)).trans
    ((W6_of_ne m ρ c main_arg3 (by decide)).trans
    ((HostRead.keep2 (W4 m ρ c) main_arg3 (by decide)).trans
    ((W4_of_ne m ρ c main_arg3 (by decide)).trans
    ((HostRead.keep1 (W2 m ρ c) main_arg3 (by decide)).trans
    ((W2_of_ne m ρ c main_arg3 (by decide)).trans
    ((HostRead.keep0 (W0 m ρ c) main_arg3 (by decide)).trans
    (val0_main_arg3 m ρ c))))))))))))

theorem val12_main_v33 (H : Facts fn) : W12 m ρ c (Proc.devRef .tc main_v33) = g1 fn (argsOf m c) :=
  (W12_arr m ρ c 3).trans ((H.h53 (V11 m ρ) c).trans (by
    simp only [V11, val11_main_v30 fn m ρ c H, val11_main_arg1 m ρ c, val11_main_v32 m ρ c] <;> rfl))

theorem val13_main_v36 (H : Facts fn) : W13 m ρ c (Proc.devRef .tc main_v36) = g1n fn (argsOf m c) :=
  (HostRead.read6_main_v36 (W12 m ρ c)).trans (by
    simp only [val12_main_arg3 m ρ c, val12_main_v33 fn m ρ c H] <;> rfl)

theorem val12_main_arg16 : W12 m ρ c (Proc.devRef .tc main_arg16) = (argsOf m c).a16 :=
  (W12_of_ne m ρ c main_arg16 (by decide)).trans
    ((HostRead.keep5 (W10 m ρ c) main_arg16 (by decide)).trans
    ((W10_of_ne m ρ c main_arg16 (by decide)).trans
    ((HostRead.keep4 (W8 m ρ c) main_arg16 (by decide)).trans
    ((W8_of_ne m ρ c main_arg16 (by decide)).trans
    ((HostRead.keep3 (W6 m ρ c) main_arg16 (by decide)).trans
    ((W6_of_ne m ρ c main_arg16 (by decide)).trans
    ((HostRead.keep2 (W4 m ρ c) main_arg16 (by decide)).trans
    ((W4_of_ne m ρ c main_arg16 (by decide)).trans
    ((HostRead.keep1 (W2 m ρ c) main_arg16 (by decide)).trans
    ((W2_of_ne m ρ c main_arg16 (by decide)).trans
    ((HostRead.keep0 (W0 m ρ c) main_arg16 (by decide)).trans
    (val0_main_arg16 m ρ c))))))))))))

theorem val13_main_v38 : W13 m ρ c (Proc.devRef .tc main_v38) = w31 (argsOf m c) :=
  (HostRead.read6_main_v38 (W12 m ρ c)).trans (by
    simp only [val12_main_arg16 m ρ c] <;> rfl)

theorem val12_main_arg17 : W12 m ρ c (Proc.devRef .tc main_arg17) = (argsOf m c).a17 :=
  (W12_of_ne m ρ c main_arg17 (by decide)).trans
    ((HostRead.keep5 (W10 m ρ c) main_arg17 (by decide)).trans
    ((W10_of_ne m ρ c main_arg17 (by decide)).trans
    ((HostRead.keep4 (W8 m ρ c) main_arg17 (by decide)).trans
    ((W8_of_ne m ρ c main_arg17 (by decide)).trans
    ((HostRead.keep3 (W6 m ρ c) main_arg17 (by decide)).trans
    ((W6_of_ne m ρ c main_arg17 (by decide)).trans
    ((HostRead.keep2 (W4 m ρ c) main_arg17 (by decide)).trans
    ((W4_of_ne m ρ c main_arg17 (by decide)).trans
    ((HostRead.keep1 (W2 m ρ c) main_arg17 (by decide)).trans
    ((W2_of_ne m ρ c main_arg17 (by decide)).trans
    ((HostRead.keep0 (W0 m ρ c) main_arg17 (by decide)).trans
    (val0_main_arg17 m ρ c))))))))))))

theorem val13_main_v43 : W13 m ρ c (Proc.devRef .tc main_v43) = b31 (argsOf m c) :=
  (HostRead.read6_main_v43 (W12 m ρ c)).trans (by
    simp only [val12_main_arg17 m ρ c] <;> rfl)

theorem val12_main_arg18 : W12 m ρ c (Proc.devRef .tc main_arg18) = (argsOf m c).a18 :=
  (W12_of_ne m ρ c main_arg18 (by decide)).trans
    ((HostRead.keep5 (W10 m ρ c) main_arg18 (by decide)).trans
    ((W10_of_ne m ρ c main_arg18 (by decide)).trans
    ((HostRead.keep4 (W8 m ρ c) main_arg18 (by decide)).trans
    ((W8_of_ne m ρ c main_arg18 (by decide)).trans
    ((HostRead.keep3 (W6 m ρ c) main_arg18 (by decide)).trans
    ((W6_of_ne m ρ c main_arg18 (by decide)).trans
    ((HostRead.keep2 (W4 m ρ c) main_arg18 (by decide)).trans
    ((W4_of_ne m ρ c main_arg18 (by decide)).trans
    ((HostRead.keep1 (W2 m ρ c) main_arg18 (by decide)).trans
    ((W2_of_ne m ρ c main_arg18 (by decide)).trans
    ((HostRead.keep0 (W0 m ρ c) main_arg18 (by decide)).trans
    (val0_main_arg18 m ρ c))))))))))))

theorem val13_main_v42 : W13 m ρ c (Proc.devRef .tc main_v42) = wo1 (argsOf m c) :=
  (HostRead.read6_main_v42 (W12 m ρ c)).trans (by
    simp only [val12_main_arg18 m ρ c] <;> rfl)

theorem val6_main_v16 (H : Facts fn) : W6 m ρ c (Proc.devRef .tc main_v16) = p0 fn (argsOf m c) :=
  (W6_arr m ρ c 4).trans ((H.h24 (V5 m ρ) c).trans (by
    simp only [V5, val5_main_v8 fn m ρ c H, val5_main_v10 m ρ c, val5_main_v15 m ρ c, val5_main_v14 m ρ c] <;> rfl))

theorem val14_main_v16 (H : Facts fn) : W14 m ρ c (Proc.devRef .tc main_v16) = p0 fn (argsOf m c) :=
  (W14_of_ne m ρ c main_v16 (by decide)).trans
    ((HostRead.keep6 (W12 m ρ c) main_v16 (by decide)).trans
    ((W12_of_ne m ρ c main_v16 (by decide)).trans
    ((HostRead.keep5 (W10 m ρ c) main_v16 (by decide)).trans
    ((W10_of_ne m ρ c main_v16 (by decide)).trans
    ((HostRead.keep4 (W8 m ρ c) main_v16 (by decide)).trans
    ((W8_of_ne m ρ c main_v16 (by decide)).trans
    ((HostRead.keep3 (W6 m ρ c) main_v16 (by decide)).trans
    (val6_main_v16 fn m ρ c H))))))))

theorem val14_main_v44 (H : Facts fn) : W14 m ρ c (Proc.devRef .tc main_v44) = p1 fn (argsOf m c) :=
  (W14_arr m ρ c 4).trans ((H.h64 (V13 m ρ) c).trans (by
    simp only [V13, val13_main_v36 fn m ρ c H, val13_main_v38 m ρ c, val13_main_v43 m ρ c, val13_main_v42 m ρ c] <;> rfl))

theorem val15_main_v46 (H : Facts fn) : W15 m ρ c (Proc.devRef .tc main_v46) = out fn (argsOf m c) :=
  (HostRead.read7_main_v46 (W14 m ρ c)).trans (by
    simp only [val14_main_v16 fn m ρ c H, val14_main_v44 fn m ρ c H] <;> rfl)

/-! ## The run -/

/-- Every weakly fair execution of the idealized kernel program terminates without a fault, with the result buffer at
    `out` of the launch contents of the arguments, and the arguments as launched. -/
theorem run (H : Facts fn) : θ_run defs (onTc (τ := τ) (main (F := Ideal))) ⟨m, fun _ => 0, ρ⟩ (fun r => ∀ c : Dev nD,
      r.2.mem ((c.tc : Thread nD τ).loc main_v46) = out fn (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_v46 (by decide))).trans (val15_main_v46 fn m ρ c H),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c),
     (h c _ (mem_uc main_arg13 (by decide))).trans (W15_main_arg13 m ρ c),
     (h c _ (mem_uc main_arg14 (by decide))).trans (W15_main_arg14 m ρ c),
     (h c _ (mem_uc main_arg15 (by decide))).trans (W15_main_arg15 m ρ c),
     (h c _ (mem_uc main_arg16 (by decide))).trans (W15_main_arg16 m ρ c),
     (h c _ (mem_uc main_arg17 (by decide))).trans (W15_main_arg17 m ρ c),
     (h c _ (mem_uc main_arg18 (by decide))).trans (W15_main_arg18 m ρ c)⟩)
    (Cert.KernelIdeal.Run.run_all m ρ)

end Cert.KernelIdeal.Value

end
-- ==== Proof.RefValue.lean ====
/-
  The reference program's result is the same function of the arguments.

  The reference's run ends with its result buffer at one composed term of the argument arrays: host matrix products,
  broadcast biases, the logistic function spelt 1 / (1 + exp (−v)), the two segment sums over nodes, the gather, the
  eight-slice bilinear accumulation and the segment sum over edges.  Each stretch of that term is one of the five
  whole-array functions the kernel's regions compute (taken as hypotheses here, one equation per function); the host
  operations between them (segment sums, gather, slices and reshapes of the stacked parameters, the final add and
  column sum) are the same operations on both sides.  So the term is the kernel's `out` of the same arguments.
-/
import proofs.«109498_j75754633167331_1_alg».proof.Proof.KernelValue
import proofs.«109498_j75754633167331_1_alg».proof.Proof.Gen.ReferenceIdeal.Run

set_option maxRecDepth 16384

noncomputable section

namespace Cert.RefValue

open Cert.ReferenceIdeal Cert.ReferenceIdeal.Gen Cert.ReferenceIdeal.Value Idealize.ShloMosaic Idealize.ShloMosaic.TcCoe Idealize.SL.Sem
open Cert.KernelIdeal.Value (Fns Args)

/-- The reference's spelling of each of the five functions, on any arrays. -/
structure RefFacts (fn : Fns) : Prop where
  r_gate : ∀ (rbf : FVec Ideal S300000x6 .f32) (lin : FVec Ideal S6x128 .f32) (xe : FVec Ideal S300000x128 .f32),
    mulf (Host.dotGeneral dot_S300000x6_S6x128_S300000x128_1_0_0_1_n_n none rbf lin) xe = fn.gate xe rbf lin
  r_dense : ∀ (x : FVec Ideal S300000x128 .f32) (W : FVec Ideal S128x128 .f32) (b : FVec Ideal S128 .f32),
    (mulf (addf (Host.dotGeneral dot_S300000x128_S128x128_S300000x128_1_0_0_1_n_n none x W) (broadcastInDim S300000x128 ![0, 1] bcast_S1x128_S300000x128_0_1 (broadcastInDim S1x128 ![1] bcast_S128_S1x128_1 b))) (Host.divf (broadcastInDim S300000x128 ![] bcast_S_S300000x128 (constant S_ .f32 0x3F800000#32)) (addf (broadcastInDim S300000x128 ![] bcast_S_S300000x128 (constant S_ .f32 0x3F800000#32)) (Host.exp (Host.negf (addf (Host.dotGeneral dot_S300000x128_S128x128_S300000x128_1_0_0_1_n_n none x W) (broadcastInDim S300000x128 ![0, 1] bcast_S1x128_S300000x128_0_1 (broadcastInDim S1x128 ![1] bcast_S128_S1x128_1 b)))))))) = fn.dense x W (shapeCast _ b Cert.KernelIdeal.Facts₀.shapeCasts_S128_S1x128)
  r_edge : ∀ (x : FVec Ideal S300000x128 .f32) (rbf : FVec Ideal S300000x6 .f32) (W : FVec Ideal S128x128 .f32) (b : FVec Ideal S128 .f32) (Wr : FVec Ideal S6x128 .f32),
    mulf (mulf (addf (Host.dotGeneral dot_S300000x128_S128x128_S300000x128_1_0_0_1_n_n none x W) (broadcastInDim S300000x128 ![0, 1] bcast_S1x128_S300000x128_0_1 (broadcastInDim S1x128 ![1] bcast_S128_S1x128_1 b))) (Host.divf (broadcastInDim S300000x128 ![] bcast_S_S300000x128 (constant S_ .f32 0x3F800000#32)) (addf (broadcastInDim S300000x128 ![] bcast_S_S300000x128 (constant S_ .f32 0x3F800000#32)) (Host.exp (Host.negf (addf (Host.dotGeneral dot_S300000x128_S128x128_S300000x128_1_0_0_1_n_n none x W) (broadcastInDim S300000x128 ![0, 1] bcast_S1x128_S300000x128_0_1 (broadcastInDim S1x128 ![1] bcast_S128_S1x128_1 b)))))))) (Host.dotGeneral dot_S300000x6_S6x128_S300000x128_1_0_0_1_n_n none rbf Wr)
      = fn.edge x rbf W (shapeCast _ b Cert.KernelIdeal.Facts₀.shapeCasts_S128_S1x128) Wr
  r_mlp : ∀ (g : FVec Ideal S20000x128 .f32) (W3 : FVec Ideal S3x128x128 .f32) (b : FVec Ideal S3x128 .f32) (Wo : FVec Ideal S128x128 .f32),
    Host.dotGeneral dot_S20000x128_S128x128_S20000x128_1_0_0_1_n_n none (mulf (addf (Host.dotGeneral dot_S20000x128_S128x128_S20000x128_1_0_0_1_n_n none (mulf (addf (Host.dotGeneral dot_S20000x128_S128x128_S20000x128_1_0_0_1_n_n none (mulf (addf (Host.dotGeneral dot_S20000x128_S128x128_S20000x128_1_0_0_1_n_n none g (shapeCast _ (extractStridedSlice S1x128x128 ![0, 0, 0] W3 slices_S3x128x128_S1x128x128_0_0_0) shapeCasts_S1x128x128_S128x128)) (broadcastInDim S20000x128 ![0, 1] bcast_S1x128_S20000x128_0_1 (broadcastInDim S1x128 ![1] bcast_S128_S1x128_1 (shapeCast _ (extractStridedSlice S1x128 ![0, 0] b slices_S3x128_S1x128_0_0) shapeCasts_S1x128_S128)))) (Host.divf (broadcastInDim S20000x128 ![] bcast_S_S20000x128 (constant S_ .f32 0x3F800000#32)) (addf (broadcastInDim S20000x128 ![] bcast_S_S20000x128 (constant S_ .f32 0x3F800000#32)) (Host.exp (Host.negf (addf (Host.dotGeneral dot_S20000x128_S128x128_S20000x128_1_0_0_1_n_n none g (shapeCast _ (extractStridedSlice S1x128x128 ![0, 0, 0] W3 slices_S3x128x128_S1x128x128_0_0_0) shapeCasts_S1x128x128_S128x128)) (broadcastInDim S20000x128 ![0, 1] bcast_S1x128_S20000x128_0_1 (broadcastInDim S1x128 ![1] bcast_S128_S1x128_1 (shapeCast _ (extractStridedSlice S1x128 ![0, 0] b slices_S3x128_S1x128_0_0) shapeCasts_S1x128_S128))))))))) (shapeCast _ (extractStridedSlice S1x128x128 ![1, 0, 0] W3 slices_S3x128x128_S1x128x128_1_0_0) shapeCasts_S1x128x128_S128x128)) (broadcastInDim S20000x128 ![0, 1] bcast_S1x128_S20000x128_0_1 (broadcastInDim S1x128 ![1] bcast_S128_S1x128_1 (shapeCast _ (extractStridedSlice S1x128 ![1, 0] b slices_S3x128_S1x128_1_0) shapeCasts_S1x128_S128)))) (Host.divf (broadcastInDim S20000x128 ![] bcast_S_S20000x128 (constant S_ .f32 0x3F800000#32)) (addf (broadcastInDim S20000x128 ![] bcast_S_S20000x128 (constant S_ .f32 0x3F800000#32)) (Host.exp (Host.negf (addf (Host.dotGeneral dot_S20000x128_S128x128_S20000x128_1_0_0_1_n_n none (mulf (addf (Host.dotGeneral dot_S20000x128_S128x128_S20000x128_1_0_0_1_n_n none g (shapeCast _ (extractStridedSlice S1x128x128 ![0, 0, 0] W3 slices_S3x128x128_S1x128x128_0_0_0) shapeCasts_S1x128x128_S128x128)) (broadcastInDim S20000x128 ![0, 1] bcast_S1x128_S20000x128_0_1 (broadcastInDim S1x128 ![1] bcast_S128_S1x128_1 (shapeCast _ (extractStridedSlice S1x128 ![0, 0] b slices_S3x128_S1x128_0_0) shapeCasts_S1x128_S128)))) (Host.divf (broadcastInDim S20000x128 ![] bcast_S_S20000x128 (constant S_ .f32 0x3F800000#32)) (addf (broadcastInDim S20000x128 ![] bcast_S_S20000x128 (constant S_ .f32 0x3F800000#32)) (Host.exp (Host.negf (addf (Host.dotGeneral dot_S20000x128_S128x128_S20000x128_1_0_0_1_n_n none g (shapeCast _ (extractStridedSlice S1x128x128 ![0, 0, 0] W3 slices_S3x128x128_S1x128x128_0_0_0) shapeCasts_S1x128x128_S128x128)) (broadcastInDim S20000x128 ![0, 1] bcast_S1x128_S20000x128_0_1 (broadcastInDim S1x128 ![1] bcast_S128_S1x128_1 (shapeCast _ (extractStridedSlice S1x128 ![0, 0] b slices_S3x128_S1x128_0_0) shapeCasts_S1x128_S128))))))))) (shapeCast _ (extractStridedSlice S1x128x128 ![1, 0, 0] W3 slices_S3x128x128_S1x128x128_1_0_0) shapeCasts_S1x128x128_S128x128)) (broadcastInDim S20000x128 ![0, 1] bcast_S1x128_S20000x128_0_1 (broadcastInDim S1x128 ![1] bcast_S128_S1x128_1 (shapeCast _ (extractStridedSlice S1x128 ![1, 0] b slices_S3x128_S1x128_1_0) shapeCasts_S1x128_S128))))))))) (shapeCast _ (extractStridedSlice S1x128x128 ![2, 0, 0] W3 slices_S3x128x128_S1x128x128_2_0_0) shapeCasts_S1x128x128_S128x128)) (broadcastInDim S20000x128 ![0, 1] bcast_S1x128_S20000x128_0_1 (broadcastInDim S1x128 ![1] bcast_S128_S1x128_1 (shapeCast _ (extractStridedSlice S1x128 ![2, 0] b slices_S3x128_S1x128_2_0) shapeCasts_S1x128_S128)))) (Host.divf (broadcastInDim S20000x128 ![] bcast_S_S20000x128 (constant S_ .f32 0x3F800000#32)) (addf (broadcastInDim S20000x128 ![] bcast_S_S20000x128 (constant S_ .f32 0x3F800000#32)) (Host.exp (Host.negf (addf (Host.dotGeneral dot_S20000x128_S128x128_S20000x128_1_0_0_1_n_n none (mulf (addf (Host.dotGeneral dot_S20000x128_S128x128_S20000x128_1_0_0_1_n_n none (mulf (addf (Host.dotGeneral dot_S20000x128_S128x128_S20000x128_1_0_0_1_n_n none g (shapeCast _ (extractStridedSlice S1x128x128 ![0, 0, 0] W3 slices_S3x128x128_S1x128x128_0_0_0) shapeCasts_S1x128x128_S128x128)) (broadcastInDim S20000x128 ![0, 1] bcast_S1x128_S20000x128_0_1 (broadcastInDim S1x128 ![1] bcast_S128_S1x128_1 (shapeCast _ (extractStridedSlice S1x128 ![0, 0] b slices_S3x128_S1x128_0_0) shapeCasts_S1x128_S128)))) (Host.divf (broadcastInDim S20000x128 ![] bcast_S_S20000x128 (constant S_ .f32 0x3F800000#32)) (addf (broadcastInDim S20000x128 ![] bcast_S_S20000x128 (constant S_ .f32 0x3F800000#32)) (Host.exp (Host.negf (addf (Host.dotGeneral dot_S20000x128_S128x128_S20000x128_1_0_0_1_n_n none g (shapeCast _ (extractStridedSlice S1x128x128 ![0, 0, 0] W3 slices_S3x128x128_S1x128x128_0_0_0) shapeCasts_S1x128x128_S128x128)) (broadcastInDim S20000x128 ![0, 1] bcast_S1x128_S20000x128_0_1 (broadcastInDim S1x128 ![1] bcast_S128_S1x128_1 (shapeCast _ (extractStridedSlice S1x128 ![0, 0] b slices_S3x128_S1x128_0_0) shapeCasts_S1x128_S128))))))))) (shapeCast _ (extractStridedSlice S1x128x128 ![1, 0, 0] W3 slices_S3x128x128_S1x128x128_1_0_0) shapeCasts_S1x128x128_S128x128)) (broadcastInDim S20000x128 ![0, 1] bcast_S1x128_S20000x128_0_1 (broadcastInDim S1x128 ![1] bcast_S128_S1x128_1 (shapeCast _ (extractStridedSlice S1x128 ![1, 0] b slices_S3x128_S1x128_1_0) shapeCasts_S1x128_S128)))) (Host.divf (broadcastInDim S20000x128 ![] bcast_S_S20000x128 (constant S_ .f32 0x3F800000#32)) (addf (broadcastInDim S20000x128 ![] bcast_S_S20000x128 (constant S_ .f32 0x3F800000#32)) (Host.exp (Host.negf (addf (Host.dotGeneral dot_S20000x128_S128x128_S20000x128_1_0_0_1_n_n none (mulf (addf (Host.dotGeneral dot_S20000x128_S128x128_S20000x128_1_0_0_1_n_n none g (shapeCast _ (extractStridedSlice S1x128x128 ![0, 0, 0] W3 slices_S3x128x128_S1x128x128_0_0_0) shapeCasts_S1x128x128_S128x128)) (broadcastInDim S20000x128 ![0, 1] bcast_S1x128_S20000x128_0_1 (broadcastInDim S1x128 ![1] bcast_S128_S1x128_1 (shapeCast _ (extractStridedSlice S1x128 ![0, 0] b slices_S3x128_S1x128_0_0) shapeCasts_S1x128_S128)))) (Host.divf (broadcastInDim S20000x128 ![] bcast_S_S20000x128 (constant S_ .f32 0x3F800000#32)) (addf (broadcastInDim S20000x128 ![] bcast_S_S20000x128 (constant S_ .f32 0x3F800000#32)) (Host.exp (Host.negf (addf (Host.dotGeneral dot_S20000x128_S128x128_S20000x128_1_0_0_1_n_n none g (shapeCast _ (extractStridedSlice S1x128x128 ![0, 0, 0] W3 slices_S3x128x128_S1x128x128_0_0_0) shapeCasts_S1x128x128_S128x128)) (broadcastInDim S20000x128 ![0, 1] bcast_S1x128_S20000x128_0_1 (broadcastInDim S1x128 ![1] bcast_S128_S1x128_1 (shapeCast _ (extractStridedSlice S1x128 ![0, 0] b slices_S3x128_S1x128_0_0) shapeCasts_S1x128_S128))))))))) (shapeCast _ (extractStridedSlice S1x128x128 ![1, 0, 0] W3 slices_S3x128x128_S1x128x128_1_0_0) shapeCasts_S1x128x128_S128x128)) (broadcastInDim S20000x128 ![0, 1] bcast_S1x128_S20000x128_0_1 (broadcastInDim S1x128 ![1] bcast_S128_S1x128_1 (shapeCast _ (extractStridedSlice S1x128 ![1, 0] b slices_S3x128_S1x128_1_0) shapeCasts_S1x128_S128))))))))) (shapeCast _ (extractStridedSlice S1x128x128 ![2, 0, 0] W3 slices_S3x128x128_S1x128x128_2_0_0) shapeCasts_S1x128x128_S128x128)) (broadcastInDim S20000x128 ![0, 1] bcast_S1x128_S20000x128_0_1 (broadcastInDim S1x128 ![1] bcast_S128_S1x128_1 (shapeCast _ (extractStridedSlice S1x128 ![2, 0] b slices_S3x128_S1x128_2_0) shapeCasts_S1x128_S128))))))))) Wo
      = fn.mlp g W3 (shapeCast _ b Cert.KernelIdeal.Facts₀.shapeCasts_S3x128_S3x1x128) Wo
  r_bil : ∀ (xg : FVec Ideal S500000x128 .f32) (sbf : FVec Ideal S500000x42 .f32) (Ws : FVec Ideal S42x8 .f32) (Wb : FVec Ideal S128x8x128 .f32),
    (addf (addf (addf (addf (addf (addf (addf (addf (broadcastInDim S500000x128 ![] bcast_S_S500000x128 (constant S_ .f32 0x00000000#32)) (mulf (broadcastInDim S500000x128 ![0, 1] bcast_S500000x1_S500000x128_0_1 (extractStridedSlice S500000x1 ![0, 0] (Host.dotGeneral dot_S500000x42_S42x8_S500000x8_1_0_0_1_n_n none sbf Ws) slices_S500000x8_S500000x1_0_0)) (Host.dotGeneral dot_S500000x128_S128x128_S500000x128_1_0_0_1_n_n none xg (transpose S128x128 [1, 0] (shapeCast _ (extractStridedSlice S128x1x128 ![0, 0, 0] Wb slices_S128x8x128_S128x1x128_0_0_0) shapeCasts_S128x1x128_S128x128) transposes_S128x128_S128x128_1_0)))) (mulf (broadcastInDim S500000x128 ![0, 1] bcast_S500000x1_S500000x128_0_1 (extractStridedSlice S500000x1 ![0, 1] (Host.dotGeneral dot_S500000x42_S42x8_S500000x8_1_0_0_1_n_n none sbf Ws) slices_S500000x8_S500000x1_0_1)) (Host.dotGeneral dot_S500000x128_S128x128_S500000x128_1_0_0_1_n_n none xg (transpose S128x128 [1, 0] (shapeCast _ (extractStridedSlice S128x1x128 ![0, 1, 0] Wb slices_S128x8x128_S128x1x128_0_1_0) shapeCasts_S128x1x128_S128x128) transposes_S128x128_S128x128_1_0)))) (mulf (broadcastInDim S500000x128 ![0, 1] bcast_S500000x1_S500000x128_0_1 (extractStridedSlice S500000x1 ![0, 2] (Host.dotGeneral dot_S500000x42_S42x8_S500000x8_1_0_0_1_n_n none sbf Ws) slices_S500000x8_S500000x1_0_2)) (Host.dotGeneral dot_S500000x128_S128x128_S500000x128_1_0_0_1_n_n none xg (transpose S128x128 [1, 0] (shapeCast _ (extractStridedSlice S128x1x128 ![0, 2, 0] Wb slices_S128x8x128_S128x1x128_0_2_0) shapeCasts_S128x1x128_S128x128) transposes_S128x128_S128x128_1_0)))) (mulf (broadcastInDim S500000x128 ![0, 1] bcast_S500000x1_S500000x128_0_1 (extractStridedSlice S500000x1 ![0, 3] (Host.dotGeneral dot_S500000x42_S42x8_S500000x8_1_0_0_1_n_n none sbf Ws) slices_S500000x8_S500000x1_0_3)) (Host.dotGeneral dot_S500000x128_S128x128_S500000x128_1_0_0_1_n_n none xg (transpose S128x128 [1, 0] (shapeCast _ (extractStridedSlice S128x1x128 ![0, 3, 0] Wb slices_S128x8x128_S128x1x128_0_3_0) shapeCasts_S128x1x128_S128x128) transposes_S128x128_S128x128_1_0)))) (mulf (broadcastInDim S500000x128 ![0, 1] bcast_S500000x1_S500000x128_0_1 (extractStridedSlice S500000x1 ![0, 4] (Host.dotGeneral dot_S500000x42_S42x8_S500000x8_1_0_0_1_n_n none sbf Ws) slices_S500000x8_S500000x1_0_4)) (Host.dotGeneral dot_S500000x128_S128x128_S500000x128_1_0_0_1_n_n none xg (transpose S128x128 [1, 0] (shapeCast _ (extractStridedSlice S128x1x128 ![0, 4, 0] Wb slices_S128x8x128_S128x1x128_0_4_0) shapeCasts_S128x1x128_S128x128) transposes_S128x128_S128x128_1_0)))) (mulf (broadcastInDim S500000x128 ![0, 1] bcast_S500000x1_S500000x128_0_1 (extractStridedSlice S500000x1 ![0, 5] (Host.dotGeneral dot_S500000x42_S42x8_S500000x8_1_0_0_1_n_n none sbf Ws) slices_S500000x8_S500000x1_0_5)) (Host.dotGeneral dot_S500000x128_S128x128_S500000x128_1_0_0_1_n_n none xg (transpose S128x128 [1, 0] (shapeCast _ (extractStridedSlice S128x1x128 ![0, 5, 0] Wb slices_S128x8x128_S128x1x128_0_5_0) shapeCasts_S128x1x128_S128x128) transposes_S128x128_S128x128_1_0)))) (mulf (broadcastInDim S500000x128 ![0, 1] bcast_S500000x1_S500000x128_0_1 (extractStridedSlice S500000x1 ![0, 6] (Host.dotGeneral dot_S500000x42_S42x8_S500000x8_1_0_0_1_n_n none sbf Ws) slices_S500000x8_S500000x1_0_6)) (Host.dotGeneral dot_S500000x128_S128x128_S500000x128_1_0_0_1_n_n none xg (transpose S128x128 [1, 0] (shapeCast _ (extractStridedSlice S128x1x128 ![0, 6, 0] Wb slices_S128x8x128_S128x1x128_0_6_0) shapeCasts_S128x1x128_S128x128) transposes_S128x128_S128x128_1_0)))) (mulf (broadcastInDim S500000x128 ![0, 1] bcast_S500000x1_S500000x128_0_1 (extractStridedSlice S500000x1 ![0, 7] (Host.dotGeneral dot_S500000x42_S42x8_S500000x8_1_0_0_1_n_n none sbf Ws) slices_S500000x8_S500000x1_0_7)) (Host.dotGeneral dot_S500000x128_S128x128_S500000x128_1_0_0_1_n_n none xg (transpose S128x128 [1, 0] (shapeCast _ (extractStridedSlice S128x1x128 ![0, 7, 0] Wb slices_S128x8x128_S128x1x128_0_7_0) shapeCasts_S128x1x128_S128x128) transposes_S128x128_S128x128_1_0))))
      = fn.bil xg sbf Ws (transpose Cert.KernelIdeal.S8x128x128 [1, 2, 0] Wb Cert.KernelIdeal.Facts₀.transposes_S128x8x128_S8x128x128_1_2_0)

variable (fn : Fns)

/-- The argument arrays read off a valuation of the reference's buffers. -/
def argsOfV (V0 : Valuation τ sig (Elt Ideal)) : Args :=
  ⟨V0 (Proc.devRef .tc main_arg0), V0 (Proc.devRef .tc main_arg1), V0 (Proc.devRef .tc main_arg2), V0 (Proc.devRef .tc main_arg3), V0 (Proc.devRef .tc main_arg4), V0 (Proc.devRef .tc main_arg5), V0 (Proc.devRef .tc main_arg6), V0 (Proc.devRef .tc main_arg7), V0 (Proc.devRef .tc main_arg8), V0 (Proc.devRef .tc main_arg9), V0 (Proc.devRef .tc main_arg10), V0 (Proc.devRef .tc main_arg11), V0 (Proc.devRef .tc main_arg12), V0 (Proc.devRef .tc main_arg13), V0 (Proc.devRef .tc main_arg14), V0 (Proc.devRef .tc main_arg15), V0 (Proc.devRef .tc main_arg16), V0 (Proc.devRef .tc main_arg17), V0 (Proc.devRef .tc main_arg18)⟩

set_option maxHeartbeats 4000000 in
/-- The reference's result term is the kernel's `out` of the same arguments. -/
theorem ref_out (R : RefFacts fn) (V0 : Valuation τ sig (Elt Ideal)) :
    val5 V0 (Proc.devRef .tc main_v231) = Cert.KernelIdeal.Value.out fn (argsOfV V0) := by
  refine (val5_main_v231 V0).trans ?_
  simp only [res_main_v50, res_main_v35, res_main_v20, res_main_v221, res_main_v206, res_main_v191, res_main_v163, res_main_v158,
    res_main_v90, res_main_v75, res_main_v64, res_main_v60]
  simp only [R.r_edge]
  simp only [R.r_gate, R.r_dense, R.r_bil]
  simp only [R.r_mlp]
  rfl

end Cert.RefValue

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«109498_j75754633167331_1_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«109498_j75754633167331_1_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«109498_j75754633167331_1_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.LibDenseLayers.lean ====
/-
  The two dense layers of the network, as functions of whole arrays, and the vector expressions that compute them.

  An affine layer sends an M×K array x, a K×N matrix W and a one-row bias b to the M×N array whose entry (r, j) is
  (∑ k, x (r, k) · W (k, j)) + b (0, j).  A neighbourhood layer adds a second product, of the node's own features
  with a second matrix, and takes the positive part:
  max (((∑ k, mean (r, k) · Wl (k, j)) + (∑ k, dst (r, k) · Wr (k, j))) + b (0, j)) 0.
  Both are read on the extended reals, where a change of float format is the identity and a matrix product into the
  zero accumulator is the textbook sum.  The kernel computes each layer tile by tile (a block of rows at a time); the
  host computes it with dot_general, a broadcast bias vector and a maximum with the zero constant, adding the bias
  BEFORE the second product.  Addition of extended reals is commutative and associative, so the two orders agree
  with no finiteness assumption.
-/
import proofs.«109498_j75754633167331_1_alg».proof.Proof.LibAffineBlock
import proofs.«109498_j75754633167331_1_alg».proof.Proof.LibHostAffine

noncomputable section

open scoped BigOperators

namespace Cert.LibDenseLayers

open Idealize.ShloMosaic Idealize.ShloMosaic.ValueIdx

variable {M K K' N : Nat}

/-- The affine layer with a one-row bias: entry (r, j) is (∑ k, x (r, k) · W (k, j)) + b (0, j). -/
def affineRow (x : FVec Ideal ⟨2, ![M, K]⟩ .f32) (W : FVec Ideal ⟨2, ![K, N]⟩ .f32) (b : FVec Ideal ⟨2, ![1, N]⟩ .f32) :
    FVec Ideal ⟨2, ![M, N]⟩ .f32 :=
  fun i => (∑ k : Fin K, x (ix2 (i 0) k) * W (ix2 k (i 1))) + b (ix2 (0 : Fin 1) (i 1))

theorem affineRow_ix2 (x : FVec Ideal ⟨2, ![M, K]⟩ .f32) (W : FVec Ideal ⟨2, ![K, N]⟩ .f32) (b : FVec Ideal ⟨2, ![1, N]⟩ .f32)
    (r : Fin M) (j : Fin N) :
    affineRow x W b (ix2 r j) = (∑ k : Fin K, x (ix2 r k) * W (ix2 k j)) + b (ix2 (0 : Fin 1) j) := rfl

/-- The neighbourhood layer: the positive part of the sum of two products and a one-row bias. -/
def sageRow (mean : FVec Ideal ⟨2, ![M, K]⟩ .f32) (Wl : FVec Ideal ⟨2, ![K, N]⟩ .f32) (b : FVec Ideal ⟨2, ![1, N]⟩ .f32)
    (dst : FVec Ideal ⟨2, ![M, K']⟩ .f32) (Wr : FVec Ideal ⟨2, ![K', N]⟩ .f32) : FVec Ideal ⟨2, ![M, N]⟩ .f32 :=
  fun i => max (((∑ k : Fin K, mean (ix2 (i 0) k) * Wl (ix2 k (i 1))) + (∑ k : Fin K', dst (ix2 (i 0) k) * Wr (ix2 k (i 1))))
    + b (ix2 (0 : Fin 1) (i 1))) 0

theorem sageRow_ix2 (mean : FVec Ideal ⟨2, ![M, K]⟩ .f32) (Wl : FVec Ideal ⟨2, ![K, N]⟩ .f32) (b : FVec Ideal ⟨2, ![1, N]⟩ .f32)
    (dst : FVec Ideal ⟨2, ![M, K']⟩ .f32) (Wr : FVec Ideal ⟨2, ![K', N]⟩ .f32) (r : Fin M) (j : Fin N) :
    sageRow mean Wl b dst Wr (ix2 r j)
      = max (((∑ k : Fin K, mean (ix2 r k) * Wl (ix2 k j)) + (∑ k : Fin K', dst (ix2 r k) * Wr (ix2 k j))) + b (ix2 (0 : Fin 1) j)) 0 := rfl

/-! ## The tile expressions of the kernel bodies -/

/-- One tile of the affine layer: the product of the rounded operands into the zero accumulator plus the broadcast
    bias row, at (p, q). -/
theorem linTile_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ .f32) (W : FVec Ideal ⟨2, ![K, N]⟩ .f32) (b : FVec Ideal ⟨2, ![1, N]⟩ .f32)
    (h1 : FTy.bf16.bits < FTy.f32.bits) (hb : (⟨2, ![1, N]⟩ : Shape).Broadcasts ⟨2, ![M, N]⟩) (p : Fin M) (q : Fin N) :
    addf (matmul d none (truncf .bf16 x h1) (truncf .bf16 W h1) (constant (F := Ideal) ⟨2, ![M, N]⟩ .f32 0x00000000#32))
        (broadcastTo ⟨2, ![M, N]⟩ b hb) (ix2 p q)
      = (∑ k : Fin K, x (ix2 p k) * W (ix2 k q)) + b (ix2 (0 : Fin 1) q) :=
  Cert.LibAffineBlock.affine_apply d hlc hrc hln hrn hlb hrb none (truncf .bf16 x h1) (truncf .bf16 W h1) b hb p q

/-- One tile of the neighbourhood layer at (p, q). -/
theorem sageTile_apply (d1 : DotDims ⟨2, ![M, K]⟩ ⟨2, ![K, N]⟩ ⟨2, ![M, N]⟩) (d2 : DotDims ⟨2, ![M, K']⟩ ⟨2, ![K', N]⟩ ⟨2, ![M, N]⟩)
    (hlc : d1.lhsContracting = [1]) (hrc : d1.rhsContracting = [0]) (hln : d1.lhsNonContracting = [0])
    (hrn : d1.rhsNonContracting = [1]) (hlb : d1.lhsBatch = []) (hrb : d1.rhsBatch = [])
    (hlc' : d2.lhsContracting = [1]) (hrc' : d2.rhsContracting = [0]) (hln' : d2.lhsNonContracting = [0])
    (hrn' : d2.rhsNonContracting = [1]) (hlb' : d2.lhsBatch = []) (hrb' : d2.rhsBatch = [])
    (mean : FVec Ideal ⟨2, ![M, K]⟩ .f32) (Wl : FVec Ideal ⟨2, ![K, N]⟩ .f32)
    (dst : FVec Ideal ⟨2, ![M, K']⟩ .f32) (Wr : FVec Ideal ⟨2, ![K', N]⟩ .f32) (b : FVec Ideal ⟨2, ![1, N]⟩ .f32)
    (h1 : FTy.bf16.bits < FTy.f32.bits) (hb : (⟨2, ![1, N]⟩ : Shape).Broadcasts ⟨2, ![M, N]⟩) (p : Fin M) (q : Fin N) :
    maximumf (addf (addf
          (matmul d1 none (truncf .bf16 mean h1) (truncf .bf16 Wl h1) (constant (F := Ideal) ⟨2, ![M, N]⟩ .f32 0x00000000#32))
          (matmul d2 none (truncf .bf16 dst h1) (truncf .bf16 Wr h1) (constant (F := Ideal) ⟨2, ![M, N]⟩ .f32 0x00000000#32)))
        (broadcastTo ⟨2, ![M, N]⟩ b hb))
      (broadcast ⟨2, ![M, N]⟩ (Scalar.ofBits (F := Ideal) .f32 0x00000000#32)) (ix2 p q)
      = max (((∑ k : Fin K, mean (ix2 p k) * Wl (ix2 k q)) + (∑ k : Fin K', dst (ix2 p k) * Wr (ix2 k q))) + b (ix2 (0 : Fin 1) q)) 0 := by
  rw [maximumf_apply, addf_apply, addf_apply,
    Cert.LibMatmulNN.matmul_zero_apply' d1 hlc hrc hln hrn hlb hrb none (truncf .bf16 mean h1) (truncf .bf16 Wl h1) p q,
    Cert.LibMatmulNN.matmul_zero_apply' d2 hlc' hrc' hln' hrn' hlb' hrb' none (truncf .bf16 dst h1) (truncf .bf16 Wr h1) p q,
    broadcastTo_1b_ab_apply b hb p q, broadcast_apply]
  show max _ (Ideal.ofBits .f32 0x00000000#32) = _
  rw [Ideal.ofBits_zero_f32]
  rfl

/-! ## The host expressions -/

/-- A vector reshaped to one row reads, at (0, j), its entry j. -/
theorem rowCast_apply {α : Type} (b : (⟨1, ![N]⟩ : Shape).Idx → α) (h : (⟨1, ![N]⟩ : Shape).ShapeCasts ⟨2, ![1, N]⟩) (j : Fin N) :
    shapeCast ⟨2, ![1, N]⟩ b h (ix2 (0 : Fin 1) j) = b (ix1 j) :=
  shapeCast_apply b h (ix2 (0 : Fin 1) j) (ix1 j) (by
    rw [Shape.rowMajor_val_two, Shape.rowMajor_val_one]; show j.val = 0 * N + j.val; omega)

/-- The host's affine layer (dot_general plus the bias vector broadcast to a row and then over the rows) is the
    affine layer of the bias reshaped to one row. -/
theorem hostAffine_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hc : (⟨1, ![N]⟩ : Shape).ShapeCasts ⟨2, ![1, N]⟩) :
    addf (Host.dotGeneral d none x W)
        (broadcastInDim ⟨2, ![M, N]⟩ (![0, 1] : Fin 2 → Fin 2) h2 (broadcastInDim ⟨2, ![1, N]⟩ (![1] : Fin 1 → Fin 2) h1 b))
      = affineRow x W (shapeCast ⟨2, ![1, N]⟩ b hc) := by
  funext i
  obtain ⟨r, j, rfl⟩ : ∃ (r : Fin M) (j : Fin N), i = ix2 r j := ⟨i 0, i 1, eq_ix2 i⟩
  rw [Cert.LibHostAffine.affine_apply d hlc hrc hln hrn hlb hrb none x W b h1 h2 r j, affineRow_ix2, rowCast_apply]

/-- The host's neighbourhood layer — (mean·Wl + bias) + dst·Wr, then the maximum with the zero constant — is the
    neighbourhood layer of the bias reshaped to one row: the two orders of the three summands agree because addition
    of extended reals is commutative and associative. -/
theorem hostSage_eq (d1 : DotDims ⟨2, ![M, K]⟩ ⟨2, ![K, N]⟩ ⟨2, ![M, N]⟩) (d2 : DotDims ⟨2, ![M, K']⟩ ⟨2, ![K', N]⟩ ⟨2, ![M, N]⟩)
    (hlc : d1.lhsContracting = [1]) (hrc : d1.rhsContracting = [0]) (hln : d1.lhsNonContracting = [0])
    (hrn : d1.rhsNonContracting = [1]) (hlb : d1.lhsBatch = []) (hrb : d1.rhsBatch = [])
    (hlc' : d2.lhsContracting = [1]) (hrc' : d2.rhsContracting = [0]) (hln' : d2.lhsNonContracting = [0])
    (hrn' : d2.rhsNonContracting = [1]) (hlb' : d2.lhsBatch = []) (hrb' : d2.rhsBatch = [])
    (mean : FVec Ideal ⟨2, ![M, K]⟩ .f32) (Wl : FVec Ideal ⟨2, ![K, N]⟩ .f32) (b : FVec Ideal ⟨1, ![N]⟩ .f32)
    (dst : FVec Ideal ⟨2, ![M, K']⟩ .f32) (Wr : FVec Ideal ⟨2, ![K', N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2))
    (hc : (⟨1, ![N]⟩ : Shape).ShapeCasts ⟨2, ![1, N]⟩) :
    maximumf (addf (addf (Host.dotGeneral d1 none mean Wl)
          (broadcastInDim ⟨2, ![M, N]⟩ (![0, 1] : Fin 2 → Fin 2) h2 (broadcastInDim ⟨2, ![1, N]⟩ (![1] : Fin 1 → Fin 2) h1 b)))
        (Host.dotGeneral d2 none dst Wr))
      (broadcastInDim ⟨2, ![M, N]⟩ (![] : Fin 0 → Fin 2) h0 (constant (F := Ideal) ⟨0, ![]⟩ .f32 0x00000000#32))
      = sageRow mean Wl (shapeCast ⟨2, ![1, N]⟩ b hc) dst Wr := by
  funext i
  obtain ⟨r, j, rfl⟩ : ∃ (r : Fin M) (j : Fin N), i = ix2 r j := ⟨i 0, i 1, eq_ix2 i⟩
  rw [Cert.LibHostAffine.relu_apply, addf_apply,
    Cert.LibHostAffine.affine_apply d1 hlc hrc hln hrn hlb hrb none mean Wl b h1 h2 r j, sageRow_ix2, rowCast_apply]
  simp only [Host.dotGeneral]
  rw [Cert.LibDotGeneralNN.dotGeneral_apply d2 hlc' hrc' hln' hrn' hlb' hrb', add_right_comm]

end Cert.LibDenseLayers

end
-- ==== Proof.LibRowScalar.lean ====
/-
  Three small facts at the ideal instance, for any extents.

  * A vector of length a made a column (a × 1) and then repeated along the rows of an a × b array reads, at (r, k), the
    vector's entry r — the way a per-row scalar (a degree, a norm) is spread over a row on the host.
  * The 32-bit word 0x3F800000 is the number one.
  * The logistic function of a vector, read at an index, is the logistic function of the entry, which on the extended
    reals is 1 / (1 + exp (−x)) by definition.
-/
import Idealize.ShloMosaic.Lib.ValueIdx
import Idealize.ShloMosaic.Lib.Pipeline.Value
import Idealize.ShloMosaic.PureOps.Ideal.Laws

noncomputable section

namespace Cert.LibRowScalar

open Idealize.ShloMosaic Idealize.ShloMosaic.ValueIdx

/-- The word of the number one. -/
theorem one_word : Ideal.ofBits .f32 0x3F800000#32 = 1 := by
  simp [Ideal.ofBits, Ideal.ieee, -EReal.coe_mul]; norm_num

/-- A vector made a column and then repeated along the rows reads, at (r, k), its entry r. -/
theorem col_apply {a b : Nat} {α : Type} (v : (⟨1, ![a]⟩ : Shape).Idx → α)
    (g1 : (⟨1, ![a]⟩ : Shape).BroadcastsInDim ⟨2, ![a, 1]⟩ (![0] : Fin 1 → Fin 2))
    (g2 : (⟨2, ![a, 1]⟩ : Shape).BroadcastsInDim ⟨2, ![a, b]⟩ (![0, 1] : Fin 2 → Fin 2)) (r : Fin a) (k : Fin b) :
    broadcastInDim ⟨2, ![a, b]⟩ (![0, 1] : Fin 2 → Fin 2) g2 (broadcastInDim ⟨2, ![a, 1]⟩ (![0] : Fin 1 → Fin 2) g1 v) (ix2 r k)
      = v (ix1 r) := by
  rw [broadcastInDim_apply (![0, 1] : Fin 2 → Fin 2) g2 _ (ix2 r k) (ix2 r (0 : Fin 1)) (fun ax => by
    match ax with
    | ⟨0, _⟩ =>
      show r.val = if a = 1 then 0 else r.val
      split
      · have := r.isLt; omega
      · rfl
    | ⟨1, _⟩ => rfl)]
  exact broadcastInDim_apply (![0] : Fin 1 → Fin 2) g1 v (ix2 r (0 : Fin 1)) (ix1 r) (fun ax => by
    match ax with
    | ⟨0, _⟩ =>
      show r.val = if a = 1 then 0 else r.val
      split
      · have := r.isLt; omega
      · rfl)

/-- The logistic function of a vector, read at an index. -/
theorem logistic_apply {s : Shape} {φ : FTy} (x : FVec Ideal s φ) (i : s.Idx) : logistic x i = Ideal.logistic (x i) := rfl

/-- The logistic function on the extended reals is 1 / (1 + exp (−x)). -/
theorem logistic_eq (x : EReal) : Ideal.logistic x = Ideal.div 1 (1 + Ideal.exp (-x)) := rfl

end Cert.LibRowScalar

end
-- ==== Proof.Net.lean ====
/-
  The network's elementary layers on the extended reals, as functions of whole arrays.

  * `silu v = v · σ(v)` with σ the logistic function, σ(v) = 1 / (1 + exp (−v)).
  * `prod x W`: the matrix product, entry (r, j) = ∑ k, x (r, k) · W (k, j).
  * `siluDense x W b`: entry (r, j) = silu ((∑ k, x (r, k) · W (k, j)) + b (0, j)), b a one-row array.
  Both printed spellings of silu are read at an index: the kernel's `v · logistic v` and the host's
  `v · (1 / (1 + exp (−v)))` with the constant one broadcast from its 32-bit word.
-/
import proofs.«109498_j75754633167331_1_alg».proof.Proof.LibDenseLayers
import proofs.«109498_j75754633167331_1_alg».proof.Proof.LibRowScalar

noncomputable section

open scoped BigOperators

namespace Cert.Net

open Idealize.ShloMosaic Idealize.ShloMosaic.ValueIdx Cert.LibDenseLayers

variable {M K N : Nat}

/-- `v · σ(v)`. -/
def silu (v : EReal) : EReal := v * Ideal.logistic v

/-- The matrix product: entry (r, j) is ∑ k, x (r, k) · W (k, j). -/
def prod (x : FVec Ideal ⟨2, ![M, K]⟩ .f32) (W : FVec Ideal ⟨2, ![K, N]⟩ .f32) : FVec Ideal ⟨2, ![M, N]⟩ .f32 :=
  fun i => ∑ k : Fin K, x (ix2 (i 0) k) * W (ix2 k (i 1))

theorem prod_ix2 (x : FVec Ideal ⟨2, ![M, K]⟩ .f32) (W : FVec Ideal ⟨2, ![K, N]⟩ .f32) (r : Fin M) (j : Fin N) :
    prod x W (ix2 r j) = ∑ k : Fin K, x (ix2 r k) * W (ix2 k j) := rfl

/-- The activated dense layer: entry (r, j) is silu ((∑ k, x (r, k) · W (k, j)) + b (0, j)). -/
def siluDense (x : FVec Ideal ⟨2, ![M, K]⟩ .f32) (W : FVec Ideal ⟨2, ![K, N]⟩ .f32) (b : FVec Ideal ⟨2, ![1, N]⟩ .f32) :
    FVec Ideal ⟨2, ![M, N]⟩ .f32 :=
  fun i => silu (affineRow x W b i)

theorem siluDense_ix2 (x : FVec Ideal ⟨2, ![M, K]⟩ .f32) (W : FVec Ideal ⟨2, ![K, N]⟩ .f32) (b : FVec Ideal ⟨2, ![1, N]⟩ .f32)
    (r : Fin M) (j : Fin N) :
    siluDense x W b (ix2 r j) = silu ((∑ k : Fin K, x (ix2 r k) * W (ix2 k j)) + b (ix2 (0 : Fin 1) j)) := rfl

/-- The kernel's spelling of silu, read at an index. -/
theorem tileSilu_apply {s : Shape} (v : FVec Ideal s .f32) (i : s.Idx) : mulf v (logistic v) i = silu (v i) := rfl

/-- The host's spelling of silu, read at an index: the constant one is the word 0x3F800000 broadcast over the shape. -/
theorem hostSilu_apply {s : Shape} (v : FVec Ideal s .f32)
    (h : (⟨0, ![]⟩ : Shape).BroadcastsInDim s (![] : Fin 0 → Fin s.rank)) (i : s.Idx) :
    mulf v (Host.divf (broadcastInDim s (![] : Fin 0 → Fin s.rank) h (constant (F := Ideal) ⟨0, ![]⟩ .f32 0x3F800000#32))
      (addf (broadcastInDim s (![] : Fin 0 → Fin s.rank) h (constant (F := Ideal) ⟨0, ![]⟩ .f32 0x3F800000#32))
        (Host.exp (Host.negf v)))) i = silu (v i) := by
  show v i * Ideal.div (Ideal.ofBits .f32 0x3F800000#32) (Ideal.ofBits .f32 0x3F800000#32 + Ideal.exp (-(v i))) = silu (v i)
  rw [Cert.LibRowScalar.one_word]
  rfl

end Cert.Net

end
-- ==== Proof.EdgeSpec.lean ====
/-
  The edge transform of the network, as functions of whole arrays, and the host's spelling of it.

  For the edge features x (one row per edge), the radial basis rbf and the weights, the transform produces two arrays:
  * x_ji = silu (x · W_ji + b_ji), the activated dense layer `siluDense x W_ji b_ji`;
  * x_kj · r, entry (e, j) = silu ((∑ k, x (e, k) · W_kj (k, j)) + b_kj (0, j)) · (∑ k, rbf (e, k) · W_rbf (k, j)),
    the activated dense layer times the radial projection: `edgeKj`.
  The host computes the dense layer with dot_general and a bias vector broadcast first to one row and then over the rows,
  the activation as v · (1 / (1 + exp (−v))) with the constant one broadcast from its word, and the radial projection
  with a second dot_general.  Read entry by entry on the extended reals these are the same sums and the same products;
  no law of arithmetic is used beyond reading each operation at an index, so no finiteness is needed.
-/
import proofs.«109498_j75754633167331_1_alg».proof.Proof.Net
import proofs.«109498_j75754633167331_1_alg».proof.ReferenceIdeal

noncomputable section

open scoped BigOperators

namespace Cert.Net

open Idealize.ShloMosaic Idealize.ShloMosaic.ValueIdx Cert.LibDenseLayers

variable {M K N R : Nat}

/-- The activated dense layer times the radial projection: entry (e, j) is
    silu ((∑ k, x (e, k) · Wkj (k, j)) + bkj (0, j)) · (∑ k, rbf (e, k) · Wrbf (k, j)). -/
def edgeKj (x : FVec Ideal ⟨2, ![M, K]⟩ .f32) (rbf : FVec Ideal ⟨2, ![M, R]⟩ .f32) (Wkj : FVec Ideal ⟨2, ![K, N]⟩ .f32)
    (bkj : FVec Ideal ⟨2, ![1, N]⟩ .f32) (Wrbf : FVec Ideal ⟨2, ![R, N]⟩ .f32) : FVec Ideal ⟨2, ![M, N]⟩ .f32 :=
  fun i => siluDense x Wkj bkj i * prod rbf Wrbf i

theorem edgeKj_ix2 (x : FVec Ideal ⟨2, ![M, K]⟩ .f32) (rbf : FVec Ideal ⟨2, ![M, R]⟩ .f32) (Wkj : FVec Ideal ⟨2, ![K, N]⟩ .f32)
    (bkj : FVec Ideal ⟨2, ![1, N]⟩ .f32) (Wrbf : FVec Ideal ⟨2, ![R, N]⟩ .f32) (r : Fin M) (j : Fin N) :
    edgeKj x rbf Wkj bkj Wrbf (ix2 r j)
      = silu ((∑ k : Fin K, x (ix2 r k) * Wkj (ix2 k j)) + bkj (ix2 (0 : Fin 1) j)) * (∑ k : Fin R, rbf (ix2 r k) * Wrbf (ix2 k j)) := rfl

section Host

open Cert.ReferenceIdeal Cert.ReferenceIdeal.Facts₀

variable [Cert.ReferenceIdeal.Facts₀]

/-- The host's activated dense layer over the 300000 edges — dot_general, the bias vector broadcast to a row and over
    the rows, then v · (1 / (1 + exp (−v))) — is `siluDense` of the bias reshaped to one row. -/
theorem ref_siluDense300k (x : FVec Ideal S300000x128 .f32) (W : FVec Ideal S128x128 .f32) (b : FVec Ideal S128 .f32)
    (h : S128.ShapeCasts S1x128) :
    mulf (addf (Host.dotGeneral (F := Ideal) dot_S300000x128_S128x128_S300000x128_1_0_0_1_n_n none x W)
          (broadcastInDim S300000x128 ![0, 1] bcast_S1x128_S300000x128_0_1 (broadcastInDim S1x128 ![1] bcast_S128_S1x128_1 b)))
        (Host.divf (F := Ideal) (broadcastInDim S300000x128 ![] bcast_S_S300000x128 (constant (F := Ideal) S_ .f32 0x3F800000#32))
          (addf (broadcastInDim S300000x128 ![] bcast_S_S300000x128 (constant (F := Ideal) S_ .f32 0x3F800000#32))
            (Host.exp (F := Ideal) (Host.negf (F := Ideal)
              (addf (Host.dotGeneral (F := Ideal) dot_S300000x128_S128x128_S300000x128_1_0_0_1_n_n none x W)
                (broadcastInDim S300000x128 ![0, 1] bcast_S1x128_S300000x128_0_1 (broadcastInDim S1x128 ![1] bcast_S128_S1x128_1 b)))))))
      = siluDense x W (shapeCast S1x128 b h) := by
  rw [hostAffine_eq dot_S300000x128_S128x128_S300000x128_1_0_0_1_n_n rfl rfl rfl rfl rfl rfl x W b
    bcast_S128_S1x128_1 bcast_S1x128_S300000x128_0_1 h]
  funext i
  exact hostSilu_apply _ bcast_S_S300000x128 i

/-- The host's second edge array — the activated dense layer times the radial projection (a second dot_general) — is
    `edgeKj` of the bias reshaped to one row. -/
theorem ref_edgeKj (x : FVec Ideal S300000x128 .f32) (rbf : FVec Ideal S300000x6 .f32) (Wkj : FVec Ideal S128x128 .f32)
    (b : FVec Ideal S128 .f32) (Wrbf : FVec Ideal S6x128 .f32) (h : S128.ShapeCasts S1x128) :
    mulf (mulf (addf (Host.dotGeneral (F := Ideal) dot_S300000x128_S128x128_S300000x128_1_0_0_1_n_n none x Wkj)
            (broadcastInDim S300000x128 ![0, 1] bcast_S1x128_S300000x128_0_1 (broadcastInDim S1x128 ![1] bcast_S128_S1x128_1 b)))
          (Host.divf (F := Ideal) (broadcastInDim S300000x128 ![] bcast_S_S300000x128 (constant (F := Ideal) S_ .f32 0x3F800000#32))
            (addf (broadcastInDim S300000x128 ![] bcast_S_S300000x128 (constant (F := Ideal) S_ .f32 0x3F800000#32))
              (Host.exp (F := Ideal) (Host.negf (F := Ideal)
                (addf (Host.dotGeneral (F := Ideal) dot_S300000x128_S128x128_S300000x128_1_0_0_1_n_n none x Wkj)
                  (broadcastInDim S300000x128 ![0, 1] bcast_S1x128_S300000x128_0_1 (broadcastInDim S1x128 ![1] bcast_S128_S1x128_1 b))))))))
        (Host.dotGeneral (F := Ideal) dot_S300000x6_S6x128_S300000x128_1_0_0_1_n_n none rbf Wrbf)
      = edgeKj x rbf Wkj (shapeCast S1x128 b h) Wrbf := by
  rw [ref_siluDense300k x Wkj b h]
  funext i
  obtain ⟨r, j, rfl⟩ : ∃ (r : Fin 300000) (j : Fin 128), i = ix2 r j := ⟨i 0, i 1, eq_ix2 i⟩
  rw [mulf_apply, edgeKj_ix2, siluDense_ix2]
  simp only [Host.dotGeneral]
  rw [Cert.LibDotGeneralNN.dotGeneral_apply dot_S300000x6_S6x128_S300000x128_1_0_0_1_n_n rfl rfl rfl rfl rfl rfl]

end Host

end Cert.Net

end
-- ==== Proof.EdgeKernel.lean ====
/-
  The edge transform's two output arrays after the first pipelined region, as functions of the arrays the region finds.

  The region walks the 300000 edge rows in 50 blocks of 6000.  At block t the body loads rows 6000·t … 6000·t + 5999
  of the edge features x and of the radial basis rbf, and the whole weight arrays; it stores, for each row p of the
  block and each column q,
    silu ((∑ k, x (6000·t + p, k) · W_ji (k, q)) + b_ji (0, q))                               into the first output,
    silu ((∑ k, x (6000·t + p, k) · W_kj (k, q)) + b_kj (0, q)) · (∑ k, rbf (6000·t + p, k) · W_rbf (k, q))
                                                                                              into the second.
  An entry of an output block depends only on the same row of the input blocks, so block t of each output is block t of
  one whole-array function (`siluDense`, `edgeKj`); the 50 blocks tile the rows (row e lies in block e / 6000), so each
  output array ends holding that function.  The rounding of the matrix operands is the identity on the extended reals
  and a product into the zero accumulator is the textbook sum.
-/
import proofs.«109498_j75754633167331_1_alg».proof.Proof.Gen.KernelIdeal.Frame
import proofs.«109498_j75754633167331_1_alg».proof.Proof.EdgeSpec
import Idealize.ShloMosaic.Lib.Pipeline.Value

set_option maxRecDepth 16384

noncomputable section

open scoped BigOperators

namespace Cert.KernelIdeal.Edge

open Cert.KernelIdeal Cert.KernelIdeal.Gen Idealize.ShloMosaic Idealize.ShloMosaic.TcCoe Idealize.SL.Sem
open Idealize.ShloMosaic.ValueIdx
open Idealize.ShloMosaic.Pipeline (Dat)
open Cert.Net (silu siluDense edgeKj siluDense_ix2 edgeKj_ix2)

theorem hz : (![0, 0] : Fin 2 → Nat) = fun _ => 0 := funext fun a => by fin_cases a <;> rfl

/-! ## The body's arithmetic at an entry of the block -/

/-- The first stored value at row p, column q of the block: the activated affine combination of row p. -/
theorem pay2_apply (x0 : Vec Ideal S6000x128 .f32) (w : Vec Ideal S128x128 .f32) (b : Vec Ideal S1x128 .f32)
    (p : Fin 6000) (q : Fin 128) :
    k0_pay2 (F := Ideal) x0 w b (ix2 p q)
      = silu ((∑ k : Fin 128, x0 (ix2 p k) * w (ix2 k q)) + b (ix2 (0 : Fin 1) q)) := by
  unfold k0_pay2 k0_pay1
  refine (Cert.Net.tileSilu_apply _ (ix2 p q)).trans (congrArg silu ?_)
  rw [shapeCast_self]
  exact Cert.LibDenseLayers.linTile_apply dot_S6000x128_S128x128_S6000x128_1_0_0_1_n_n rfl rfl rfl rfl rfl rfl x0 w b
    bitsLt_bf16_f32 broadcasts_S1x128_S6000x128 p q

/-- The second stored value at row p, column q: the activated affine combination of row p of x times the radial
    projection of row p of rbf. -/
theorem pay3_apply (x0 : Vec Ideal S6000x128 .f32) (r0 : Vec Ideal S6000x6 .f32) (w : Vec Ideal S128x128 .f32)
    (wr : Vec Ideal S6x128 .f32) (b : Vec Ideal S1x128 .f32) (p : Fin 6000) (q : Fin 128) :
    k0_pay3 (F := Ideal) x0 r0 w wr b (ix2 p q)
      = silu ((∑ k : Fin 128, x0 (ix2 p k) * w (ix2 k q)) + b (ix2 (0 : Fin 1) q))
        * (∑ k : Fin 6, r0 (ix2 p k) * wr (ix2 k q)) := by
  unfold k0_pay3 k0_pay1
  refine (mulf_apply _ _ (ix2 p q)).trans ?_
  refine congrArg₂ (· * ·) ((Cert.Net.tileSilu_apply _ (ix2 p q)).trans (congrArg silu ?_)) ?_
  · rw [shapeCast_self]
    exact Cert.LibDenseLayers.linTile_apply dot_S6000x128_S128x128_S6000x128_1_0_0_1_n_n rfl rfl rfl rfl rfl rfl x0 w b
      bitsLt_bf16_f32 broadcasts_S1x128_S6000x128 p q
  · exact Cert.LibMatmulNN.matmul_zero_apply' dot_S6000x6_S6x128_S6000x128_1_0_0_1_n_n rfl rfl rfl rfl rfl rfl none
      (truncf .bf16 r0 bitsLt_bf16_f32) (truncf .bf16 wr bitsLt_bf16_f32) p q

/-! ## The index maps over the grid -/

/-- The four row-tiled windows sit at block row t, block column 0, at every point t. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The five weight windows sit at block (0, 0) at every point. -/
theorem idx_whole : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The input blocks, read off the arrays the region finds -/

section Blocks

variable (V : (c : Dev nD) → (b : Ref sig .tc) → Buf (Elt Ideal) ((c : Thread nD τ).loc b))

/-- Row p of block t of the edge features is row 6000·t + p of the array. -/
theorem blk0_apply (c : Dev nD) (t : Fin cfg0.N) (p : Fin 6000) (k : Fin 128) (r : Fin 300000)
    (hr : r.val = t.val * 6000 + p.val) :
    (iblk0 V c 0 t : Vec Ideal S6000x128 .f32) (ix2 p k) = (V c main_arg0 : S300000x128.Idx → EReal) (ix2 r k) := by
  obtain ⟨e0, e1, -⟩ := idx_rows t
  unfold iblk0
  rw [View.read_apply]
  show V c main_arg0 _ = V c main_arg0 _
  refine congrArg _ ?_
  funext a
  apply Fin.ext
  match a with
  | ⟨0, _⟩ => show win0_0.index t (0 : Fin 2) * 6000 + 1 * p.val = r.val; rw [e0, hr]; omega
  | ⟨1, _⟩ => show win0_0.index t (1 : Fin 2) * 128 + 1 * k.val = k.val; rw [e1]; omega

/-- Row p of block t of the radial basis is row 6000·t + p of the array. -/
theorem blk1_apply (c : Dev nD) (t : Fin cfg0.N) (p : Fin 6000) (k : Fin 6) (r : Fin 300000)
    (hr : r.val = t.val * 6000 + p.val) :
    (iblk0 V c 1 t : Vec Ideal S6000x6 .f32) (ix2 p k) = (V c main_arg1 : S300000x6.Idx → EReal) (ix2 r k) := by
  obtain ⟨-, -, e0, e1, -⟩ := idx_rows t
  unfold iblk0
  rw [View.read_apply]
  show V c main_arg1 _ = V c main_arg1 _
  refine congrArg _ ?_
  funext a
  apply Fin.ext
  match a with
  | ⟨0, _⟩ => show win0_1.index t (0 : Fin 2) * 6000 + 1 * p.val = r.val; rw [e0, hr]; omega
  | ⟨1, _⟩ => show win0_1.index t (1 : Fin 2) * 6 + 1 * k.val = k.val; rw [e1]; omega

/-- The block of a weight window is its whole array, at every point. -/
theorem blk2_eq (c : Dev nD) (t : Fin cfg0.N) :
    (iblk0 V c 2 t : Vec Ideal S128x128 .f32) = (V c main_arg10 : S128x128.Idx → EReal) := by
  obtain ⟨e0, e1, -⟩ := idx_whole t
  funext y
  unfold iblk0
  rw [View.read_apply]
  show V c main_arg10 _ = V c main_arg10 _
  refine congrArg _ ?_
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem blk3_eq (c : Dev nD) (t : Fin cfg0.N) :
    (iblk0 V c 3 t : Vec Ideal S1x128 .f32) = (V c main_v0 : S1x128.Idx → EReal) := by
  obtain ⟨-, -, e0, e1, -⟩ := idx_whole t
  funext y
  unfold iblk0
  rw [View.read_apply]
  show V c main_v0 _ = V c main_v0 _
  refine congrArg _ ?_
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem blk4_eq (c : Dev nD) (t : Fin cfg0.N) :
    (iblk0 V c 4 t : Vec Ideal S128x128 .f32) = (V c main_arg8 : S128x128.Idx → EReal) := by
  obtain ⟨-, -, -, -, e0, e1, -⟩ := idx_whole t
  funext y
  unfold iblk0
  rw [View.read_apply]
  show V c main_arg8 _ = V c main_arg8 _
  refine congrArg _ ?_
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem blk5_eq (c : Dev nD) (t : Fin cfg0.N) :
    (iblk0 V c 5 t : Vec Ideal S1x128 .f32) = (V c main_v1 : S1x128.Idx → EReal) := by
  obtain ⟨-, -, -, -, -, -, e0, e1, -⟩ := idx_whole t
  funext y
  unfold iblk0
  rw [View.read_apply]
  show V c main_v1 _ = V c main_v1 _
  refine congrArg _ ?_
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

theorem blk6_eq (c : Dev nD) (t : Fin cfg0.N) :
    (iblk0 V c 6 t : Vec Ideal S6x128 .f32) = (V c main_arg6 : S6x128.Idx → EReal) := by
  obtain ⟨-, -, -, -, -, -, -, -, e0, e1⟩ := idx_whole t
  funext y
  unfold iblk0
  rw [View.read_apply]
  show V c main_arg6 _ = V c main_arg6 _
  refine congrArg _ ?_
  funext a
  apply Fin.ext
  match a with
  | ⟨0, _⟩ => show win0_6.index t (0 : Fin 2) * 6 + 1 * (y 0).val = (y 0).val; rw [e0]; omega
  | ⟨1, _⟩ => show win0_6.index t (1 : Fin 2) * 128 + 1 * (y 1).val = (y 1).val; rw [e1]; omega

end Blocks

/-! ## What each point writes back, the cover, and the arrays after the region -/

section Arrays

variable (V : (c : Dev nD) → (b : Ref sig .tc) → Buf (Elt Ideal) ((c : Thread nD τ).loc b))

/-- Point t writes back, to the first output, block t of the activated dense layer of the arrays the region finds. -/
theorem flushed7_eq (c : Dev nD) (t : Fin cfg0.N) :
    (dat0 (F := Ideal) V c).flushed 7 t = ((cfg0.win 7).blk t).view.read (Elt Ideal)
      (siluDense (V c main_arg0 : S300000x128.Idx → EReal) (V c main_arg10 : S128x128.Idx → EReal) (V c main_v0 : S1x128.Idx → EReal)) := by
  show (cfg0.win 7).cut (grid0.coords t) ((dat0 V c).after 7 t) = _
  rw [after0_7]
  unfold out0_7
  rw [View.canon_unit_zero hz]
  simp only [View.ld_unit_zero (S := S6000x128) hz, View.ld_unit_zero (S := S128x128) hz, View.ld_unit_zero (S := S1x128) hz]
  obtain ⟨-, -, -, -, e0, e1, -⟩ := idx_rows t
  have ht : t.val < 50 := lt_of_lt_of_eq t.isLt N_0
  funext j
  have hj0 : (j 0).val < 6000 := (j 0).isLt
  have hj1 : (j 1).val < 128 := (j 1).isLt
  rw [View.read_apply]
  have hL : (cfg0.win 7).xinj (grid0.coords t) j = ix2 (⟨(j 0).val, hj0⟩ : Fin 6000) (⟨(j 1).val, hj1⟩ : Fin 128) :=
    funext fun a => by
      match a with
      | ⟨0, _⟩ => rfl
      | ⟨1, _⟩ => rfl
  have hR : ((cfg0.win 7).blk t).view.emb j
      = ix2 (⟨t.val * 6000 + (j 0).val, by omega⟩ : Fin 300000) (⟨(j 1).val, hj1⟩ : Fin 128) := by
    funext a
    apply Fin.ext
    match a with
    | ⟨0, _⟩ => show win0_7.index t (0 : Fin 2) * 6000 + 1 * (j 0).val = t.val * 6000 + (j 0).val; rw [e0]; omega
    | ⟨1, _⟩ => show win0_7.index t (1 : Fin 2) * 128 + 1 * (j 1).val = (j 1).val; rw [e1]; omega
  show k0_pay2 (F := Ideal) (iblk0 V c 0 t) (iblk0 V c 2 t) (iblk0 V c 3 t) ((cfg0.win 7).xinj (grid0.coords t) j)
    = siluDense (V c main_arg0 : S300000x128.Idx → EReal) (V c main_arg10 : S128x128.Idx → EReal) (V c main_v0 : S1x128.Idx → EReal)
        (((cfg0.win 7).blk t).view.emb j)
  rw [hL, hR, pay2_apply, siluDense_ix2, blk2_eq V c t, blk3_eq V c t]
  refine congrArg silu (congrArg (· + _) (Finset.sum_congr rfl fun k _ => ?_))
  exact congrArg (· * _) (blk0_apply V c t ⟨(j 0).val, hj0⟩ k ⟨t.val * 6000 + (j 0).val, by omega⟩ rfl)

end Arrays

section Arrays2

variable (V : (c : Dev nD) → (b : Ref sig .tc) → Buf (Elt Ideal) ((c : Thread nD τ).loc b))

/-- Point t writes back, to the second output, block t of the activated dense layer times the radial projection. -/
theorem flushed8_eq (c : Dev nD) (t : Fin cfg0.N) :
    (dat0 (F := Ideal) V c).flushed 8 t = ((cfg0.win 8).blk t).view.read (Elt Ideal)
      (edgeKj (V c main_arg0 : S300000x128.Idx → EReal) (V c main_arg1 : S300000x6.Idx → EReal)
        (V c main_arg8 : S128x128.Idx → EReal) (V c main_v1 : S1x128.Idx → EReal) (V c main_arg6 : S6x128.Idx → EReal)) := by
  show (cfg0.win 8).cut (grid0.coords t) ((dat0 V c).after 8 t) = _
  rw [after0_8]
  unfold out0_8
  rw [View.canon_unit_zero hz]
  simp only [View.ld_unit_zero (S := S6000x128) hz, View.ld_unit_zero (S := S6000x6) hz, View.ld_unit_zero (S := S128x128) hz,
    View.ld_unit_zero (S := S6x128) hz, View.ld_unit_zero (S := S1x128) hz]
  obtain ⟨-, -, -, -, -, -, e0, e1⟩ := idx_rows t
  have ht : t.val < 50 := lt_of_lt_of_eq t.isLt N_0
  funext j
  have hj0 : (j 0).val < 6000 := (j 0).isLt
  have hj1 : (j 1).val < 128 := (j 1).isLt
  rw [View.read_apply]
  have hL : (cfg0.win 8).xinj (grid0.coords t) j = ix2 (⟨(j 0).val, hj0⟩ : Fin 6000) (⟨(j 1).val, hj1⟩ : Fin 128) :=
    funext fun a => by
      match a with
      | ⟨0, _⟩ => rfl
      | ⟨1, _⟩ => rfl
  have hR : ((cfg0.win 8).blk t).view.emb j
      = ix2 (⟨t.val * 6000 + (j 0).val, by omega⟩ : Fin 300000) (⟨(j 1).val, hj1⟩ : Fin 128) := by
    funext a
    apply Fin.ext
    match a with
    | ⟨0, _⟩ => show win0_8.index t (0 : Fin 2) * 6000 + 1 * (j 0).val = t.val * 6000 + (j 0).val; rw [e0]; omega
    | ⟨1, _⟩ => show win0_8.index t (1 : Fin 2) * 128 + 1 * (j 1).val = (j 1).val; rw [e1]; omega
  show k0_pay3 (F := Ideal) (iblk0 V c 0 t) (iblk0 V c 1 t) (iblk0 V c 4 t) (iblk0 V c 6 t) (iblk0 V c 5 t)
      ((cfg0.win 8).xinj (grid0.coords t) j)
    = edgeKj (V c main_arg0 : S300000x128.Idx → EReal) (V c main_arg1 : S300000x6.Idx → EReal)
        (V c main_arg8 : S128x128.Idx → EReal) (V c main_v1 : S1x128.Idx → EReal) (V c main_arg6 : S6x128.Idx → EReal)
        (((cfg0.win 8).blk t).view.emb j)
  rw [hL, hR, pay3_apply, edgeKj_ix2, blk4_eq V c t, blk5_eq V c t, blk6_eq V c t]
  refine congrArg₂ (· * ·) (congrArg silu (congrArg (· + _) (Finset.sum_congr rfl fun k _ => ?_)))
    (Finset.sum_congr rfl fun k _ => ?_)
  · exact congrArg (· * _) (blk0_apply V c t ⟨(j 0).val, hj0⟩ k ⟨t.val * 6000 + (j 0).val, by omega⟩ rfl)
  · exact congrArg (· * _) (blk1_apply V c t ⟨(j 0).val, hj0⟩ k ⟨t.val * 6000 + (j 0).val, by omega⟩ rfl)

/-- An index of an output array is in point t's block iff each coordinate is in the block's range on its axis. -/
theorem mem_blk7 (t : Fin cfg0.N) (i : S300000x128.Idx) :
    i ∈ ((cfg0.win 7).blk t).view.set ↔ ∀ a : Fin 2, win0_7.index t a * S6000x128.size a ≤ (i a).val
      ∧ (i a).val < win0_7.index t a * S6000x128.size a + S6000x128.size a := by
  show i ∈ ((View.whole main_v2_0).slice (win0_7.rect t)).set ↔ _
  rw [View.set_slice_whole, Rect.mem_set_unit]
  exact Iff.rfl

theorem mem_blk8 (t : Fin cfg0.N) (i : S300000x128.Idx) :
    i ∈ ((cfg0.win 8).blk t).view.set ↔ ∀ a : Fin 2, win0_8.index t a * S6000x128.size a ≤ (i a).val
      ∧ (i a).val < win0_8.index t a * S6000x128.size a + S6000x128.size a := by
  show i ∈ ((View.whole main_v2_1).slice (win0_8.rect t)).set ↔ _
  rw [View.set_slice_whole, Rect.mem_set_unit]
  exact Iff.rfl

/-- Row e of an output lies in the block of point e / 6000, which writes back. -/
theorem cover7 (i : S300000x128.Idx) :
    ∃ t : Fin cfg0.N, (cfg0.win 7).flush t = true ∧ i ∈ ((cfg0.win 7).blk t).view.set := by
  have hi0 : (i 0).val < 300000 := (i 0).isLt
  have hi1 : (i 1).val < 128 := (i 1).isLt
  have hN : cfg0.N = 50 := N_0
  have hq : (i 0).val / 6000 < cfg0.N := by rw [hN]; omega
  obtain ⟨-, -, -, -, e0, e1, -⟩ := idx_rows ⟨(i 0).val / 6000, hq⟩
  refine ⟨⟨(i 0).val / 6000, hq⟩, flush0_7 _, ?_⟩
  rw [mem_blk7]
  intro a
  match a with
  | ⟨0, _⟩ =>
    show win0_7.index ⟨(i 0).val / 6000, hq⟩ (0 : Fin 2) * 6000 ≤ (i 0).val
      ∧ (i 0).val < win0_7.index ⟨(i 0).val / 6000, hq⟩ (0 : Fin 2) * 6000 + 6000
    rw [e0]; show (i 0).val / 6000 * 6000 ≤ (i 0).val ∧ (i 0).val < (i 0).val / 6000 * 6000 + 6000; omega
  | ⟨1, _⟩ =>
    show win0_7.index ⟨(i 0).val / 6000, hq⟩ (1 : Fin 2) * 128 ≤ (i 1).val
      ∧ (i 1).val < win0_7.index ⟨(i 0).val / 6000, hq⟩ (1 : Fin 2) * 128 + 128
    rw [e1]; omega

theorem cover8 (i : S300000x128.Idx) :
    ∃ t : Fin cfg0.N, (cfg0.win 8).flush t = true ∧ i ∈ ((cfg0.win 8).blk t).view.set := by
  have hi0 : (i 0).val < 300000 := (i 0).isLt
  have hi1 : (i 1).val < 128 := (i 1).isLt
  have hN : cfg0.N = 50 := N_0
  have hq : (i 0).val / 6000 < cfg0.N := by rw [hN]; omega
  obtain ⟨-, -, -, -, -, -, e0, e1⟩ := idx_rows ⟨(i 0).val / 6000, hq⟩
  refine ⟨⟨(i 0).val / 6000, hq⟩, flush0_8 _, ?_⟩
  rw [mem_blk8]
  intro a
  match a with
  | ⟨0, _⟩ =>
    show win0_8.index ⟨(i 0).val / 6000, hq⟩ (0 : Fin 2) * 6000 ≤ (i 0).val
      ∧ (i 0).val < win0_8.index ⟨(i 0).val / 6000, hq⟩ (0 : Fin 2) * 6000 + 6000
    rw [e0]; show (i 0).val / 6000 * 6000 ≤ (i 0).val ∧ (i 0).val < (i 0).val / 6000 * 6000 + 6000; omega
  | ⟨1, _⟩ =>
    show win0_8.index ⟨(i 0).val / 6000, hq⟩ (1 : Fin 2) * 128 ≤ (i 1).val
      ∧ (i 1).val < win0_8.index ⟨(i 0).val / 6000, hq⟩ (1 : Fin 2) * 128 + 128
    rw [e1]; omega

/-- After the region the first output array is the activated dense layer x_ji of the arrays the region finds. -/
theorem final0_7 (c : Dev nD) :
    (dat0 (F := Ideal) V c).arrAt 7 cfg0.N
      = siluDense (V c main_arg0 : S300000x128.Idx → EReal) (V c main_arg10 : S128x128.Idx → EReal) (V c main_v0 : S1x128.Idx → EReal) :=
  (dat0 (F := Ideal) V c).arrAt_eq_of_cover 7 _ (fun t _ => flushed7_eq V c t) cover7

/-- After the region the second output array is x_kj · r of the arrays the region finds. -/
theorem final0_8 (c : Dev nD) :
    (dat0 (F := Ideal) V c).arrAt 8 cfg0.N
      = edgeKj (V c main_arg0 : S300000x128.Idx → EReal) (V c main_arg1 : S300000x6.Idx → EReal)
          (V c main_arg8 : S128x128.Idx → EReal) (V c main_v1 : S1x128.Idx → EReal) (V c main_arg6 : S6x128.Idx → EReal) :=
  (dat0 (F := Ideal) V c).arrAt_eq_of_cover 8 _ (fun t _ => flushed8_eq V c t) cover8

end Arrays2

end Cert.KernelIdeal.Edge

end
-- ==== Proof.GateSpec.lean ====
/-
  The gate of the network and its two printed spellings.

  The gate multiplies an edge feature array xe (M×N) entry by entry with the product of the radial basis array
  rbf (M×K) and a K×N matrix lin: entry (r, j) is (∑ k, rbf (r, k) · lin (k, j)) · xe (r, j).  Row r of the result
  depends on row r of xe, row r of rbf and the whole of lin.
  On the extended reals a change of float format is the identity and a matrix product into the zero accumulator is the
  textbook sum, so the kernel's tile expression (the product of the rounded operands, times the tile of xe) and the
  host's expression (dot_general, times xe) are both this function, read at an index; no algebraic law is used.
  The activated affine tile (the affine layer of a tile followed by v · σ(v)) is read at an index in the same way.
-/
import proofs.«109498_j75754633167331_1_alg».proof.Proof.Net
import proofs.«109498_j75754633167331_1_alg».proof.Proof.Gen.ReferenceIdeal

noncomputable section

open scoped BigOperators

namespace Cert.Net

open Idealize.ShloMosaic Idealize.ShloMosaic.ValueIdx Cert.LibDenseLayers

variable {M K N : Nat}

/-- The gate: entry (r, j) is (∑ k, rbf (r, k) · lin (k, j)) · xe (r, j). -/
def gate (xe : FVec Ideal ⟨2, ![M, N]⟩ .f32) (rbf : FVec Ideal ⟨2, ![M, K]⟩ .f32) (lin : FVec Ideal ⟨2, ![K, N]⟩ .f32) :
    FVec Ideal ⟨2, ![M, N]⟩ .f32 :=
  fun i => prod rbf lin i * xe i

theorem gate_ix2 (xe : FVec Ideal ⟨2, ![M, N]⟩ .f32) (rbf : FVec Ideal ⟨2, ![M, K]⟩ .f32) (lin : FVec Ideal ⟨2, ![K, N]⟩ .f32)
    (r : Fin M) (j : Fin N) :
    gate xe rbf lin (ix2 r j) = (∑ k : Fin K, rbf (ix2 r k) * lin (ix2 k j)) * xe (ix2 r j) := rfl

/-- One tile of the gate as the kernel computes it: the product of the rounded operands into the zero accumulator,
    times the tile of xe, at (p, q). -/
theorem gateTile_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (xe : FVec Ideal ⟨2, ![M, N]⟩ .f32) (rbf : FVec Ideal ⟨2, ![M, K]⟩ .f32) (lin : FVec Ideal ⟨2, ![K, N]⟩ .f32)
    (h1 : FTy.bf16.bits < FTy.f32.bits) (p : Fin M) (q : Fin N) :
    mulf (matmul d none (truncf .bf16 rbf h1) (truncf .bf16 lin h1) (constant (F := Ideal) ⟨2, ![M, N]⟩ .f32 0x00000000#32)) xe (ix2 p q)
      = (∑ k : Fin K, rbf (ix2 p k) * lin (ix2 k q)) * xe (ix2 p q) := by
  rw [mulf_apply,
    Cert.LibMatmulNN.matmul_zero_apply' d hlc hrc hln hrn hlb hrb none (truncf .bf16 rbf h1) (truncf .bf16 lin h1) p q]
  rfl

/-- One tile of the activated affine layer as the kernel computes it: v · σ(v) of the affine tile, at (p, q). -/
theorem siluTile_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ .f32) (W : FVec Ideal ⟨2, ![K, N]⟩ .f32) (b : FVec Ideal ⟨2, ![1, N]⟩ .f32)
    (h1 : FTy.bf16.bits < FTy.f32.bits) (hb : (⟨2, ![1, N]⟩ : Shape).Broadcasts ⟨2, ![M, N]⟩) (p : Fin M) (q : Fin N) :
    mulf (addf (matmul d none (truncf .bf16 x h1) (truncf .bf16 W h1) (constant (F := Ideal) ⟨2, ![M, N]⟩ .f32 0x00000000#32))
          (broadcastTo ⟨2, ![M, N]⟩ b hb))
        (logistic (addf (matmul d none (truncf .bf16 x h1) (truncf .bf16 W h1) (constant (F := Ideal) ⟨2, ![M, N]⟩ .f32 0x00000000#32))
          (broadcastTo ⟨2, ![M, N]⟩ b hb))) (ix2 p q)
      = silu ((∑ k : Fin K, x (ix2 p k) * W (ix2 k q)) + b (ix2 (0 : Fin 1) q)) := by
  rw [tileSilu_apply, linTile_apply d hlc hrc hln hrn hlb hrb x W b h1 hb p q]

/-- The host's gate (dot_general, times xe) is the gate, as whole arrays. -/
theorem hostGate_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (rbf : FVec Ideal ⟨2, ![M, K]⟩ .f32) (lin : FVec Ideal ⟨2, ![K, N]⟩ .f32) (xe : FVec Ideal ⟨2, ![M, N]⟩ .f32) :
    mulf (Host.dotGeneral d none rbf lin) xe = gate xe rbf lin := by
  funext i
  obtain ⟨r, j, rfl⟩ : ∃ (r : Fin M) (j : Fin N), i = ix2 r j := ⟨i 0, i 1, eq_ix2 i⟩
  rw [mulf_apply, gate_ix2]
  simp only [Host.dotGeneral]
  rw [Cert.LibDotGeneralNN.dotGeneral_apply d hlc hrc hln hrn hlb hrb]

open Cert.ReferenceIdeal in
/-- The reference's gate over its printed dimension record: the 300000×6 radial basis array times the 6×128 matrix,
    times the 300000×128 edge features. -/
theorem ref_gate (rbf : FVec Ideal S300000x6 .f32) (lin : FVec Ideal S6x128 .f32) (xe : FVec Ideal S300000x128 .f32) :
    mulf (Host.dotGeneral dot_S300000x6_S6x128_S300000x128_1_0_0_1_n_n none rbf lin) xe = gate xe rbf lin :=
  hostGate_eq dot_S300000x6_S6x128_S300000x128_1_0_0_1_n_n rfl rfl rfl rfl rfl rfl rbf lin xe

end Cert.Net

end
-- ==== Proof.GateKernel.lean ====
/-
  The two gate regions of the kernel program, read as whole arrays.

  Each gate region runs over 50 row tiles.  At tile t the body loads rows 6000·t … 6000·t + 5999 of the edge features
  (a 6000×128 block) and of the radial basis array (a 6000×6 block) and the whole 6×128 matrix, and stores into the
  output's block the product of the radial block with the matrix, times the feature block.  Row p of the output tile
  therefore depends on row 6000·t + p of the two row-tiled arrays and on the whole matrix: the tile is block t of the
  gate of the three whole arrays.  The 50 blocks tile the 300000 rows (row r lies in block r / 6000), so after the
  region the output array is the gate of the arrays the region found.  No algebraic law is used beyond reading each
  operation at an index.
-/
import proofs.«109498_j75754633167331_1_alg».proof.Proof.Gen.KernelIdeal.Frame
import proofs.«109498_j75754633167331_1_alg».proof.Proof.GateSpec
import Idealize.ShloMosaic.Lib.Pipeline.Value

noncomputable section

open scoped BigOperators

namespace Cert.KernelIdeal.Gate

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 1 -/

/-- The stored tile at (p, q): the radial block's row p against the matrix's column q, times the feature block's
    entry (p, q). -/
theorem pay1_apply (x0 : Vec Ideal S6000x128 .f32) (x1 : Vec Ideal S6000x6 .f32) (x2 : Vec Ideal S6x128 .f32)
    (p : Fin 6000) (q : Fin 128) :
    k1_pay1 x0 x1 x2 (ix2 p q) = (∑ k : Fin 6, x1 (ix2 p k) * x2 (ix2 k q)) * x0 (ix2 p q) := by
  unfold k1_pay1
  simp only [shapeCast_self]
  exact Cert.Net.gateTile_apply dot_S6000x6_S6x128_S6000x128_1_0_0_1_n_n rfl rfl rfl rfl rfl rfl x0 x1 x2 bitsLt_bf16_f32 p q

/-- The printed index maps over the 50 points: the row-tiled windows sit at block row t, the matrix at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The feature window's block at point t, entry y, is the array's entry at row 6000·t + y₀, column y₁. -/
theorem blk1_0 (c : Dev nD) (t : Fin cfg1.N) (y : S6000x128.Idx) (i : S300000x128.Idx)
    (h0 : (i 0).val = 6000 * t.val + (y 0).val) (h1 : (i 1).val = (y 1).val) :
    (iblk1 V c 0 t : Vec Ideal S6000x128 .f32) y = (V c main_arg0 : S300000x128.Idx → EReal) i := by
  obtain ⟨e0, e1, -⟩ := idx1 t
  unfold iblk1
  rw [View.read_apply]
  show V c main_arg0 _ = V c main_arg0 _
  congr 1
  funext a
  apply Fin.ext
  match a with
  | ⟨0, _⟩ => show win1_0.index t (0 : Fin 2) * 6000 + 1 * (y 0).val = (i 0).val; rw [e0, h0]; omega
  | ⟨1, _⟩ => show win1_0.index t (1 : Fin 2) * 128 + 1 * (y 1).val = (i 1).val; rw [e1, h1]; omega

/-- The radial window's block at point t, entry y, is the array's entry at row 6000·t + y₀, column y₁. -/
theorem blk1_1 (c : Dev nD) (t : Fin cfg1.N) (y : S6000x6.Idx) (i : S300000x6.Idx)
    (h0 : (i 0).val = 6000 * t.val + (y 0).val) (h1 : (i 1).val = (y 1).val) :
    (iblk1 V c 1 t : Vec Ideal S6000x6 .f32) y = (V c main_arg1 : S300000x6.Idx → EReal) i := by
  obtain ⟨-, -, e0, e1, -⟩ := idx1 t
  unfold iblk1
  rw [View.read_apply]
  show V c main_arg1 _ = V c main_arg1 _
  congr 1
  funext a
  apply Fin.ext
  match a with
  | ⟨0, _⟩ => show win1_1.index t (0 : Fin 2) * 6000 + 1 * (y 0).val = (i 0).val; rw [e0, h0]; omega
  | ⟨1, _⟩ => show win1_1.index t (1 : Fin 2) * 6 + 1 * (y 1).val = (i 1).val; rw [e1, h1]; omega

/-- The matrix window's block at every point is the whole matrix. -/
theorem blk1_2 (c : Dev nD) (t : Fin cfg1.N) (y : S6x128.Idx) (i : S6x128.Idx)
    (h0 : (i 0).val = (y 0).val) (h1 : (i 1).val = (y 1).val) :
    (iblk1 V c 2 t : Vec Ideal S6x128 .f32) y = (V c main_v4 : S6x128.Idx → EReal) i := by
  obtain ⟨-, -, -, -, e0, e1, -⟩ := idx1 t
  unfold iblk1
  rw [View.read_apply]
  show V c main_v4 _ = V c main_v4 _
  congr 1
  funext a
  apply Fin.ext
  match a with
  | ⟨0, _⟩ => show win1_2.index t (0 : Fin 2) * 6 + 1 * (y 0).val = (i 0).val; rw [e0, h0]; omega
  | ⟨1, _⟩ => show win1_2.index t (1 : Fin 2) * 128 + 1 * (y 1).val = (i 1).val; rw [e1, h1]; omega

/-- The tile stored at point t, entry y, is the gate of the whole arrays at row 6000·t + y₀, column y₁. -/
theorem tile1 (c : Dev nD) (t : Fin cfg1.N) (y : S6000x128.Idx) (i : S300000x128.Idx)
    (h0 : (i 0).val = 6000 * t.val + (y 0).val) (h1 : (i 1).val = (y 1).val) :
    k1_pay1 (iblk1 V c 0 t) (iblk1 V c 1 t) (iblk1 V c 2 t) y
      = Cert.Net.gate (V c main_arg0) (V c main_arg1) (V c main_v4) i := by
  obtain ⟨p, q, rfl⟩ : ∃ (p : Fin 6000) (q : Fin 128), y = ix2 p q := ⟨y 0, y 1, eq_ix2 y⟩
  obtain ⟨r, j, rfl⟩ : ∃ (r : Fin 300000) (j : Fin 128), i = ix2 r j := ⟨i 0, i 1, eq_ix2 i⟩
  have hr : r.val = 6000 * t.val + p.val := h0
  have hj : j.val = q.val := h1
  refine (pay1_apply (iblk1 V c 0 t) (iblk1 V c 1 t) (iblk1 V c 2 t) p q).trans ?_
  rw [Cert.Net.gate_ix2, blk1_0 V c t (ix2 p q) (ix2 r j) hr hj]
  refine congrArg (· * _) (Finset.sum_congr rfl fun k _ => ?_)
  rw [blk1_1 V c t (ix2 p k) (ix2 r k) hr rfl, blk1_2 V c t (ix2 k q) (ix2 k j) rfl hj]

/-- What point t writes back is block t of the gate of the arrays the region found. -/
theorem flushed1_3 (c : Dev nD) (t : Fin cfg1.N) :
    (dat1 V c).flushed 3 t = ((cfg1.win 3).blk t).view.read (Elt Ideal)
      (Cert.Net.gate (V c main_arg0) (V c main_arg1) (V c main_v4)) := by
  show (cfg1.win 3).cut (grid1.coords t) ((dat1 V c).after 3 t) = _
  rw [after1_3]
  unfold out1_3
  rw [View.canon_unit_zero hz]
  simp only [View.ld_unit_zero (S := S6000x128) hz, View.ld_unit_zero (S := S6000x6) hz, View.ld_unit_zero (S := S6x128) hz]
  funext y
  obtain ⟨-, -, -, -, -, -, e0, e1⟩ := idx1 t
  show k1_pay1 (iblk1 V c 0 t) (iblk1 V c 1 t) (iblk1 V c 2 t) y
    = Cert.Net.gate (V c main_arg0) (V c main_arg1) (V c main_v4) (((cfg1.win 3).blk t).view.emb y)
  refine tile1 V c t y _ ?_ ?_
  · show win1_3.index t (0 : Fin 2) * 6000 + 1 * (y 0).val = 6000 * t.val + (y 0).val; rw [e0]; omega
  · show win1_3.index t (1 : Fin 2) * 128 + 1 * (y 1).val = (y 1).val; rw [e1]; omega

/-- An index of the output array is in point t's block iff each coordinate is in the block's range on its axis. -/
theorem mem_blk1_3 (t : Fin cfg1.N) (i : S300000x128.Idx) :
    i ∈ ((cfg1.win 3).blk t).view.set ↔ ∀ a : Fin 2, win1_3.index t a * S6000x128.size a ≤ (i a).val
      ∧ (i a).val < win1_3.index t a * S6000x128.size a + S6000x128.size a := by
  show i ∈ ((View.whole main_v5).slice (win1_3.rect t)).set ↔ _
  rw [View.set_slice_whole, Rect.mem_set_unit]
  exact Iff.rfl

/-- Every index of the output array is in some point's block: row r is in block r / 6000. -/
theorem covered1_3 (i : S300000x128.Idx) :
    ∃ t : Fin cfg1.N, (cfg1.win 3).flush t = true ∧ i ∈ ((cfg1.win 3).blk t).view.set := by
  have hi0 : (i 0).val < 300000 := (i 0).isLt
  have hi1 : (i 1).val < 128 := (i 1).isLt
  have hN : grid1.N = 50 := N_1
  obtain ⟨t, ht⟩ : ∃ t : Fin cfg1.N, t.val = (i 0).val / 6000 :=
    ⟨⟨(i 0).val / 6000, by show (i 0).val / 6000 < grid1.N; rw [hN]; omega⟩, rfl⟩
  obtain ⟨-, -, -, -, -, -, e0, e1⟩ := idx1 t
  refine ⟨t, flush1_3 t, ?_⟩
  rw [mem_blk1_3]
  intro a
  match a with
  | ⟨0, _⟩ =>
    show win1_3.index t (0 : Fin 2) * 6000 ≤ (i 0).val ∧ (i 0).val < win1_3.index t (0 : Fin 2) * 6000 + 6000
    rw [e0, ht]; omega
  | ⟨1, _⟩ =>
    show win1_3.index t (1 : Fin 2) * 128 ≤ (i 1).val ∧ (i 1).val < win1_3.index t (1 : Fin 2) * 128 + 128
    rw [e1]; omega

/-- After region 1 the output array is the gate of the feature array, the radial basis array and the matrix as the
    region found them. -/
theorem final1_3 (c : Dev nD) :
    (dat1 (F := Ideal) V c).arrAt 3 cfg1.N = Cert.Net.gate (V c main_arg0) (V c main_arg1) (V c main_v4) :=
  (dat1 V c).arrAt_eq_of_cover 3 (Cert.Net.gate (V c main_arg0) (V c main_arg1) (V c main_v4))
    (fun t _ => flushed1_3 V c t) covered1_3

/-! ## Region 5 -/

/-- The stored tile at (p, q): the radial block's row p against the matrix's column q, times the feature block's
    entry (p, q). -/
theorem pay5_apply (x0 : Vec Ideal S6000x128 .f32) (x1 : Vec Ideal S6000x6 .f32) (x2 : Vec Ideal S6x128 .f32)
    (p : Fin 6000) (q : Fin 128) :
    k5_pay1 x0 x1 x2 (ix2 p q) = (∑ k : Fin 6, x1 (ix2 p k) * x2 (ix2 k q)) * x0 (ix2 p q) := by
  unfold k5_pay1
  simp only [shapeCast_self]
  exact Cert.Net.gateTile_apply dot_S6000x6_S6x128_S6000x128_1_0_0_1_n_n rfl rfl rfl rfl rfl rfl x0 x1 x2 bitsLt_bf16_f32 p q

/-- The printed index maps over the 50 points: the row-tiled windows sit at block row t, the matrix at block (0, 0). -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The feature window's block at point t, entry y, is the array's entry at row 6000·t + y₀, column y₁. -/
theorem blk5_0 (c : Dev nD) (t : Fin cfg5.N) (y : S6000x128.Idx) (i : S300000x128.Idx)
    (h0 : (i 0).val = 6000 * t.val + (y 0).val) (h1 : (i 1).val = (y 1).val) :
    (iblk5 V c 0 t : Vec Ideal S6000x128 .f32) y = (V c main_v30 : S300000x128.Idx → EReal) i := by
  obtain ⟨e0, e1, -⟩ := idx5 t
  unfold iblk5
  rw [View.read_apply]
  show V c main_v30 _ = V c main_v30 _
  congr 1
  funext a
  apply Fin.ext
  match a with
  | ⟨0, _⟩ => show win5_0.index t (0 : Fin 2) * 6000 + 1 * (y 0).val = (i 0).val; rw [e0, h0]; omega
  | ⟨1, _⟩ => show win5_0.index t (1 : Fin 2) * 128 + 1 * (y 1).val = (i 1).val; rw [e1, h1]; omega

/-- The radial window's block at point t, entry y, is the array's entry at row 6000·t + y₀, column y₁. -/
theorem blk5_1 (c : Dev nD) (t : Fin cfg5.N) (y : S6000x6.Idx) (i : S300000x6.Idx)
    (h0 : (i 0).val = 6000 * t.val + (y 0).val) (h1 : (i 1).val = (y 1).val) :
    (iblk5 V c 1 t : Vec Ideal S6000x6 .f32) y = (V c main_arg1 : S300000x6.Idx → EReal) i := by
  obtain ⟨-, -, e0, e1, -⟩ := idx5 t
  unfold iblk5
  rw [View.read_apply]
  show V c main_arg1 _ = V c main_arg1 _
  congr 1
  funext a
  apply Fin.ext
  match a with
  | ⟨0, _⟩ => show win5_1.index t (0 : Fin 2) * 6000 + 1 * (y 0).val = (i 0).val; rw [e0, h0]; omega
  | ⟨1, _⟩ => show win5_1.index t (1 : Fin 2) * 6 + 1 * (y 1).val = (i 1).val; rw [e1, h1]; omega

/-- The matrix window's block at every point is the whole matrix. -/
theorem blk5_2 (c : Dev nD) (t : Fin cfg5.N) (y : S6x128.Idx) (i : S6x128.Idx)
    (h0 : (i 0).val = (y 0).val) (h1 : (i 1).val = (y 1).val) :
    (iblk5 V c 2 t : Vec Ideal S6x128 .f32) y = (V c main_v32 : S6x128.Idx → EReal) i := by
  obtain ⟨-, -, -, -, e0, e1, -⟩ := idx5 t
  unfold iblk5
  rw [View.read_apply]
  show V c main_v32 _ = V c main_v32 _
  congr 1
  funext a
  apply Fin.ext
  match a with
  | ⟨0, _⟩ => show win5_2.index t (0 : Fin 2) * 6 + 1 * (y 0).val = (i 0).val; rw [e0, h0]; omega
  | ⟨1, _⟩ => show win5_2.index t (1 : Fin 2) * 128 + 1 * (y 1).val = (i 1).val; rw [e1, h1]; omega

/-- The tile stored at point t, entry y, is the gate of the whole arrays at row 6000·t + y₀, column y₁. -/
theorem tile5 (c : Dev nD) (t : Fin cfg5.N) (y : S6000x128.Idx) (i : S300000x128.Idx)
    (h0 : (i 0).val = 6000 * t.val + (y 0).val) (h1 : (i 1).val = (y 1).val) :
    k5_pay1 (iblk5 V c 0 t) (iblk5 V c 1 t) (iblk5 V c 2 t) y
      = Cert.Net.gate (V c main_v30) (V c main_arg1) (V c main_v32) i := by
  obtain ⟨p, q, rfl⟩ : ∃ (p : Fin 6000) (q : Fin 128), y = ix2 p q := ⟨y 0, y 1, eq_ix2 y⟩
  obtain ⟨r, j, rfl⟩ : ∃ (r : Fin 300000) (j : Fin 128), i = ix2 r j := ⟨i 0, i 1, eq_ix2 i⟩
  have hr : r.val = 6000 * t.val + p.val := h0
  have hj : j.val = q.val := h1
  refine (pay5_apply (iblk5 V c 0 t) (iblk5 V c 1 t) (iblk5 V c 2 t) p q).trans ?_
  rw [Cert.Net.gate_ix2, blk5_0 V c t (ix2 p q) (ix2 r j) hr hj]
  refine congrArg (· * _) (Finset.sum_congr rfl fun k _ => ?_)
  rw [blk5_1 V c t (ix2 p k) (ix2 r k) hr rfl, blk5_2 V c t (ix2 k q) (ix2 k j) rfl hj]

/-- What point t writes back is block t of the gate of the arrays the region found. -/
theorem flushed5_3 (c : Dev nD) (t : Fin cfg5.N) :
    (dat5 V c).flushed 3 t = ((cfg5.win 3).blk t).view.read (Elt Ideal)
      (Cert.Net.gate (V c main_v30) (V c main_arg1) (V c main_v32)) := by
  show (cfg5.win 3).cut (grid5.coords t) ((dat5 V c).after 3 t) = _
  rw [after5_3]
  unfold out5_3
  rw [View.canon_unit_zero hz]
  simp only [View.ld_unit_zero (S := S6000x128) hz, View.ld_unit_zero (S := S6000x6) hz, View.ld_unit_zero (S := S6x128) hz]
  funext y
  obtain ⟨-, -, -, -, -, -, e0, e1⟩ := idx5 t
  show k5_pay1 (iblk5 V c 0 t) (iblk5 V c 1 t) (iblk5 V c 2 t) y
    = Cert.Net.gate (V c main_v30) (V c main_arg1) (V c main_v32) (((cfg5.win 3).blk t).view.emb y)
  refine tile5 V c t y _ ?_ ?_
  · show win5_3.index t (0 : Fin 2) * 6000 + 1 * (y 0).val = 6000 * t.val + (y 0).val; rw [e0]; omega
  · show win5_3.index t (1 : Fin 2) * 128 + 1 * (y 1).val = (y 1).val; rw [e1]; omega

/-- An index of the output array is in point t's block iff each coordinate is in the block's range on its axis. -/
theorem mem_blk5_3 (t : Fin cfg5.N) (i : S300000x128.Idx) :
    i ∈ ((cfg5.win 3).blk t).view.set ↔ ∀ a : Fin 2, win5_3.index t a * S6000x128.size a ≤ (i a).val
      ∧ (i a).val < win5_3.index t a * S6000x128.size a + S6000x128.size a := by
  show i ∈ ((View.whole main_v33).slice (win5_3.rect t)).set ↔ _
  rw [View.set_slice_whole, Rect.mem_set_unit]
  exact Iff.rfl

/-- Every index of the output array is in some point's block: row r is in block r / 6000. -/
theorem covered5_3 (i : S300000x128.Idx) :
    ∃ t : Fin cfg5.N, (cfg5.win 3).flush t = true ∧ i ∈ ((cfg5.win 3).blk t).view.set := by
  have hi0 : (i 0).val < 300000 := (i 0).isLt
  have hi1 : (i 1).val < 128 := (i 1).isLt
  have hN : grid5.N = 50 := N_5
  obtain ⟨t, ht⟩ : ∃ t : Fin cfg5.N, t.val = (i 0).val / 6000 :=
    ⟨⟨(i 0).val / 6000, by show (i 0).val / 6000 < grid5.N; rw [hN]; omega⟩, rfl⟩
  obtain ⟨-, -, -, -, -, -, e0, e1⟩ := idx5 t
  refine ⟨t, flush5_3 t, ?_⟩
  rw [mem_blk5_3]
  intro a
  match a with
  | ⟨0, _⟩ =>
    show win5_3.index t (0 : Fin 2) * 6000 ≤ (i 0).val ∧ (i 0).val < win5_3.index t (0 : Fin 2) * 6000 + 6000
    rw [e0, ht]; omega
  | ⟨1, _⟩ =>
    show win5_3.index t (1 : Fin 2) * 128 ≤ (i 1).val ∧ (i 1).val < win5_3.index t (1 : Fin 2) * 128 + 128
    rw [e1]; omega

/-- After region 5 the output array is the gate of the feature array, the radial basis array and the matrix as the
    region found them. -/
theorem final5_3 (c : Dev nD) :
    (dat5 (F := Ideal) V c).arrAt 3 cfg5.N = Cert.Net.gate (V c main_v30) (V c main_arg1) (V c main_v32) :=
  (dat5 V c).arrAt_eq_of_cover 3 (Cert.Net.gate (V c main_v30) (V c main_arg1) (V c main_v32))
    (fun t _ => flushed5_3 V c t) covered5_3

end Cert.KernelIdeal.Gate

end
-- ==== Proof.FinalLinearKernel.lean ====
/-
  The final linear region of the kernel program, read as a whole array.

  The region runs over 50 row tiles.  At tile t the body loads rows 6000·t … 6000·t + 5999 of two 300000×128 arrays
  (the transformed edge features and the aggregated messages), the whole 128×128 weight matrix and the bias as one
  row, adds the two blocks, multiplies the sum with the matrix, adds the bias row to every row and applies v · σ(v).
  Row p of the output tile depends on row 6000·t + p of the two row-tiled arrays, on the whole matrix and on the
  bias row: the tile is block t of the activated dense layer of the entrywise sum of the two arrays.  The 50 blocks
  tile the 300000 rows (row r lies in block r / 6000), so after the region the output array is that layer of the
  arrays the region found.  No algebraic law is used beyond reading each operation at an index.
-/
import proofs.«109498_j75754633167331_1_alg».proof.Proof.Gen.KernelIdeal.Frame
import proofs.«109498_j75754633167331_1_alg».proof.Proof.GateSpec
import Idealize.ShloMosaic.Lib.Pipeline.Value

noncomputable section

open scoped BigOperators

namespace Cert.KernelIdeal.FinalLinear

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stored tile at (p, q): v · σ(v) of the sum block's row p against the matrix's column q plus the bias row's
    entry q. -/
theorem pay4_apply (x0 x1 : Vec Ideal S6000x128 .f32) (x2 : Vec Ideal S128x128 .f32) (x3 : Vec Ideal S1x128 .f32)
    (p : Fin 6000) (q : Fin 128) :
    k4_pay1 x0 x1 x2 x3 (ix2 p q)
      = Cert.Net.silu ((∑ k : Fin 128, (x0 (ix2 p k) + x1 (ix2 p k)) * x2 (ix2 k q)) + x3 (ix2 (0 : Fin 1) q)) := by
  unfold k4_pay1
  simp only [shapeCast_self]
  exact Cert.Net.siluTile_apply dot_S6000x128_S128x128_S6000x128_1_0_0_1_n_n rfl rfl rfl rfl rfl rfl (addf x0 x1) x2 x3
    bitsLt_bf16_f32 broadcasts_S1x128_S6000x128 p q

/-- The printed index maps over the 50 points: the row-tiled windows sit at block row t, the matrix and the bias row
    at block (0, 0). -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The first row-tiled window's block at point t, entry y, is the array's entry at row 6000·t + y₀, column y₁. -/
theorem blk4_0 (c : Dev nD) (t : Fin cfg4.N) (y : S6000x128.Idx) (i : S300000x128.Idx)
    (h0 : (i 0).val = 6000 * t.val + (y 0).val) (h1 : (i 1).val = (y 1).val) :
    (iblk4 V c 0 t : Vec Ideal S6000x128 .f32) y = (V c main_v2_0 : S300000x128.Idx → EReal) i := by
  obtain ⟨e0, e1, -⟩ := idx4 t
  unfold iblk4
  rw [View.read_apply]
  show V c main_v2_0 _ = V c main_v2_0 _
  congr 1
  funext a
  apply Fin.ext
  match a with
  | ⟨0, _⟩ => show win4_0.index t (0 : Fin 2) * 6000 + 1 * (y 0).val = (i 0).val; rw [e0, h0]; omega
  | ⟨1, _⟩ => show win4_0.index t (1 : Fin 2) * 128 + 1 * (y 1).val = (i 1).val; rw [e1, h1]; omega

/-- The second row-tiled window's block at point t, entry y, is the array's entry at row 6000·t + y₀, column y₁. -/
theorem blk4_1 (c : Dev nD) (t : Fin cfg4.N) (y : S6000x128.Idx) (i : S300000x128.Idx)
    (h0 : (i 0).val = 6000 * t.val + (y 0).val) (h1 : (i 1).val = (y 1).val) :
    (iblk4 V c 1 t : Vec Ideal S6000x128 .f32) y = (V c main_v28 : S300000x128.Idx → EReal) i := by
  obtain ⟨-, -, e0, e1, -⟩ := idx4 t
  unfold iblk4
  rw [View.read_apply]
  show V c main_v28 _ = V c main_v28 _
  congr 1
  funext a
  apply Fin.ext
  match a with
  | ⟨0, _⟩ => show win4_1.index t (0 : Fin 2) * 6000 + 1 * (y 0).val = (i 0).val; rw [e0, h0]; omega
  | ⟨1, _⟩ => show win4_1.index t (1 : Fin 2) * 128 + 1 * (y 1).val = (i 1).val; rw [e1, h1]; omega

/-- The matrix window's block at every point is the whole matrix. -/
theorem blk4_2 (c : Dev nD) (t : Fin cfg4.N) (y : S128x128.Idx) (i : S128x128.Idx)
    (h0 : (i 0).val = (y 0).val) (h1 : (i 1).val = (y 1).val) :
    (iblk4 V c 2 t : Vec Ideal S128x128 .f32) y = (V c main_arg13 : S128x128.Idx → EReal) i := by
  obtain ⟨-, -, -, -, e0, e1, -⟩ := idx4 t
  unfold iblk4
  rw [View.read_apply]
  show V c main_arg13 _ = V c main_arg13 _
  congr 1
  funext a
  apply Fin.ext
  match a with
  | ⟨0, _⟩ => show win4_2.index t (0 : Fin 2) * 128 + 1 * (y 0).val = (i 0).val; rw [e0, h0]; omega
  | ⟨1, _⟩ => show win4_2.index t (1 : Fin 2) * 128 + 1 * (y 1).val = (i 1).val; rw [e1, h1]; omega

/-- The bias window's block at every point is the whole bias row. -/
theorem blk4_3 (c : Dev nD) (t : Fin cfg4.N) (y : S1x128.Idx) (i : S1x128.Idx)
    (h0 : (i 0).val = (y 0).val) (h1 : (i 1).val = (y 1).val) :
    (iblk4 V c 3 t : Vec Ideal S1x128 .f32) y = (V c main_v29 : S1x128.Idx → EReal) i := by
  obtain ⟨-, -, -, -, -, -, e0, e1, -⟩ := idx4 t
  unfold iblk4
  rw [View.read_apply]
  show V c main_v29 _ = V c main_v29 _
  congr 1
  funext a
  apply Fin.ext
  match a with
  | ⟨0, _⟩ => show win4_3.index t (0 : Fin 2) * 1 + 1 * (y 0).val = (i 0).val; rw [e0, h0]; omega
  | ⟨1, _⟩ => show win4_3.index t (1 : Fin 2) * 128 + 1 * (y 1).val = (i 1).val; rw [e1, h1]; omega

/-- The tile stored at point t, entry y, is the activated dense layer of the sum of the two whole arrays at row
    6000·t + y₀, column y₁. -/
theorem tile4 (c : Dev nD) (t : Fin cfg4.N) (y : S6000x128.Idx) (i : S300000x128.Idx)
    (h0 : (i 0).val = 6000 * t.val + (y 0).val) (h1 : (i 1).val = (y 1).val) :
    k4_pay1 (iblk4 V c 0 t) (iblk4 V c 1 t) (iblk4 V c 2 t) (iblk4 V c 3 t) y
      = Cert.Net.siluDense (addf (V c main_v2_0) (V c main_v28)) (V c main_arg13) (V c main_v29) i := by
  obtain ⟨p, q, rfl⟩ : ∃ (p : Fin 6000) (q : Fin 128), y = ix2 p q := ⟨y 0, y 1, eq_ix2 y⟩
  obtain ⟨r, j, rfl⟩ : ∃ (r : Fin 300000) (j : Fin 128), i = ix2 r j := ⟨i 0, i 1, eq_ix2 i⟩
  have hr : r.val = 6000 * t.val + p.val := h0
  have hj : j.val = q.val := h1
  refine (pay4_apply (iblk4 V c 0 t) (iblk4 V c 1 t) (iblk4 V c 2 t) (iblk4 V c 3 t) p q).trans ?_
  rw [Cert.Net.siluDense_ix2, blk4_3 V c t (ix2 (0 : Fin 1) q) (ix2 (0 : Fin 1) j) rfl hj]
  refine congrArg (fun s => Cert.Net.silu (s + _)) (Finset.sum_congr rfl fun k _ => ?_)
  rw [blk4_0 V c t (ix2 p k) (ix2 r k) hr rfl, blk4_1 V c t (ix2 p k) (ix2 r k) hr rfl,
    blk4_2 V c t (ix2 k q) (ix2 k j) rfl hj]
  rfl

/-- What point t writes back is block t of the activated dense layer of the arrays the region found. -/
theorem flushed4_4 (c : Dev nD) (t : Fin cfg4.N) :
    (dat4 V c).flushed 4 t = ((cfg4.win 4).blk t).view.read (Elt Ideal)
      (Cert.Net.siluDense (addf (V c main_v2_0) (V c main_v28)) (V c main_arg13) (V c main_v29)) := by
  show (cfg4.win 4).cut (grid4.coords t) ((dat4 V c).after 4 t) = _
  rw [after4_4]
  unfold out4_4
  rw [View.canon_unit_zero hz]
  simp only [View.ld_unit_zero (S := S6000x128) hz, View.ld_unit_zero (S := S128x128) hz, View.ld_unit_zero (S := S1x128) hz]
  funext y
  obtain ⟨-, -, -, -, -, -, -, -, e0, e1⟩ := idx4 t
  show k4_pay1 (iblk4 V c 0 t) (iblk4 V c 1 t) (iblk4 V c 2 t) (iblk4 V c 3 t) y
    = Cert.Net.siluDense (addf (V c main_v2_0) (V c main_v28)) (V c main_arg13) (V c main_v29) (((cfg4.win 4).blk t).view.emb y)
  refine tile4 V c t y _ ?_ ?_
  · show win4_4.index t (0 : Fin 2) * 6000 + 1 * (y 0).val = 6000 * t.val + (y 0).val; rw [e0]; omega
  · show win4_4.index t (1 : Fin 2) * 128 + 1 * (y 1).val = (y 1).val; rw [e1]; omega

/-- An index of the output array is in point t's block iff each coordinate is in the block's range on its axis. -/
theorem mem_blk4_4 (t : Fin cfg4.N) (i : S300000x128.Idx) :
    i ∈ ((cfg4.win 4).blk t).view.set ↔ ∀ a : Fin 2, win4_4.index t a * S6000x128.size a ≤ (i a).val
      ∧ (i a).val < win4_4.index t a * S6000x128.size a + S6000x128.size a := by
  show i ∈ ((View.whole main_v30).slice (win4_4.rect t)).set ↔ _
  rw [View.set_slice_whole, Rect.mem_set_unit]
  exact Iff.rfl

/-- Every index of the output array is in some point's block: row r is in block r / 6000. -/
theorem covered4_4 (i : S300000x128.Idx) :
    ∃ t : Fin cfg4.N, (cfg4.win 4).flush t = true ∧ i ∈ ((cfg4.win 4).blk t).view.set := by
  have hi0 : (i 0).val < 300000 := (i 0).isLt
  have hi1 : (i 1).val < 128 := (i 1).isLt
  have hN : grid4.N = 50 := N_4
  obtain ⟨t, ht⟩ : ∃ t : Fin cfg4.N, t.val = (i 0).val / 6000 :=
    ⟨⟨(i 0).val / 6000, by show (i 0).val / 6000 < grid4.N; rw [hN]; omega⟩, rfl⟩
  obtain ⟨-, -, -, -, -, -, -, -, e0, e1⟩ := idx4 t
  refine ⟨t, flush4_4 t, ?_⟩
  rw [mem_blk4_4]
  intro a
  match a with
  | ⟨0, _⟩ =>
    show win4_4.index t (0 : Fin 2) * 6000 ≤ (i 0).val ∧ (i 0).val < win4_4.index t (0 : Fin 2) * 6000 + 6000
    rw [e0, ht]; omega
  | ⟨1, _⟩ =>
    show win4_4.index t (1 : Fin 2) * 128 ≤ (i 1).val ∧ (i 1).val < win4_4.index t (1 : Fin 2) * 128 + 128
    rw [e1]; omega

/-- After the region the output array is the activated dense layer of the entrywise sum of the two row-tiled arrays,
    the weight matrix and the bias row as the region found them. -/
theorem final4_4 (c : Dev nD) :
    (dat4 (F := Ideal) V c).arrAt 4 cfg4.N
      = Cert.Net.siluDense (addf (V c main_v2_0) (V c main_v28)) (V c main_arg13) (V c main_v29) :=
  (dat4 V c).arrAt_eq_of_cover 4 (Cert.Net.siluDense (addf (V c main_v2_0) (V c main_v28)) (V c main_arg13) (V c main_v29))
    (fun t _ => flushed4_4 V c t) covered4_4

end Cert.KernelIdeal.FinalLinear

end
-- ==== Proof.LibHostSliceProduct.lean ====
/-
  A host matrix product against one matrix of a stack, read at an entry, at the ideal instance.

  `x @ W[q]` on the host lowers to: the stack `W : [Q, K, N]` sliced at leading offset `q` with extent one, the
  `[1, K, N]` slice reshaped to `[K, N]`, and a plain `dot_general` of `x : [M, K]` with it. At `(n, j)` the result
  is `∑ k, x (n, k) · W (q, k, j)`. Stated for any plain dimension-number record and any extents.
-/
import proofs.«109498_j75754633167331_1_alg».proof.Proof.LibDotGeneralNN
import Idealize.ShloMosaic.Lib.Pipeline.Value
import Idealize.ShloMosaic.Lib.ValueLayout

noncomputable section

open scoped BigOperators

namespace Cert.LibHostSliceProduct

open Idealize.ShloMosaic Idealize.ShloMosaic.ValueIdx

variable {M K N Q : Nat} {φ₁ φ₂ : FTy}

/-- The slice at leading offset `o`, reshaped, at `(k, j)` is the stack at `(q, k, j)` when `q` is the offset. -/
theorem sliceCast_apply {α : Type} (W : (⟨3, ![Q, K, N]⟩ : Shape).Idx → α) (o : Nat) (q : Fin Q) (hq : q.val = o)
    (hs : (⟨3, ![Q, K, N]⟩ : Shape).Slices ![o, 0, 0] ⟨3, ![1, K, N]⟩)
    (hc : (⟨3, ![1, K, N]⟩ : Shape).ShapeCasts ⟨2, ![K, N]⟩) (k : Fin K) (j : Fin N) :
    shapeCast ⟨2, ![K, N]⟩ (extractStridedSlice ⟨3, ![1, K, N]⟩ ![o, 0, 0] W hs) hc (ix2 k j) = W (ix3 q k j) := by
  rw [shapeCast_1ab_ab_apply _ hc k j]
  exact extractStridedSlice_apply _ W hs (ix3 (0 : Fin 1) k j) (ix3 q k j) (fun a => by
    match a with
    | ⟨0, _⟩ => show q.val = o + 0; omega
    | ⟨1, _⟩ => exact (Nat.zero_add _).symm
    | ⟨2, _⟩ => exact (Nat.zero_add _).symm)

/-- The host product with matrix `q` of the stack, at `(n, j)`. -/
theorem hostSliceProduct_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨3, ![Q, K, N]⟩ φ₂) (o : Nat) (q : Fin Q) (hq : q.val = o)
    (hs : (⟨3, ![Q, K, N]⟩ : Shape).Slices ![o, 0, 0] ⟨3, ![1, K, N]⟩)
    (hc : (⟨3, ![1, K, N]⟩ : Shape).ShapeCasts ⟨2, ![K, N]⟩) (n : Fin M) (j : Fin N) :
    Host.dotGeneral d prec x (shapeCast ⟨2, ![K, N]⟩ (extractStridedSlice ⟨3, ![1, K, N]⟩ ![o, 0, 0] W hs) hc) (ix2 n j)
      = ∑ k : Fin K, x (ix2 n k) * W (ix3 q k j) := by
  simp only [Host.dotGeneral]
  rw [Cert.LibDotGeneralNN.dotGeneral_apply d hlc hrc hln hrn hlb hrb]
  refine Finset.sum_congr rfl fun k _ => ?_
  rw [sliceCast_apply W o q hq hs hc k j]

end Cert.LibHostSliceProduct

end
-- ==== Proof.MlpSpec.lean ====
/-
  The node network as one function of whole arrays, and the host program's spelling of it.

  The network takes node features g (M rows of N channels), a stack W3 of three N×N matrices, a stack b3 of three
  one-row biases and a readout matrix Wo.  Layer l sends x to silu (x · W3[l] + b3[l]) (silu v = v · σ(v), the bias
  row added to every row of the product); the result is the product of the third layer's output with Wo:

      mlp g W3 b3 Wo = silu (silu (silu (g · W3[0] + b3[0]) · W3[1] + b3[1]) · W3[2] + b3[2]) · Wo.

  Entry (r, j) of every layer depends on the layer's input only through row r, so a block of rows of the result is
  the network applied to the same block of rows of g (`mlp_rows`).

  The host computes each layer as dot_general of x with matrix l of the stack (a slice with a leading unit axis,
  reshaped), plus row l of the bias matrix (sliced, reshaped to a vector, broadcast to one row and then over the
  rows), times one over one plus the exponential of the negated sum; on the extended reals each step is the textbook
  operation, so the composed term is `mlp` of the same arrays, the bias matrix reshaped to a stack of one-row
  arrays (`ref_mlp`).  No law of arithmetic beyond reading each operation at an index is used.
-/
import proofs.«109498_j75754633167331_1_alg».proof.Proof.Net
import proofs.«109498_j75754633167331_1_alg».proof.Proof.LibHostSliceProduct
import proofs.«109498_j75754633167331_1_alg».proof.ReferenceIdeal

noncomputable section

open scoped BigOperators

namespace Cert.Net

open Idealize.ShloMosaic Idealize.ShloMosaic.ValueIdx Cert.LibDenseLayers

variable {M M' K N P : Nat}

/-- Matrix `l` of a stack of three: entry (k, j) is W3 (l, k, j). -/
def slab (l : Fin 3) (W3 : FVec Ideal ⟨3, ![3, K, N]⟩ .f32) : FVec Ideal ⟨2, ![K, N]⟩ .f32 :=
  fun i => W3 (ix3 l (i 0) (i 1))

theorem slab_ix2 (l : Fin 3) (W3 : FVec Ideal ⟨3, ![3, K, N]⟩ .f32) (k : Fin K) (j : Fin N) :
    slab l W3 (ix2 k j) = W3 (ix3 l k j) := rfl

/-- Row `l` of a stack of three one-row arrays: entry (0, j) is b3 (l, 0, j). -/
def biasRow (l : Fin 3) (b3 : FVec Ideal ⟨3, ![3, 1, N]⟩ .f32) : FVec Ideal ⟨2, ![1, N]⟩ .f32 :=
  fun i => b3 (ix3 l (0 : Fin 1) (i 1))

theorem biasRow_ix2 (l : Fin 3) (b3 : FVec Ideal ⟨3, ![3, 1, N]⟩ .f32) (u : Fin 1) (j : Fin N) :
    biasRow l b3 (ix2 u j) = b3 (ix3 l (0 : Fin 1) j) := rfl

/-- The node network: three activated dense layers over the stacks, then the product with the readout matrix. -/
def mlp (g : FVec Ideal ⟨2, ![M, N]⟩ .f32) (W3 : FVec Ideal ⟨3, ![3, N, N]⟩ .f32) (b3 : FVec Ideal ⟨3, ![3, 1, N]⟩ .f32)
    (Wo : FVec Ideal ⟨2, ![N, P]⟩ .f32) : FVec Ideal ⟨2, ![M, P]⟩ .f32 :=
  prod (siluDense (siluDense (siluDense g (slab 0 W3) (biasRow 0 b3)) (slab 1 W3) (biasRow 1 b3)) (slab 2 W3) (biasRow 2 b3)) Wo

/-! ## Rows -/

/-- Row r of an activated dense layer depends on the input only through its row r. -/
theorem siluDense_rows (x : FVec Ideal ⟨2, ![M, K]⟩ .f32) (x' : FVec Ideal ⟨2, ![M', K]⟩ .f32) (W : FVec Ideal ⟨2, ![K, N]⟩ .f32)
    (b : FVec Ideal ⟨2, ![1, N]⟩ .f32) (r : Fin M) (r' : Fin M') (h : ∀ k : Fin K, x (ix2 r k) = x' (ix2 r' k)) (j : Fin N) :
    siluDense x W b (ix2 r j) = siluDense x' W b (ix2 r' j) := by
  rw [siluDense_ix2, siluDense_ix2]
  exact congrArg (fun s => silu (s + b (ix2 (0 : Fin 1) j))) (Finset.sum_congr rfl fun k _ => by rw [h k])

/-- Row r of the network's result depends on the node features only through their row r. -/
theorem mlp_rows (g : FVec Ideal ⟨2, ![M, N]⟩ .f32) (g' : FVec Ideal ⟨2, ![M', N]⟩ .f32) (W3 : FVec Ideal ⟨3, ![3, N, N]⟩ .f32)
    (b3 : FVec Ideal ⟨3, ![3, 1, N]⟩ .f32) (Wo : FVec Ideal ⟨2, ![N, P]⟩ .f32) (r : Fin M) (r' : Fin M')
    (h : ∀ k : Fin N, g (ix2 r k) = g' (ix2 r' k)) (j : Fin P) :
    mlp g W3 b3 Wo (ix2 r j) = mlp g' W3 b3 Wo (ix2 r' j) := by
  unfold mlp
  rw [prod_ix2, prod_ix2]
  refine Finset.sum_congr rfl fun k _ => congrArg (· * Wo (ix2 k j)) ?_
  exact siluDense_rows _ _ _ _ r r' (fun k2 => siluDense_rows _ _ _ _ r r' (fun k1 => siluDense_rows _ _ _ _ r r' h k1) k2) k

/-! ## The host program's spelling -/

open Cert.ReferenceIdeal Cert.ReferenceIdeal.Facts₀

variable [Cert.ReferenceIdeal.Facts₀]

/-- The host's spelling of silu applied to an affine layer is the activated dense layer. -/
theorem hostSilu_affine (x : FVec Ideal ⟨2, ![M, K]⟩ .f32) (W : FVec Ideal ⟨2, ![K, N]⟩ .f32) (b : FVec Ideal ⟨2, ![1, N]⟩ .f32)
    (h : (⟨0, ![]⟩ : Shape).BroadcastsInDim ⟨2, ![M, N]⟩ (![] : Fin 0 → Fin 2)) :
    mulf (affineRow x W b) (Host.divf (F := Ideal) (broadcastInDim ⟨2, ![M, N]⟩ (![] : Fin 0 → Fin 2) h (constant (F := Ideal) ⟨0, ![]⟩ .f32 0x3F800000#32))
      (addf (broadcastInDim ⟨2, ![M, N]⟩ (![] : Fin 0 → Fin 2) h (constant (F := Ideal) ⟨0, ![]⟩ .f32 0x3F800000#32))
        (Host.exp (F := Ideal) (Host.negf (F := Ideal) (affineRow x W b))))) = siluDense x W b :=
  funext fun i => hostSilu_apply (affineRow x W b) h i

/-- A plain host matrix product is the matrix product. -/
theorem hostProd_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ .f32) (W : FVec Ideal ⟨2, ![K, N]⟩ .f32) :
    Host.dotGeneral (F := Ideal) d none x W = prod x W := by
  funext i
  obtain ⟨r, j, rfl⟩ : ∃ (r : Fin M) (j : Fin N), i = ix2 r j := ⟨i 0, i 1, eq_ix2 i⟩
  simp only [Host.dotGeneral]
  rw [Cert.LibDotGeneralNN.dotGeneral_apply d hlc hrc hln hrn hlb hrb, prod_ix2]

/-- One affine layer of the host program: the product with matrix `l` of the stack plus row `l` of the bias
    matrix, as the affine layer over the stack's matrix and the reshaped bias stack's row. -/
theorem hostLayer_eq (x : FVec Ideal S20000x128 .f32) (W3 : FVec Ideal S3x128x128 .f32) (b : FVec Ideal S3x128 .f32)
    (h : S3x128.ShapeCasts ⟨3, ![3, 1, 128]⟩) (l : Fin 3) (o : Nat) (ho : l.val = o)
    (hs : S3x128x128.Slices ![o, 0, 0] S1x128x128) (hb : S3x128.Slices ![o, 0] S1x128) :
    addf (Host.dotGeneral (F := Ideal) dot_S20000x128_S128x128_S20000x128_1_0_0_1_n_n none x
          (shapeCast S128x128 (extractStridedSlice S1x128x128 ![o, 0, 0] W3 hs) shapeCasts_S1x128x128_S128x128))
        (broadcastInDim S20000x128 ![0, 1] bcast_S1x128_S20000x128_0_1 (broadcastInDim S1x128 ![1] bcast_S128_S1x128_1
          (shapeCast S128 (extractStridedSlice S1x128 ![o, 0] b hb) shapeCasts_S1x128_S128)))
      = affineRow x (slab l W3) (biasRow l (shapeCast ⟨3, ![3, 1, 128]⟩ b h)) := by
  have hc : S128.ShapeCasts S1x128 := by decide
  have eW : shapeCast S128x128 (extractStridedSlice S1x128x128 ![o, 0, 0] W3 hs) shapeCasts_S1x128x128_S128x128 = slab l W3 := by
    funext i
    obtain ⟨k, j, rfl⟩ : ∃ (k : Fin 128) (j : Fin 128), i = ix2 k j := ⟨i 0, i 1, eq_ix2 i⟩
    exact Cert.LibHostSliceProduct.sliceCast_apply W3 o l ho hs shapeCasts_S1x128x128_S128x128 k j
  have eB : shapeCast S1x128 (shapeCast S128 (extractStridedSlice S1x128 ![o, 0] b hb) shapeCasts_S1x128_S128) hc
      = biasRow l (shapeCast ⟨3, ![3, 1, 128]⟩ b h) := by
    funext i
    obtain ⟨u, j, rfl⟩ : ∃ (u : Fin 1) (j : Fin 128), i = ix2 u j := ⟨i 0, i 1, eq_ix2 i⟩
    obtain rfl : u = 0 := Subsingleton.elim _ _
    rw [rowCast_apply, shapeCast_1a_a_apply, biasRow_ix2]
    refine (extractStridedSlice_apply _ b hb (ix2 (0 : Fin 1) j) (ix2 l j) (fun a => ?_)).trans ?_
    · match a with
      | ⟨0, _⟩ => show l.val = o + 0; omega
      | ⟨1, _⟩ => exact (Nat.zero_add _).symm
    · refine (shapeCast_apply b h (ix3 l (0 : Fin 1) j) (ix2 l j) ?_).symm
      rw [Shape.rowMajor_val_two, Shape.rowMajor_val_three]
      show l.val * 128 + j.val = (l.val * 1 + 0) * 128 + j.val
      omega
  rw [hostAffine_eq dot_S20000x128_S128x128_S20000x128_1_0_0_1_n_n rfl rfl rfl rfl rfl rfl x _ _
    bcast_S128_S1x128_1 bcast_S1x128_S20000x128_0_1 hc, eW, eB]

/-- THE HOST PROGRAM'S NETWORK: three host layers with the host's silu, then the product with the readout matrix,
    is `mlp` of the node features, the weight stack, the bias matrix reshaped to a stack of rows, and the readout matrix. -/
theorem ref_mlp (g : FVec Ideal S20000x128 .f32) (W3 : FVec Ideal S3x128x128 .f32) (b : FVec Ideal S3x128 .f32)
    (Wo : FVec Ideal S128x128 .f32) (h : S3x128.ShapeCasts ⟨3, ![3, 1, 128]⟩) :
    Host.dotGeneral (F := Ideal) dot_S20000x128_S128x128_S20000x128_1_0_0_1_n_n none (mulf (addf (Host.dotGeneral (F := Ideal) dot_S20000x128_S128x128_S20000x128_1_0_0_1_n_n none (mulf (addf (Host.dotGeneral (F := Ideal) dot_S20000x128_S128x128_S20000x128_1_0_0_1_n_n none (mulf (addf (Host.dotGeneral (F := Ideal) dot_S20000x128_S128x128_S20000x128_1_0_0_1_n_n none g (shapeCast _ (extractStridedSlice S1x128x128 ![0, 0, 0] W3 slices_S3x128x128_S1x128x128_0_0_0) shapeCasts_S1x128x128_S128x128)) (broadcastInDim S20000x128 ![0, 1] bcast_S1x128_S20000x128_0_1 (broadcastInDim S1x128 ![1] bcast_S128_S1x128_1 (shapeCast _ (extractStridedSlice S1x128 ![0, 0] b slices_S3x128_S1x128_0_0) shapeCasts_S1x128_S128)))) (Host.divf (F := Ideal) (broadcastInDim S20000x128 ![] bcast_S_S20000x128 (constant (F := Ideal) S_ .f32 0x3F800000#32)) (addf (broadcastInDim S20000x128 ![] bcast_S_S20000x128 (constant (F := Ideal) S_ .f32 0x3F800000#32)) (Host.exp (F := Ideal) (Host.negf (F := Ideal) (addf (Host.dotGeneral (F := Ideal) dot_S20000x128_S128x128_S20000x128_1_0_0_1_n_n none g (shapeCast _ (extractStridedSlice S1x128x128 ![0, 0, 0] W3 slices_S3x128x128_S1x128x128_0_0_0) shapeCasts_S1x128x128_S128x128)) (broadcastInDim S20000x128 ![0, 1] bcast_S1x128_S20000x128_0_1 (broadcastInDim S1x128 ![1] bcast_S128_S1x128_1 (shapeCast _ (extractStridedSlice S1x128 ![0, 0] b slices_S3x128_S1x128_0_0) shapeCasts_S1x128_S128))))))))) (shapeCast _ (extractStridedSlice S1x128x128 ![1, 0, 0] W3 slices_S3x128x128_S1x128x128_1_0_0) shapeCasts_S1x128x128_S128x128)) (broadcastInDim S20000x128 ![0, 1] bcast_S1x128_S20000x128_0_1 (broadcastInDim S1x128 ![1] bcast_S128_S1x128_1 (shapeCast _ (extractStridedSlice S1x128 ![1, 0] b slices_S3x128_S1x128_1_0) shapeCasts_S1x128_S128)))) (Host.divf (F := Ideal) (broadcastInDim S20000x128 ![] bcast_S_S20000x128 (constant (F := Ideal) S_ .f32 0x3F800000#32)) (addf (broadcastInDim S20000x128 ![] bcast_S_S20000x128 (constant (F := Ideal) S_ .f32 0x3F800000#32)) (Host.exp (F := Ideal) (Host.negf (F := Ideal) (addf (Host.dotGeneral (F := Ideal) dot_S20000x128_S128x128_S20000x128_1_0_0_1_n_n none (mulf (addf (Host.dotGeneral (F := Ideal) dot_S20000x128_S128x128_S20000x128_1_0_0_1_n_n none g (shapeCast _ (extractStridedSlice S1x128x128 ![0, 0, 0] W3 slices_S3x128x128_S1x128x128_0_0_0) shapeCasts_S1x128x128_S128x128)) (broadcastInDim S20000x128 ![0, 1] bcast_S1x128_S20000x128_0_1 (broadcastInDim S1x128 ![1] bcast_S128_S1x128_1 (shapeCast _ (extractStridedSlice S1x128 ![0, 0] b slices_S3x128_S1x128_0_0) shapeCasts_S1x128_S128)))) (Host.divf (F := Ideal) (broadcastInDim S20000x128 ![] bcast_S_S20000x128 (constant (F := Ideal) S_ .f32 0x3F800000#32)) (addf (broadcastInDim S20000x128 ![] bcast_S_S20000x128 (constant (F := Ideal) S_ .f32 0x3F800000#32)) (Host.exp (F := Ideal) (Host.negf (F := Ideal) (addf (Host.dotGeneral (F := Ideal) dot_S20000x128_S128x128_S20000x128_1_0_0_1_n_n none g (shapeCast _ (extractStridedSlice S1x128x128 ![0, 0, 0] W3 slices_S3x128x128_S1x128x128_0_0_0) shapeCasts_S1x128x128_S128x128)) (broadcastInDim S20000x128 ![0, 1] bcast_S1x128_S20000x128_0_1 (broadcastInDim S1x128 ![1] bcast_S128_S1x128_1 (shapeCast _ (extractStridedSlice S1x128 ![0, 0] b slices_S3x128_S1x128_0_0) shapeCasts_S1x128_S128))))))))) (shapeCast _ (extractStridedSlice S1x128x128 ![1, 0, 0] W3 slices_S3x128x128_S1x128x128_1_0_0) shapeCasts_S1x128x128_S128x128)) (broadcastInDim S20000x128 ![0, 1] bcast_S1x128_S20000x128_0_1 (broadcastInDim S1x128 ![1] bcast_S128_S1x128_1 (shapeCast _ (extractStridedSlice S1x128 ![1, 0] b slices_S3x128_S1x128_1_0) shapeCasts_S1x128_S128))))))))) (shapeCast _ (extractStridedSlice S1x128x128 ![2, 0, 0] W3 slices_S3x128x128_S1x128x128_2_0_0) shapeCasts_S1x128x128_S128x128)) (broadcastInDim S20000x128 ![0, 1] bcast_S1x128_S20000x128_0_1 (broadcastInDim S1x128 ![1] bcast_S128_S1x128_1 (shapeCast _ (extractStridedSlice S1x128 ![2, 0] b slices_S3x128_S1x128_2_0) shapeCasts_S1x128_S128)))) (Host.divf (F := Ideal) (broadcastInDim S20000x128 ![] bcast_S_S20000x128 (constant (F := Ideal) S_ .f32 0x3F800000#32)) (addf (broadcastInDim S20000x128 ![] bcast_S_S20000x128 (constant (F := Ideal) S_ .f32 0x3F800000#32)) (Host.exp (F := Ideal) (Host.negf (F := Ideal) (addf (Host.dotGeneral (F := Ideal) dot_S20000x128_S128x128_S20000x128_1_0_0_1_n_n none (mulf (addf (Host.dotGeneral (F := Ideal) dot_S20000x128_S128x128_S20000x128_1_0_0_1_n_n none (mulf (addf (Host.dotGeneral (F := Ideal) dot_S20000x128_S128x128_S20000x128_1_0_0_1_n_n none g (shapeCast _ (extractStridedSlice S1x128x128 ![0, 0, 0] W3 slices_S3x128x128_S1x128x128_0_0_0) shapeCasts_S1x128x128_S128x128)) (broadcastInDim S20000x128 ![0, 1] bcast_S1x128_S20000x128_0_1 (broadcastInDim S1x128 ![1] bcast_S128_S1x128_1 (shapeCast _ (extractStridedSlice S1x128 ![0, 0] b slices_S3x128_S1x128_0_0) shapeCasts_S1x128_S128)))) (Host.divf (F := Ideal) (broadcastInDim S20000x128 ![] bcast_S_S20000x128 (constant (F := Ideal) S_ .f32 0x3F800000#32)) (addf (broadcastInDim S20000x128 ![] bcast_S_S20000x128 (constant (F := Ideal) S_ .f32 0x3F800000#32)) (Host.exp (F := Ideal) (Host.negf (F := Ideal) (addf (Host.dotGeneral (F := Ideal) dot_S20000x128_S128x128_S20000x128_1_0_0_1_n_n none g (shapeCast _ (extractStridedSlice S1x128x128 ![0, 0, 0] W3 slices_S3x128x128_S1x128x128_0_0_0) shapeCasts_S1x128x128_S128x128)) (broadcastInDim S20000x128 ![0, 1] bcast_S1x128_S20000x128_0_1 (broadcastInDim S1x128 ![1] bcast_S128_S1x128_1 (shapeCast _ (extractStridedSlice S1x128 ![0, 0] b slices_S3x128_S1x128_0_0) shapeCasts_S1x128_S128))))))))) (shapeCast _ (extractStridedSlice S1x128x128 ![1, 0, 0] W3 slices_S3x128x128_S1x128x128_1_0_0) shapeCasts_S1x128x128_S128x128)) (broadcastInDim S20000x128 ![0, 1] bcast_S1x128_S20000x128_0_1 (broadcastInDim S1x128 ![1] bcast_S128_S1x128_1 (shapeCast _ (extractStridedSlice S1x128 ![1, 0] b slices_S3x128_S1x128_1_0) shapeCasts_S1x128_S128)))) (Host.divf (F := Ideal) (broadcastInDim S20000x128 ![] bcast_S_S20000x128 (constant (F := Ideal) S_ .f32 0x3F800000#32)) (addf (broadcastInDim S20000x128 ![] bcast_S_S20000x128 (constant (F := Ideal) S_ .f32 0x3F800000#32)) (Host.exp (F := Ideal) (Host.negf (F := Ideal) (addf (Host.dotGeneral (F := Ideal) dot_S20000x128_S128x128_S20000x128_1_0_0_1_n_n none (mulf (addf (Host.dotGeneral (F := Ideal) dot_S20000x128_S128x128_S20000x128_1_0_0_1_n_n none g (shapeCast _ (extractStridedSlice S1x128x128 ![0, 0, 0] W3 slices_S3x128x128_S1x128x128_0_0_0) shapeCasts_S1x128x128_S128x128)) (broadcastInDim S20000x128 ![0, 1] bcast_S1x128_S20000x128_0_1 (broadcastInDim S1x128 ![1] bcast_S128_S1x128_1 (shapeCast _ (extractStridedSlice S1x128 ![0, 0] b slices_S3x128_S1x128_0_0) shapeCasts_S1x128_S128)))) (Host.divf (F := Ideal) (broadcastInDim S20000x128 ![] bcast_S_S20000x128 (constant (F := Ideal) S_ .f32 0x3F800000#32)) (addf (broadcastInDim S20000x128 ![] bcast_S_S20000x128 (constant (F := Ideal) S_ .f32 0x3F800000#32)) (Host.exp (F := Ideal) (Host.negf (F := Ideal) (addf (Host.dotGeneral (F := Ideal) dot_S20000x128_S128x128_S20000x128_1_0_0_1_n_n none g (shapeCast _ (extractStridedSlice S1x128x128 ![0, 0, 0] W3 slices_S3x128x128_S1x128x128_0_0_0) shapeCasts_S1x128x128_S128x128)) (broadcastInDim S20000x128 ![0, 1] bcast_S1x128_S20000x128_0_1 (broadcastInDim S1x128 ![1] bcast_S128_S1x128_1 (shapeCast _ (extractStridedSlice S1x128 ![0, 0] b slices_S3x128_S1x128_0_0) shapeCasts_S1x128_S128))))))))) (shapeCast _ (extractStridedSlice S1x128x128 ![1, 0, 0] W3 slices_S3x128x128_S1x128x128_1_0_0) shapeCasts_S1x128x128_S128x128)) (broadcastInDim S20000x128 ![0, 1] bcast_S1x128_S20000x128_0_1 (broadcastInDim S1x128 ![1] bcast_S128_S1x128_1 (shapeCast _ (extractStridedSlice S1x128 ![1, 0] b slices_S3x128_S1x128_1_0) shapeCasts_S1x128_S128))))))))) (shapeCast _ (extractStridedSlice S1x128x128 ![2, 0, 0] W3 slices_S3x128x128_S1x128x128_2_0_0) shapeCasts_S1x128x128_S128x128)) (broadcastInDim S20000x128 ![0, 1] bcast_S1x128_S20000x128_0_1 (broadcastInDim S1x128 ![1] bcast_S128_S1x128_1 (shapeCast _ (extractStridedSlice S1x128 ![2, 0] b slices_S3x128_S1x128_2_0) shapeCasts_S1x128_S128))))))))) Wo
      = mlp g W3 (shapeCast ⟨3, ![3, 1, 128]⟩ b h) Wo := by
  rw [hostLayer_eq g W3 b h 0 0 rfl slices_S3x128x128_S1x128x128_0_0_0 slices_S3x128_S1x128_0_0,
    hostSilu_affine _ _ _ bcast_S_S20000x128,
    hostLayer_eq _ W3 b h 1 1 rfl slices_S3x128x128_S1x128x128_1_0_0 slices_S3x128_S1x128_1_0,
    hostSilu_affine _ _ _ bcast_S_S20000x128,
    hostLayer_eq _ W3 b h 2 2 rfl slices_S3x128x128_S1x128x128_2_0_0 slices_S3x128_S1x128_2_0,
    hostSilu_affine _ _ _ bcast_S_S20000x128,
    hostProd_eq dot_S20000x128_S128x128_S20000x128_1_0_0_1_n_n rfl rfl rfl rfl rfl rfl]
  rfl

end Cert.Net

end
-- ==== Proof.MlpKernel.lean ====
/-
  The two node-network regions of the kernel program, read as whole arrays.

  Each region runs the same body over a grid of five points; point t works on rows 4000·t … 4000·t + 3999 of the
  node features and sees the weight stack, the bias stack and the readout matrix whole.  The body loads the block,
  and for l = 0, 1, 2 loads matrix l of the weight stack (a slab with a leading unit axis) and row l of the bias
  stack, casts away the unit axes, rounds to the narrower format (the identity on the extended reals), multiplies
  into the zero accumulator (the textbook sum), adds the bias row to every row and multiplies by the logistic
  function of the sum; it then multiplies by the readout matrix and stores the product as the output block.

  So the block point t writes back is the node network of MlpSpec applied to the block of rows (`out2_eq`); the
  network's row r depends on the features only through their row r (`mlp_rows`), so that block is the same block
  of rows of the network applied to the whole array (`flushed2_eq`); the five blocks tile the 20000 rows
  (row r is in block r / 4000), so the output array ends holding the network of the four input arrays (`final2_4`).
  The second region is the first with other buffers.
-/
import proofs.«109498_j75754633167331_1_alg».proof.Proof.Gen.KernelIdeal.Frame
import proofs.«109498_j75754633167331_1_alg».proof.Proof.MlpSpec
import proofs.«109498_j75754633167331_1_alg».proof.Proof.LibDenseLayers
import Idealize.ShloMosaic.Lib.Pipeline.Value
import Idealize.ShloMosaic.Lib.ValueLayout

set_option maxRecDepth 16384

noncomputable section

open scoped BigOperators

namespace Cert.KernelIdeal.Mlp

open Cert.KernelIdeal Cert.KernelIdeal.Gen
open Idealize.ShloMosaic Idealize.ShloMosaic.TcCoe Idealize.ShloMosaic.ValueIdx Idealize.SL.Sem
open Idealize.ShloMosaic.Pipeline (Dat)
open Cert.Net Cert.LibDenseLayers

/-! ## One layer of the body over variable vectors -/

/-- A slab with a leading unit axis as a matrix: entry (k, j) is w (0, k, j). -/
def mat (w : Vec Ideal S1x128x128 .f32) : FVec Ideal ⟨2, ![128, 128]⟩ .f32 := fun i => w (ix3 (0 : Fin 1) (i 0) (i 1))

/-- A row under two leading unit axes as a one-row array: entry (0, j) is bb (0, 0, j). -/
def row (bb : Vec Ideal S1x1x128 .f32) : FVec Ideal ⟨2, ![1, 128]⟩ .f32 := fun i => bb (ix3 (0 : Fin 1) (0 : Fin 1) (i 1))

/-- The body's affine step: the block times the cast, rounded slab into the zero accumulator, plus the cast bias
    row broadcast over the rows. -/
def lin (x : FVec Ideal S4000x128 .f32) (w : Vec Ideal S1x128x128 .f32) (bb : Vec Ideal S1x1x128 .f32) : FVec Ideal S4000x128 .f32 :=
  addf (matmul dot_S4000x128_S128x128_S4000x128_1_0_0_1_n_n none (truncf .bf16 x bitsLt_bf16_f32)
      (truncf .bf16 (shapeCast S128x128 w shapeCasts_S1x128x128_S128x128) bitsLt_bf16_f32) (constant S4000x128 .f32 0x00000000#32))
    (broadcastTo S4000x128 (shapeCast S1x128 bb shapeCasts_S1x1x128_S1x128) broadcasts_S1x128_S4000x128)

/-- The body's layer: the affine step times its logistic function. -/
def tile (x : FVec Ideal S4000x128 .f32) (w : Vec Ideal S1x128x128 .f32) (bb : Vec Ideal S1x1x128 .f32) : FVec Ideal S4000x128 .f32 :=
  mulf (lin x w bb) (logistic (lin x w bb))

/-- The affine step at (p, q): the sum over k of x (p, k) · w (0, k, q), plus bb (0, 0, q). -/
theorem lin_apply (x : FVec Ideal S4000x128 .f32) (w : Vec Ideal S1x128x128 .f32) (bb : Vec Ideal S1x1x128 .f32) (p : Fin 4000) (q : Fin 128) :
    lin x w bb (ix2 p q) = (∑ k : Fin 128, x (ix2 p k) * mat w (ix2 k q)) + row bb (ix2 (0 : Fin 1) q) := by
  unfold lin
  rw [linTile_apply dot_S4000x128_S128x128_S4000x128_1_0_0_1_n_n rfl rfl rfl rfl rfl rfl x _ _ bitsLt_bf16_f32 broadcasts_S1x128_S4000x128 p q,
    shapeCast_1ab_ab_apply bb shapeCasts_S1x1x128_S1x128 (0 : Fin 1) q]
  refine congrArg (· + bb (ix3 (0 : Fin 1) (0 : Fin 1) q)) (Finset.sum_congr rfl fun k _ => ?_)
  rw [shapeCast_1ab_ab_apply w shapeCasts_S1x128x128_S128x128 k q]
  rfl

/-- The body's layer is the activated dense layer over the slab's matrix and the bias row. -/
theorem tile_eq (x : FVec Ideal S4000x128 .f32) (w : Vec Ideal S1x128x128 .f32) (bb : Vec Ideal S1x1x128 .f32) :
    tile x w bb = siluDense x (mat w) (row bb) := by
  funext i
  obtain ⟨p, q, rfl⟩ : ∃ (p : Fin 4000) (q : Fin 128), i = ix2 p q := ⟨i 0, i 1, eq_ix2 i⟩
  rw [siluDense_ix2]
  show silu (lin x w bb (ix2 p q)) = _
  rw [lin_apply]

/-- The body's readout: the product of the rounded block with the cast, rounded matrix into the zero accumulator
    is the matrix product. -/
theorem readout_eq (x : FVec Ideal S4000x128 .f32) (wo : Vec Ideal S128x128 .f32) :
    matmul dot_S4000x128_S128x128_S4000x128_1_0_0_1_n_n none (truncf .bf16 x bitsLt_bf16_f32)
      (truncf .bf16 (shapeCast S128x128 wo shapeCasts_S128x128_S128x128) bitsLt_bf16_f32) (constant (F := Ideal) S4000x128 .f32 0x00000000#32)
      = Cert.Net.prod x wo := by
  funext i
  obtain ⟨p, q, rfl⟩ : ∃ (p : Fin 4000) (q : Fin 128), i = ix2 p q := ⟨i 0, i 1, eq_ix2 i⟩
  rw [Cert.LibMatmulNN.matmul_zero_apply' dot_S4000x128_S128x128_S4000x128_1_0_0_1_n_n rfl rfl rfl rfl rfl rfl none _ _ p q, prod_ix2,
    shapeCast_self]
  rfl

theorem hz2 : (![0, 0] : Fin 2 → Nat) = fun _ => 0 := funext fun a => by fin_cases a <;> rfl

/-- A load of the slab at leading offset o of the weight stack, as a matrix, is matrix l of the stack (l = o). -/
theorem ld_slab (l : Fin 3) (o : Nat) (ho : l.val = o) (x1 : Vec Ideal S3x128x128 .f32)
    (inb : ∀ a, (![o, 0, 0] : Fin 3 → Nat) a + S1x128x128.size a ≤ S3x128x128.size a) :
    mat (View.ld x1 (Rect.unit (s := S3x128x128) ![o, 0, 0] S1x128x128.size inb)) = slab l x1 := by
  funext i
  show x1 ((Rect.unit (s := S3x128x128) ![o, 0, 0] S1x128x128.size inb).idx (ix3 (0 : Fin 1) (i 0) (i 1))) = x1 (ix3 l (i 0) (i 1))
  refine congrArg x1 (funext fun a => Fin.ext ?_)
  match a with
  | ⟨0, _⟩ => show o + 1 * 0 = l.val; omega
  | ⟨1, _⟩ => show 0 + 1 * (i 0).val = (i 0).val; omega
  | ⟨2, _⟩ => show 0 + 1 * (i 1).val = (i 1).val; omega

/-- A load of the row at leading offset o of the bias stack, as a one-row array, is row l of the stack (l = o). -/
theorem ld_row (l : Fin 3) (o : Nat) (ho : l.val = o) (x2 : Vec Ideal S3x1x128 .f32)
    (inb : ∀ a, (![o, 0, 0] : Fin 3 → Nat) a + S1x1x128.size a ≤ S3x1x128.size a) :
    row (View.ld x2 (Rect.unit (s := S3x1x128) ![o, 0, 0] S1x1x128.size inb)) = biasRow l x2 := by
  funext i
  show x2 ((Rect.unit (s := S3x1x128) ![o, 0, 0] S1x1x128.size inb).idx (ix3 (0 : Fin 1) (0 : Fin 1) (i 1))) = x2 (ix3 l (0 : Fin 1) (i 1))
  refine congrArg x2 (funext fun a => Fin.ext ?_)
  match a with
  | ⟨0, _⟩ => show o + 1 * 0 = l.val; omega
  | ⟨1, _⟩ => show 0 + 1 * 0 = 0; omega
  | ⟨2, _⟩ => show 0 + 1 * (i 1).val = (i 1).val; omega

/-- A block of rows of the network's result is the network of the block of rows: if the block X0 holds rows
    o, o + 1, … of the array A0, then at every entry of the block the two networks agree. -/
theorem mlp_block (A0 : FVec Ideal S20000x128 .f32) (X0 : FVec Ideal S4000x128 .f32) (A1 : FVec Ideal S3x128x128 .f32)
    (A2 : FVec Ideal S3x1x128 .f32) (A3 : FVec Ideal S128x128 .f32) (o : Nat)
    (hX : ∀ (y : S4000x128.Idx) (i : S20000x128.Idx), (i 0).val = o + (y 0).val → (i 1).val = (y 1).val → X0 y = A0 i)
    (y : S4000x128.Idx) (i : S20000x128.Idx) (h0 : (i 0).val = o + (y 0).val) (h1 : (i 1).val = (y 1).val) :
    mlp X0 A1 A2 A3 y = mlp A0 A1 A2 A3 i := by
  obtain ⟨p, q, rfl⟩ : ∃ (p : Fin 4000) (q : Fin 128), y = ix2 p q := ⟨y 0, y 1, eq_ix2 y⟩
  obtain ⟨r, q', rfl⟩ : ∃ (r : Fin 20000) (q' : Fin 128), i = ix2 r q' := ⟨i 0, i 1, eq_ix2 i⟩
  obtain rfl : q' = q := Fin.ext h1
  exact mlp_rows X0 A0 A1 A2 A3 p r (fun k => hX (ix2 p k) (ix2 r k) h0 rfl) q'

/-! # Region 2 -/

/-- The body's three layers are three nested layer expressions (the block first cast to its own shape). -/
theorem pay2_2_def (v0 : Vec Ideal S4000x128 .f32) (v2 : Vec Ideal S1x128x128 .f32) (v5 : Vec Ideal S1x1x128 .f32)
    (v13 : Vec Ideal S1x128x128 .f32) (v16 : Vec Ideal S1x1x128 .f32) (v24 : Vec Ideal S1x128x128 .f32) (v27 : Vec Ideal S1x1x128 .f32) :
    k2_pay2 (F := Ideal) v0 v2 v5 v13 v16 v24 v27
      = tile (tile (tile (shapeCast S4000x128 v0 shapeCasts_S4000x128_S4000x128) v2 v5) v13 v16) v24 v27 := rfl

/-- The body's readout payload is the product with the readout matrix. -/
theorem pay2_1_eq (v34 : FVec Ideal S4000x128 .f32) (v35 : Vec Ideal S128x128 .f32) :
    k2_pay1 (F := Ideal) v34 v35 = Cert.Net.prod v34 v35 := readout_eq v34 v35

/-- WHAT THE BODY LEAVES in the output buffer, from the four input buffers: the network of the block. -/
theorem out2_eq (x0 : Vec Ideal S4000x128 .f32) (x1 : Vec Ideal S3x128x128 .f32) (x2 : Vec Ideal S3x1x128 .f32) (x3 : Vec Ideal S128x128 .f32) :
    out2_4 (F := Ideal) x0 x1 x2 x3 = mlp x0 x1 x2 x3 := by
  unfold out2_4
  rw [View.canon_unit_zero hz2]
  simp only [View.ld_unit_zero (S := S4000x128) hz2, View.ld_unit_zero (S := S128x128) hz2]
  rw [pay2_1_eq, pay2_2_def, shapeCast_self]
  simp only [tile_eq]
  rw [ld_slab 0 0 rfl, ld_slab 1 1 rfl, ld_slab 2 2 rfl, ld_row 0 0 rfl, ld_row 1 1 rfl, ld_row 2 2 rfl]
  rfl

section
variable (V : (c : Dev nD) → (b : Ref sig .tc) → Buf (Elt Ideal) ((c : Thread nD τ).loc b))

/-- The printed index maps over the grid: the feature and output blocks move with the point along the rows, the
    other windows stay at block zero. -/
theorem idx_facts2 : ∀ t : Fin cfg2.N,
    win2_0.index t (0 : Fin 2) = t.val ∧ win2_0.index t (1 : Fin 2) = 0
    ∧ win2_1.index t (0 : Fin 3) = 0 ∧ win2_1.index t (1 : Fin 3) = 0 ∧ win2_1.index t (2 : Fin 3) = 0
    ∧ win2_2.index t (0 : Fin 3) = 0 ∧ win2_2.index t (1 : Fin 3) = 0 ∧ win2_2.index t (2 : Fin 3) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The feature window's block at point t holds rows 4000·t … of the feature array. -/
theorem iblk2_0_apply (c : Dev nD) (t : Fin cfg2.N) (y : S4000x128.Idx) (i : S20000x128.Idx)
    (h0 : (i 0).val = t.val * 4000 + (y 0).val) (h1 : (i 1).val = (y 1).val) :
    (iblk2 V c 0 t : Vec Ideal S4000x128 .f32) y = (V c main_v8 : S20000x128.Idx → EReal) i := by
  obtain ⟨e0, e1, -⟩ := idx_facts2 t
  show V c main_v8 (((cfg2.win 0).blk t).view.emb y) = V c main_v8 i
  refine congrArg (V c main_v8) (funext fun a => Fin.ext ?_)
  match a with
  | ⟨0, _⟩ => show win2_0.index t (0 : Fin 2) * 4000 + 1 * (y 0).val = (i 0).val; rw [e0, h0]; omega
  | ⟨1, _⟩ => show win2_0.index t (1 : Fin 2) * 128 + 1 * (y 1).val = (i 1).val; rw [e1, h1]; omega

/-- The weight stack's window is the whole stack at every point. -/
theorem iblk2_1_eq (c : Dev nD) (t : Fin cfg2.N) :
    (iblk2 V c 1 t : Vec Ideal S3x128x128 .f32) = (V c main_v10 : S3x128x128.Idx → EReal) := by
  obtain ⟨-, -, e0, e1, e2, -⟩ := idx_facts2 t
  funext y
  show V c main_v10 (((cfg2.win 1).blk t).view.emb y) = V c main_v10 y
  refine congrArg (V c main_v10) (funext fun a => Fin.ext ?_)
  match a with
  | ⟨0, _⟩ => show win2_1.index t (0 : Fin 3) * 3 + 1 * (y 0).val = (y 0).val; rw [e0]; omega
  | ⟨1, _⟩ => show win2_1.index t (1 : Fin 3) * 128 + 1 * (y 1).val = (y 1).val; rw [e1]; omega
  | ⟨2, _⟩ => show win2_1.index t (2 : Fin 3) * 128 + 1 * (y 2).val = (y 2).val; rw [e2]; omega

/-- The bias stack's window is the whole stack at every point. -/
theorem iblk2_2_eq (c : Dev nD) (t : Fin cfg2.N) :
    (iblk2 V c 2 t : Vec Ideal S3x1x128 .f32) = (V c main_v15 : S3x1x128.Idx → EReal) := by
  obtain ⟨-, -, -, -, -, e0, e1, e2, -⟩ := idx_facts2 t
  funext y
  show V c main_v15 (((cfg2.win 2).blk t).view.emb y) = V c main_v15 y
  refine congrArg (V c main_v15) (funext fun a => Fin.ext ?_)
  match a with
  | ⟨0, _⟩ => show win2_2.index t (0 : Fin 3) * 3 + 1 * (y 0).val = (y 0).val; rw [e0]; omega
  | ⟨1, _⟩ => show win2_2.index t (1 : Fin 3) * 1 + 1 * (y 1).val = (y 1).val; rw [e1]; omega
  | ⟨2, _⟩ => show win2_2.index t (2 : Fin 3) * 128 + 1 * (y 2).val = (y 2).val; rw [e2]; omega

/-- The readout matrix's window is the whole matrix at every point. -/
theorem iblk2_3_eq (c : Dev nD) (t : Fin cfg2.N) :
    (iblk2 V c 3 t : Vec Ideal S128x128 .f32) = (V c main_v14 : S128x128.Idx → EReal) := by
  obtain ⟨-, -, -, -, -, -, -, -, e0, e1, -⟩ := idx_facts2 t
  funext y
  show V c main_v14 (((cfg2.win 3).blk t).view.emb y) = V c main_v14 y
  refine congrArg (V c main_v14) (funext fun a => Fin.ext ?_)
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- WHAT POINT t WRITES BACK is block t of the network of the four arrays as the region finds them. -/
theorem flushed2_eq (c : Dev nD) (t : Fin cfg2.N) :
    (dat2 (F := Ideal) V c).flushed 4 t = ((cfg2.win 4).blk t).view.read (Elt Ideal)
      (mlp (V c main_v8 : FVec Ideal S20000x128 .f32) (V c main_v10 : FVec Ideal S3x128x128 .f32)
        (V c main_v15 : FVec Ideal S3x1x128 .f32) (V c main_v14 : FVec Ideal S128x128 .f32)) := by
  show (cfg2.win 4).cut (grid2.coords t) ((dat2 V c).after 4 t) = _
  rw [after2_4, out2_eq, iblk2_1_eq, iblk2_2_eq, iblk2_3_eq]
  obtain ⟨-, -, -, -, -, -, -, -, -, -, e0, e1⟩ := idx_facts2 t
  funext y
  show mlp (iblk2 V c 0 t : Vec Ideal S4000x128 .f32) (V c main_v10 : FVec Ideal S3x128x128 .f32)
      (V c main_v15 : FVec Ideal S3x1x128 .f32) (V c main_v14 : FVec Ideal S128x128 .f32) y
    = mlp (V c main_v8 : FVec Ideal S20000x128 .f32) (V c main_v10 : FVec Ideal S3x128x128 .f32)
      (V c main_v15 : FVec Ideal S3x1x128 .f32) (V c main_v14 : FVec Ideal S128x128 .f32) (((cfg2.win 4).blk t).view.emb y)
  refine mlp_block _ _ _ _ _ (t.val * 4000) (fun y' i' h0' h1' => iblk2_0_apply V c t y' i' h0' h1') y _ ?_ ?_
  · show win2_4.index t (0 : Fin 2) * 4000 + 1 * (y 0).val = t.val * 4000 + (y 0).val
    rw [e0]; omega
  · show win2_4.index t (1 : Fin 2) * 128 + 1 * (y 1).val = (y 1).val
    rw [e1]; omega

/-- An index of the output array is in point t's block iff each coordinate is in the block's range on its axis. -/
theorem mem_blk2 (t : Fin cfg2.N) (i : S20000x128.Idx) :
    i ∈ ((cfg2.win 4).blk t).view.set ↔ ∀ a : Fin 2, win2_4.index t a * S4000x128.size a ≤ (i a).val ∧ (i a).val < win2_4.index t a * S4000x128.size a + S4000x128.size a := by
  show i ∈ ((View.whole main_v16).slice (win2_4.rect t)).set ↔ _
  rw [View.set_slice_whole, Rect.mem_set_unit]
  exact Iff.rfl

/-- Every row of the output array is in the block of the point r / 4000. -/
theorem cover2 (i : S20000x128.Idx) : ∃ t : Fin cfg2.N, (cfg2.win 4).flush t = true ∧ i ∈ ((cfg2.win 4).blk t).view.set := by
  have hN : cfg2.N = 5 := N_2
  have hi0 : (i 0).val < 20000 := (i 0).isLt
  have hi1 : (i 1).val < 128 := (i 1).isLt
  obtain ⟨t, ht⟩ : ∃ t : Fin cfg2.N, t.val = (i 0).val / 4000 := ⟨⟨(i 0).val / 4000, by rw [hN]; omega⟩, rfl⟩
  obtain ⟨-, -, -, -, -, -, -, -, -, -, e0, e1⟩ := idx_facts2 t
  refine ⟨t, flush2_4 t, ?_⟩
  rw [mem_blk2]
  intro a
  match a with
  | ⟨0, _⟩ =>
    show win2_4.index t (0 : Fin 2) * 4000 ≤ (i 0).val ∧ (i 0).val < win2_4.index t (0 : Fin 2) * 4000 + 4000
    rw [e0, ht]; omega
  | ⟨1, _⟩ =>
    show win2_4.index t (1 : Fin 2) * 128 ≤ (i 1).val ∧ (i 1).val < win2_4.index t (1 : Fin 2) * 128 + 128
    rw [e1]; omega

/-- THE OUTPUT ARRAY after the region: the network of the feature array, the weight stack, the bias stack and the
    readout matrix as the region finds them. -/
theorem final2_4 (c : Dev nD) :
    (dat2 (F := Ideal) V c).arrAt 4 cfg2.N
      = mlp (V c main_v8 : FVec Ideal S20000x128 .f32) (V c main_v10 : FVec Ideal S3x128x128 .f32)
          (V c main_v15 : FVec Ideal S3x1x128 .f32) (V c main_v14 : FVec Ideal S128x128 .f32) :=
  (dat2 (F := Ideal) V c).arrAt_eq_of_cover 4 _ (fun t _ => flushed2_eq V c t) cover2

end

/-! # Region 6 -/

/-- The body's three layers are three nested layer expressions (the block first cast to its own shape). -/
theorem pay6_2_def (v0 : Vec Ideal S4000x128 .f32) (v2 : Vec Ideal S1x128x128 .f32) (v5 : Vec Ideal S1x1x128 .f32)
    (v13 : Vec Ideal S1x128x128 .f32) (v16 : Vec Ideal S1x1x128 .f32) (v24 : Vec Ideal S1x128x128 .f32) (v27 : Vec Ideal S1x1x128 .f32) :
    k6_pay2 (F := Ideal) v0 v2 v5 v13 v16 v24 v27
      = tile (tile (tile (shapeCast S4000x128 v0 shapeCasts_S4000x128_S4000x128) v2 v5) v13 v16) v24 v27 := rfl

/-- The body's readout payload is the product with the readout matrix. -/
theorem pay6_1_eq (v34 : FVec Ideal S4000x128 .f32) (v35 : Vec Ideal S128x128 .f32) :
    k6_pay1 (F := Ideal) v34 v35 = Cert.Net.prod v34 v35 := readout_eq v34 v35

/-- WHAT THE BODY LEAVES in the output buffer, from the four input buffers: the network of the block. -/
theorem out6_eq (x0 : Vec Ideal S4000x128 .f32) (x1 : Vec Ideal S3x128x128 .f32) (x2 : Vec Ideal S3x1x128 .f32) (x3 : Vec Ideal S128x128 .f32) :
    out6_4 (F := Ideal) x0 x1 x2 x3 = mlp x0 x1 x2 x3 := by
  unfold out6_4
  rw [View.canon_unit_zero hz2]
  simp only [View.ld_unit_zero (S := S4000x128) hz2, View.ld_unit_zero (S := S128x128) hz2]
  rw [pay6_1_eq, pay6_2_def, shapeCast_self]
  simp only [tile_eq]
  rw [ld_slab 0 0 rfl, ld_slab 1 1 rfl, ld_slab 2 2 rfl, ld_row 0 0 rfl, ld_row 1 1 rfl, ld_row 2 2 rfl]
  rfl

section
variable (V : (c : Dev nD) → (b : Ref sig .tc) → Buf (Elt Ideal) ((c : Thread nD τ).loc b))

/-- The printed index maps over the grid: the feature and output blocks move with the point along the rows, the
    other windows stay at block zero. -/
theorem idx_facts6 : ∀ t : Fin cfg6.N,
    win6_0.index t (0 : Fin 2) = t.val ∧ win6_0.index t (1 : Fin 2) = 0
    ∧ win6_1.index t (0 : Fin 3) = 0 ∧ win6_1.index t (1 : Fin 3) = 0 ∧ win6_1.index t (2 : Fin 3) = 0
    ∧ win6_2.index t (0 : Fin 3) = 0 ∧ win6_2.index t (1 : Fin 3) = 0 ∧ win6_2.index t (2 : Fin 3) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- The feature window's block at point t holds rows 4000·t … of the feature array. -/
theorem iblk6_0_apply (c : Dev nD) (t : Fin cfg6.N) (y : S4000x128.Idx) (i : S20000x128.Idx)
    (h0 : (i 0).val = t.val * 4000 + (y 0).val) (h1 : (i 1).val = (y 1).val) :
    (iblk6 V c 0 t : Vec Ideal S4000x128 .f32) y = (V c main_v36 : S20000x128.Idx → EReal) i := by
  obtain ⟨e0, e1, -⟩ := idx_facts6 t
  show V c main_v36 (((cfg6.win 0).blk t).view.emb y) = V c main_v36 i
  refine congrArg (V c main_v36) (funext fun a => Fin.ext ?_)
  match a with
  | ⟨0, _⟩ => show win6_0.index t (0 : Fin 2) * 4000 + 1 * (y 0).val = (i 0).val; rw [e0, h0]; omega
  | ⟨1, _⟩ => show win6_0.index t (1 : Fin 2) * 128 + 1 * (y 1).val = (i 1).val; rw [e1, h1]; omega

/-- The weight stack's window is the whole stack at every point. -/
theorem iblk6_1_eq (c : Dev nD) (t : Fin cfg6.N) :
    (iblk6 V c 1 t : Vec Ideal S3x128x128 .f32) = (V c main_v38 : S3x128x128.Idx → EReal) := by
  obtain ⟨-, -, e0, e1, e2, -⟩ := idx_facts6 t
  funext y
  show V c main_v38 (((cfg6.win 1).blk t).view.emb y) = V c main_v38 y
  refine congrArg (V c main_v38) (funext fun a => Fin.ext ?_)
  match a with
  | ⟨0, _⟩ => show win6_1.index t (0 : Fin 3) * 3 + 1 * (y 0).val = (y 0).val; rw [e0]; omega
  | ⟨1, _⟩ => show win6_1.index t (1 : Fin 3) * 128 + 1 * (y 1).val = (y 1).val; rw [e1]; omega
  | ⟨2, _⟩ => show win6_1.index t (2 : Fin 3) * 128 + 1 * (y 2).val = (y 2).val; rw [e2]; omega

/-- The bias stack's window is the whole stack at every point. -/
theorem iblk6_2_eq (c : Dev nD) (t : Fin cfg6.N) :
    (iblk6 V c 2 t : Vec Ideal S3x1x128 .f32) = (V c main_v43 : S3x1x128.Idx → EReal) := by
  obtain ⟨-, -, -, -, -, e0, e1, e2, -⟩ := idx_facts6 t
  funext y
  show V c main_v43 (((cfg6.win 2).blk t).view.emb y) = V c main_v43 y
  refine congrArg (V c main_v43) (funext fun a => Fin.ext ?_)
  match a with
  | ⟨0, _⟩ => show win6_2.index t (0 : Fin 3) * 3 + 1 * (y 0).val = (y 0).val; rw [e0]; omega
  | ⟨1, _⟩ => show win6_2.index t (1 : Fin 3) * 1 + 1 * (y 1).val = (y 1).val; rw [e1]; omega
  | ⟨2, _⟩ => show win6_2.index t (2 : Fin 3) * 128 + 1 * (y 2).val = (y 2).val; rw [e2]; omega

/-- The readout matrix's window is the whole matrix at every point. -/
theorem iblk6_3_eq (c : Dev nD) (t : Fin cfg6.N) :
    (iblk6 V c 3 t : Vec Ideal S128x128 .f32) = (V c main_v42 : S128x128.Idx → EReal) := by
  obtain ⟨-, -, -, -, -, -, -, -, e0, e1, -⟩ := idx_facts6 t
  funext y
  show V c main_v42 (((cfg6.win 3).blk t).view.emb y) = V c main_v42 y
  refine congrArg (V c main_v42) (funext fun a => Fin.ext ?_)
  match a with
  | ⟨0, _⟩ => show win6_3.index t (0 : Fin 2) * 128 + 1 * (y 0).val = (y 0).val; rw [e0]; omega
  | ⟨1, _⟩ => show win6_3.index t (1 : Fin 2) * 128 + 1 * (y 1).val = (y 1).val; rw [e1]; omega

/-- WHAT POINT t WRITES BACK is block t of the network of the four arrays as the region finds them. -/
theorem flushed6_eq (c : Dev nD) (t : Fin cfg6.N) :
    (dat6 (F := Ideal) V c).flushed 4 t = ((cfg6.win 4).blk t).view.read (Elt Ideal)
      (mlp (V c main_v36 : FVec Ideal S20000x128 .f32) (V c main_v38 : FVec Ideal S3x128x128 .f32)
        (V c main_v43 : FVec Ideal S3x1x128 .f32) (V c main_v42 : FVec Ideal S128x128 .f32)) := by
  show (cfg6.win 4).cut (grid6.coords t) ((dat6 V c).after 4 t) = _
  rw [after6_4, out6_eq, iblk6_1_eq, iblk6_2_eq, iblk6_3_eq]
  obtain ⟨-, -, -, -, -, -, -, -, -, -, e0, e1⟩ := idx_facts6 t
  funext y
  show mlp (iblk6 V c 0 t : Vec Ideal S4000x128 .f32) (V c main_v38 : FVec Ideal S3x128x128 .f32)
      (V c main_v43 : FVec Ideal S3x1x128 .f32) (V c main_v42 : FVec Ideal S128x128 .f32) y
    = mlp (V c main_v36 : FVec Ideal S20000x128 .f32) (V c main_v38 : FVec Ideal S3x128x128 .f32)
      (V c main_v43 : FVec Ideal S3x1x128 .f32) (V c main_v42 : FVec Ideal S128x128 .f32) (((cfg6.win 4).blk t).view.emb y)
  refine mlp_block _ _ _ _ _ (t.val * 4000) (fun y' i' h0' h1' => iblk6_0_apply V c t y' i' h0' h1') y _ ?_ ?_
  · show win6_4.index t (0 : Fin 2) * 4000 + 1 * (y 0).val = t.val * 4000 + (y 0).val
    rw [e0]; omega
  · show win6_4.index t (1 : Fin 2) * 128 + 1 * (y 1).val = (y 1).val
    rw [e1]; omega

/-- An index of the output array is in point t's block iff each coordinate is in the block's range on its axis. -/
theorem mem_blk6 (t : Fin cfg6.N) (i : S20000x128.Idx) :
    i ∈ ((cfg6.win 4).blk t).view.set ↔ ∀ a : Fin 2, win6_4.index t a * S4000x128.size a ≤ (i a).val ∧ (i a).val < win6_4.index t a * S4000x128.size a + S4000x128.size a := by
  show i ∈ ((View.whole main_v44).slice (win6_4.rect t)).set ↔ _
  rw [View.set_slice_whole, Rect.mem_set_unit]
  exact Iff.rfl

/-- Every row of the output array is in the block of the point r / 4000. -/
theorem cover6 (i : S20000x128.Idx) : ∃ t : Fin cfg6.N, (cfg6.win 4).flush t = true ∧ i ∈ ((cfg6.win 4).blk t).view.set := by
  have hN : cfg6.N = 5 := N_6
  have hi0 : (i 0).val < 20000 := (i 0).isLt
  have hi1 : (i 1).val < 128 := (i 1).isLt
  obtain ⟨t, ht⟩ : ∃ t : Fin cfg6.N, t.val = (i 0).val / 4000 := ⟨⟨(i 0).val / 4000, by rw [hN]; omega⟩, rfl⟩
  obtain ⟨-, -, -, -, -, -, -, -, -, -, e0, e1⟩ := idx_facts6 t
  refine ⟨t, flush6_4 t, ?_⟩
  rw [mem_blk6]
  intro a
  match a with
  | ⟨0, _⟩ =>
    show win6_4.index t (0 : Fin 2) * 4000 ≤ (i 0).val ∧ (i 0).val < win6_4.index t (0 : Fin 2) * 4000 + 4000
    rw [e0, ht]; omega
  | ⟨1, _⟩ =>
    show win6_4.index t (1 : Fin 2) * 128 ≤ (i 1).val ∧ (i 1).val < win6_4.index t (1 : Fin 2) * 128 + 128
    rw [e1]; omega

/-- THE OUTPUT ARRAY after the region: the network of the feature array, the weight stack, the bias stack and the
    readout matrix as the region finds them. -/
theorem final6_4 (c : Dev nD) :
    (dat6 (F := Ideal) V c).arrAt 4 cfg6.N
      = mlp (V c main_v36 : FVec Ideal S20000x128 .f32) (V c main_v38 : FVec Ideal S3x128x128 .f32)
          (V c main_v43 : FVec Ideal S3x1x128 .f32) (V c main_v42 : FVec Ideal S128x128 .f32) :=
  (dat6 (F := Ideal) V c).arrAt_eq_of_cover 4 _ (fun t _ => flushed6_eq V c t) cover6

end

end Cert.KernelIdeal.Mlp

end
-- ==== Proof.BilinearSpec.lean ====
/-
  The bilinear triplet layer on the extended reals, as a function of whole arrays.

  For a row r and an output column c, and for each of the eight basis slices j = 0, …, 7, put
    s j = ∑ q, sbf (r, q) · Wsbf (q, j)      (the projected basis coefficient of row r),
    p j = ∑ l, xg (r, l) · Wt (j, l, c)      (row r of xg against column c of matrix j of the stack Wt).
  The entry (r, c) of the layer is the sum of the eight products s j · p j accumulated from zero with slice 0
  first: ((((((((0 + s 0 · p 0) + s 1 · p 1) + s 2 · p 2) + s 3 · p 3) + s 4 · p 4) + s 5 · p 5) + s 6 · p 6) + s 7 · p 7).
  The entry reads only row r of xg and of sbf, so it can be computed from any arrays that hold that row.
  Last, one index form both programs use to cut column j out of the projected basis: a one-column slice of a matrix.
-/
import proofs.«109498_j75754633167331_1_alg».proof.Proof.Net

noncomputable section

open scoped BigOperators

namespace Cert.Net

open Idealize.ShloMosaic Idealize.ShloMosaic.ValueIdx

variable {M M' H Q N : Nat}

/-- The product s j · p j of slice j at row r and column c. -/
def bilinearTerm (xg : FVec Ideal ⟨2, ![M, H]⟩ .f32) (sbf : FVec Ideal ⟨2, ![M, Q]⟩ .f32)
    (Wsbf : FVec Ideal ⟨2, ![Q, 8]⟩ .f32) (Wt : FVec Ideal ⟨3, ![8, H, N]⟩ .f32) (r : Fin M) (c : Fin N) (j : Fin 8) : EReal :=
  (∑ q : Fin Q, sbf (ix2 r q) * Wsbf (ix2 q j)) * (∑ l : Fin H, xg (ix2 r l) * Wt (ix3 j l c))

/-- The bilinear layer: entry (r, c) is the eight slice products accumulated from zero, slice 0 first. -/
def bilinear (xg : FVec Ideal ⟨2, ![M, H]⟩ .f32) (sbf : FVec Ideal ⟨2, ![M, Q]⟩ .f32)
    (Wsbf : FVec Ideal ⟨2, ![Q, 8]⟩ .f32) (Wt : FVec Ideal ⟨3, ![8, H, N]⟩ .f32) : FVec Ideal ⟨2, ![M, N]⟩ .f32 :=
  fun i => 0 + bilinearTerm xg sbf Wsbf Wt (i 0) (i 1) 0 + bilinearTerm xg sbf Wsbf Wt (i 0) (i 1) 1
    + bilinearTerm xg sbf Wsbf Wt (i 0) (i 1) 2 + bilinearTerm xg sbf Wsbf Wt (i 0) (i 1) 3
    + bilinearTerm xg sbf Wsbf Wt (i 0) (i 1) 4 + bilinearTerm xg sbf Wsbf Wt (i 0) (i 1) 5
    + bilinearTerm xg sbf Wsbf Wt (i 0) (i 1) 6 + bilinearTerm xg sbf Wsbf Wt (i 0) (i 1) 7

/-- The layer at explicit coordinates. -/
theorem bilinear_ix2 (xg : FVec Ideal ⟨2, ![M, H]⟩ .f32) (sbf : FVec Ideal ⟨2, ![M, Q]⟩ .f32)
    (Wsbf : FVec Ideal ⟨2, ![Q, 8]⟩ .f32) (Wt : FVec Ideal ⟨3, ![8, H, N]⟩ .f32) (r : Fin M) (c : Fin N) :
    bilinear xg sbf Wsbf Wt (ix2 r c)
      = 0 + bilinearTerm xg sbf Wsbf Wt r c 0 + bilinearTerm xg sbf Wsbf Wt r c 1
        + bilinearTerm xg sbf Wsbf Wt r c 2 + bilinearTerm xg sbf Wsbf Wt r c 3
        + bilinearTerm xg sbf Wsbf Wt r c 4 + bilinearTerm xg sbf Wsbf Wt r c 5
        + bilinearTerm xg sbf Wsbf Wt r c 6 + bilinearTerm xg sbf Wsbf Wt r c 7 := rfl

/-- A slice product reads only row r of xg and of sbf: arrays of another height that hold the same row at r' give the
    same product. -/
theorem bilinearTerm_row (xg : FVec Ideal ⟨2, ![M, H]⟩ .f32) (xg' : FVec Ideal ⟨2, ![M', H]⟩ .f32)
    (sbf : FVec Ideal ⟨2, ![M, Q]⟩ .f32) (sbf' : FVec Ideal ⟨2, ![M', Q]⟩ .f32)
    (Wsbf : FVec Ideal ⟨2, ![Q, 8]⟩ .f32) (Wt : FVec Ideal ⟨3, ![8, H, N]⟩ .f32) (r : Fin M) (r' : Fin M') (c : Fin N)
    (hx : ∀ l : Fin H, xg (ix2 r l) = xg' (ix2 r' l)) (hs : ∀ q : Fin Q, sbf (ix2 r q) = sbf' (ix2 r' q)) (j : Fin 8) :
    bilinearTerm xg sbf Wsbf Wt r c j = bilinearTerm xg' sbf' Wsbf Wt r' c j := by
  unfold bilinearTerm
  congr 1
  · exact Finset.sum_congr rfl fun q _ => by rw [hs q]
  · exact Finset.sum_congr rfl fun l _ => by rw [hx l]

/-- So does the layer's entry. -/
theorem bilinear_row (xg : FVec Ideal ⟨2, ![M, H]⟩ .f32) (xg' : FVec Ideal ⟨2, ![M', H]⟩ .f32)
    (sbf : FVec Ideal ⟨2, ![M, Q]⟩ .f32) (sbf' : FVec Ideal ⟨2, ![M', Q]⟩ .f32)
    (Wsbf : FVec Ideal ⟨2, ![Q, 8]⟩ .f32) (Wt : FVec Ideal ⟨3, ![8, H, N]⟩ .f32) (r : Fin M) (r' : Fin M') (c : Fin N)
    (hx : ∀ l : Fin H, xg (ix2 r l) = xg' (ix2 r' l)) (hs : ∀ q : Fin Q, sbf (ix2 r q) = sbf' (ix2 r' q)) :
    bilinear xg sbf Wsbf Wt (ix2 r c) = bilinear xg' sbf' Wsbf Wt (ix2 r' c) := by
  rw [bilinear_ix2, bilinear_ix2]
  simp only [bilinearTerm_row xg xg' sbf sbf' Wsbf Wt r r' c hx hs]

/-- The one-column slice of a matrix at column offset o reads, at (r, 0), the matrix at (r, j) when j is the offset. -/
theorem colSlice_apply {α : Type} {a n : Nat} (x : (⟨2, ![a, n]⟩ : Shape).Idx → α) (o : Nat) (j : Fin n) (hj : j.val = o)
    (hs : (⟨2, ![a, n]⟩ : Shape).Slices ![0, o] ⟨2, ![a, 1]⟩) (r : Fin a) :
    extractStridedSlice ⟨2, ![a, 1]⟩ ![0, o] x hs (ix2 r (0 : Fin 1)) = x (ix2 r j) :=
  extractStridedSlice_apply _ x hs (ix2 r (0 : Fin 1)) (ix2 r j) (fun ax => by
    match ax with
    | ⟨0, _⟩ => exact (Nat.zero_add _).symm
    | ⟨1, _⟩ => show j.val = o + 0; omega)

end Cert.Net

end
-- ==== Proof.BilinearRef.lean ====
/-
  The host spelling of the bilinear triplet layer, read entry by entry.

  On the host the layer is a chain of eight additions onto the zero array. Addend j is the product of
    * column j of the projected basis sproj = sbf · Wsbf, cut out as a one-column slice and repeated along the rows, and
    * xg times the transpose of the matrix W_bil[:, j, :] (the middle-axis slice of the weight W_bil : [N, 8, H] at j,
      reshaped to [N, H], then transposed).
  At (r, c) addend j is therefore (∑ q, sbf (r, q) · Wsbf (q, j)) · (∑ l, xg (r, l) · W_bil (c, j, l)), and
  W_bil (c, j, l) is the entry (j, l, c) of the weight transposed by the permutation (1, 2, 0): the slice product of the
  layer on the transposed stack. The chain adds the eight addends onto zero in the order j = 0, …, 7, as the layer does.
-/
import proofs.«109498_j75754633167331_1_alg».proof.Proof.BilinearSpec
import proofs.«109498_j75754633167331_1_alg».proof.Proof.LibDotGeneralNN
import proofs.«109498_j75754633167331_1_alg».proof.Proof.Gen.ReferenceIdeal
import Idealize.ShloMosaic.Lib.Pipeline.Value
import Idealize.ShloMosaic.Lib.ValueLayout

noncomputable section

open scoped BigOperators

namespace Cert.BilinearRef

open Idealize.ShloMosaic Idealize.ShloMosaic.ValueIdx Cert.Net
open Cert.ReferenceIdeal Cert.ReferenceIdeal.Gen

variable {α : Type}

/-- A one-column matrix repeated along the rows reads, at (r, k), the column's entry of row r. -/
theorem colBroadcast_apply {a b : Nat} (v : (⟨2, ![a, 1]⟩ : Shape).Idx → α)
    (g : (⟨2, ![a, 1]⟩ : Shape).BroadcastsInDim ⟨2, ![a, b]⟩ (![0, 1] : Fin 2 → Fin 2)) (r : Fin a) (k : Fin b) :
    broadcastInDim ⟨2, ![a, b]⟩ (![0, 1] : Fin 2 → Fin 2) g v (ix2 r k) = v (ix2 r (0 : Fin 1)) :=
  broadcastInDim_apply (![0, 1] : Fin 2 → Fin 2) g v (ix2 r k) (ix2 r (0 : Fin 1)) (fun ax => by
    match ax with
    | ⟨0, _⟩ =>
      show r.val = if a = 1 then 0 else r.val
      split
      · have := r.isLt; omega
      · rfl
    | ⟨1, _⟩ => rfl)

/-- The middle-axis slice of a rank-3 array at offset o, reshaped to a matrix and transposed, reads at (l, i) the array
    at (i, j, l) when j is the offset. -/
theorem midSliceTransposed_apply {A n B : Nat} (W : (⟨3, ![A, n, B]⟩ : Shape).Idx → α) (o : Nat) (j : Fin n) (hj : j.val = o)
    (hs : (⟨3, ![A, n, B]⟩ : Shape).Slices ![0, o, 0] ⟨3, ![A, 1, B]⟩)
    (hc : (⟨3, ![A, 1, B]⟩ : Shape).ShapeCasts ⟨2, ![A, B]⟩)
    (ht : (⟨2, ![A, B]⟩ : Shape).Transposes [1, 0] ⟨2, ![B, A]⟩) (l : Fin B) (i : Fin A) :
    transpose ⟨2, ![B, A]⟩ [1, 0] (shapeCast ⟨2, ![A, B]⟩ (extractStridedSlice ⟨3, ![A, 1, B]⟩ ![0, o, 0] W hs) hc) ht (ix2 l i)
      = W (ix3 i j l) := by
  rw [transpose_ix2_apply _ ht l i]
  refine (shapeCast_apply _ hc (ix2 i l) (ix3 i (0 : Fin 1) l) ?_).trans ?_
  · rw [Shape.rowMajor_val_three, Shape.rowMajor_val_two]
    show (i.val * 1 + 0) * B + l.val = i.val * B + l.val
    rw [Nat.mul_one, Nat.add_zero]
  · exact extractStridedSlice_apply _ W hs (ix3 i (0 : Fin 1) l) (ix3 i j l) (fun ax => by
      match ax with
      | ⟨0, _⟩ => exact (Nat.zero_add _).symm
      | ⟨1, _⟩ => show j.val = o + 0; omega
      | ⟨2, _⟩ => exact (Nat.zero_add _).symm)

/-- A rank-3 array transposed by the permutation (1, 2, 0) reads, at (j, l, i), the array at (i, j, l). -/
theorem transpose_120_apply {A n B : Nat} (W : (⟨3, ![A, n, B]⟩ : Shape).Idx → α)
    (hT : (⟨3, ![A, n, B]⟩ : Shape).Transposes [1, 2, 0] ⟨3, ![n, B, A]⟩) (j : Fin n) (l : Fin B) (i : Fin A) :
    transpose ⟨3, ![n, B, A]⟩ [1, 2, 0] W hT (ix3 j l i) = W (ix3 i j l) :=
  transpose_apply _ W hT _ _ fun c => match c with | ⟨0, _⟩ => rfl | ⟨1, _⟩ => rfl | ⟨2, _⟩ => rfl

/-- Addend j of the host chain at (r, c) is the layer's slice product j on the transposed weight. -/
theorem hostAddend_apply (xg : FVec Ideal S500000x128 .f32) (sbf : FVec Ideal S500000x42 .f32) (Wsbf : FVec Ideal S42x8 .f32)
    (Wbil : FVec Ideal S128x8x128 .f32) (hT : S128x8x128.Transposes [1, 2, 0] ⟨3, ![8, 128, 128]⟩)
    (o : Nat) (j : Fin 8) (hj : j.val = o)
    (hs1 : S500000x8.Slices ![0, o] S500000x1) (hs2 : S128x8x128.Slices ![0, o, 0] S128x1x128)
    (r : Fin 500000) (c : Fin 128) :
    mulf (broadcastInDim S500000x128 ![0, 1] bcast_S500000x1_S500000x128_0_1
          (extractStridedSlice S500000x1 ![0, o] (Host.dotGeneral dot_S500000x42_S42x8_S500000x8_1_0_0_1_n_n none sbf Wsbf) hs1))
        (Host.dotGeneral dot_S500000x128_S128x128_S500000x128_1_0_0_1_n_n none xg
          (transpose S128x128 [1, 0] (shapeCast S128x128 (extractStridedSlice S128x1x128 ![0, o, 0] Wbil hs2) shapeCasts_S128x1x128_S128x128) transposes_S128x128_S128x128_1_0))
        (ix2 r c)
      = bilinearTerm xg sbf Wsbf (transpose ⟨3, ![8, 128, 128]⟩ [1, 2, 0] Wbil hT) r c j := by
  rw [mulf_apply]
  unfold bilinearTerm
  congr 1
  · rw [colBroadcast_apply _ _ r c, colSlice_apply _ o j hj hs1 r]
    simp only [Host.dotGeneral]
    exact Cert.LibDotGeneralNN.dotGeneral_apply _ rfl rfl rfl rfl rfl rfl none _ sbf Wsbf r j
  · simp only [Host.dotGeneral]
    rw [Cert.LibDotGeneralNN.dotGeneral_apply _ rfl rfl rfl rfl rfl rfl none _ xg _ r c]
    refine Finset.sum_congr rfl fun l _ => ?_
    rw [midSliceTransposed_apply Wbil o j hj hs2 _ _ l c, transpose_120_apply Wbil hT j l c]

/-- THE HOST CHAIN IS THE LAYER: the eight addends accumulated onto the zero array, slice 0 first, are the bilinear layer
    of xg, sbf, Wsbf and the weight transposed by (1, 2, 0). -/
theorem ref_bilinear (xg : FVec Ideal S500000x128 .f32) (sbf : FVec Ideal S500000x42 .f32) (Wsbf : FVec Ideal S42x8 .f32)
    (Wbil : FVec Ideal S128x8x128 .f32) (hT : S128x8x128.Transposes [1, 2, 0] ⟨3, ![8, 128, 128]⟩) :
    addf (addf (addf (addf (addf (addf (addf (addf (broadcastInDim S500000x128 ![] bcast_S_S500000x128 (constant (F := Ideal) S_ .f32 0x00000000#32))
      (mulf (broadcastInDim S500000x128 ![0, 1] bcast_S500000x1_S500000x128_0_1 (extractStridedSlice S500000x1 ![0, 0] (Host.dotGeneral dot_S500000x42_S42x8_S500000x8_1_0_0_1_n_n none sbf Wsbf) slices_S500000x8_S500000x1_0_0)) (Host.dotGeneral dot_S500000x128_S128x128_S500000x128_1_0_0_1_n_n none xg (transpose S128x128 [1, 0] (shapeCast S128x128 (extractStridedSlice S128x1x128 ![0, 0, 0] Wbil slices_S128x8x128_S128x1x128_0_0_0) shapeCasts_S128x1x128_S128x128) transposes_S128x128_S128x128_1_0))))
      (mulf (broadcastInDim S500000x128 ![0, 1] bcast_S500000x1_S500000x128_0_1 (extractStridedSlice S500000x1 ![0, 1] (Host.dotGeneral dot_S500000x42_S42x8_S500000x8_1_0_0_1_n_n none sbf Wsbf) slices_S500000x8_S500000x1_0_1)) (Host.dotGeneral dot_S500000x128_S128x128_S500000x128_1_0_0_1_n_n none xg (transpose S128x128 [1, 0] (shapeCast S128x128 (extractStridedSlice S128x1x128 ![0, 1, 0] Wbil slices_S128x8x128_S128x1x128_0_1_0) shapeCasts_S128x1x128_S128x128) transposes_S128x128_S128x128_1_0))))
      (mulf (broadcastInDim S500000x128 ![0, 1] bcast_S500000x1_S500000x128_0_1 (extractStridedSlice S500000x1 ![0, 2] (Host.dotGeneral dot_S500000x42_S42x8_S500000x8_1_0_0_1_n_n none sbf Wsbf) slices_S500000x8_S500000x1_0_2)) (Host.dotGeneral dot_S500000x128_S128x128_S500000x128_1_0_0_1_n_n none xg (transpose S128x128 [1, 0] (shapeCast S128x128 (extractStridedSlice S128x1x128 ![0, 2, 0] Wbil slices_S128x8x128_S128x1x128_0_2_0) shapeCasts_S128x1x128_S128x128) transposes_S128x128_S128x128_1_0))))
      (mulf (broadcastInDim S500000x128 ![0, 1] bcast_S500000x1_S500000x128_0_1 (extractStridedSlice S500000x1 ![0, 3] (Host.dotGeneral dot_S500000x42_S42x8_S500000x8_1_0_0_1_n_n none sbf Wsbf) slices_S500000x8_S500000x1_0_3)) (Host.dotGeneral dot_S500000x128_S128x128_S500000x128_1_0_0_1_n_n none xg (transpose S128x128 [1, 0] (shapeCast S128x128 (extractStridedSlice S128x1x128 ![0, 3, 0] Wbil slices_S128x8x128_S128x1x128_0_3_0) shapeCasts_S128x1x128_S128x128) transposes_S128x128_S128x128_1_0))))
      (mulf (broadcastInDim S500000x128 ![0, 1] bcast_S500000x1_S500000x128_0_1 (extractStridedSlice S500000x1 ![0, 4] (Host.dotGeneral dot_S500000x42_S42x8_S500000x8_1_0_0_1_n_n none sbf Wsbf) slices_S500000x8_S500000x1_0_4)) (Host.dotGeneral dot_S500000x128_S128x128_S500000x128_1_0_0_1_n_n none xg (transpose S128x128 [1, 0] (shapeCast S128x128 (extractStridedSlice S128x1x128 ![0, 4, 0] Wbil slices_S128x8x128_S128x1x128_0_4_0) shapeCasts_S128x1x128_S128x128) transposes_S128x128_S128x128_1_0))))
      (mulf (broadcastInDim S500000x128 ![0, 1] bcast_S500000x1_S500000x128_0_1 (extractStridedSlice S500000x1 ![0, 5] (Host.dotGeneral dot_S500000x42_S42x8_S500000x8_1_0_0_1_n_n none sbf Wsbf) slices_S500000x8_S500000x1_0_5)) (Host.dotGeneral dot_S500000x128_S128x128_S500000x128_1_0_0_1_n_n none xg (transpose S128x128 [1, 0] (shapeCast S128x128 (extractStridedSlice S128x1x128 ![0, 5, 0] Wbil slices_S128x8x128_S128x1x128_0_5_0) shapeCasts_S128x1x128_S128x128) transposes_S128x128_S128x128_1_0))))
      (mulf (broadcastInDim S500000x128 ![0, 1] bcast_S500000x1_S500000x128_0_1 (extractStridedSlice S500000x1 ![0, 6] (Host.dotGeneral dot_S500000x42_S42x8_S500000x8_1_0_0_1_n_n none sbf Wsbf) slices_S500000x8_S500000x1_0_6)) (Host.dotGeneral dot_S500000x128_S128x128_S500000x128_1_0_0_1_n_n none xg (transpose S128x128 [1, 0] (shapeCast S128x128 (extractStridedSlice S128x1x128 ![0, 6, 0] Wbil slices_S128x8x128_S128x1x128_0_6_0) shapeCasts_S128x1x128_S128x128) transposes_S128x128_S128x128_1_0))))
      (mulf (broadcastInDim S500000x128 ![0, 1] bcast_S500000x1_S500000x128_0_1 (extractStridedSlice S500000x1 ![0, 7] (Host.dotGeneral dot_S500000x42_S42x8_S500000x8_1_0_0_1_n_n none sbf Wsbf) slices_S500000x8_S500000x1_0_7)) (Host.dotGeneral dot_S500000x128_S128x128_S500000x128_1_0_0_1_n_n none xg (transpose S128x128 [1, 0] (shapeCast S128x128 (extractStridedSlice S128x1x128 ![0, 7, 0] Wbil slices_S128x8x128_S128x1x128_0_7_0) shapeCasts_S128x1x128_S128x128) transposes_S128x128_S128x128_1_0)))
      = bilinear xg sbf Wsbf (transpose ⟨3, ![8, 128, 128]⟩ [1, 2, 0] Wbil hT) := by
  funext i
  obtain ⟨r, c, rfl⟩ : ∃ (r : Fin 500000) (c : Fin 128), i = ix2 r c := ⟨i 0, i 1, eq_ix2 i⟩
  rw [bilinear_ix2]
  simp only [addf_apply]
  refine congrArg₂ (· + ·) ?_ (hostAddend_apply xg sbf Wsbf Wbil hT 7 7 rfl _ _ r c)
  refine congrArg₂ (· + ·) ?_ (hostAddend_apply xg sbf Wsbf Wbil hT 6 6 rfl _ _ r c)
  refine congrArg₂ (· + ·) ?_ (hostAddend_apply xg sbf Wsbf Wbil hT 5 5 rfl _ _ r c)
  refine congrArg₂ (· + ·) ?_ (hostAddend_apply xg sbf Wsbf Wbil hT 4 4 rfl _ _ r c)
  refine congrArg₂ (· + ·) ?_ (hostAddend_apply xg sbf Wsbf Wbil hT 3 3 rfl _ _ r c)
  refine congrArg₂ (· + ·) ?_ (hostAddend_apply xg sbf Wsbf Wbil hT 2 2 rfl _ _ r c)
  refine congrArg₂ (· + ·) ?_ (hostAddend_apply xg sbf Wsbf Wbil hT 1 1 rfl _ _ r c)
  refine congrArg₂ (· + ·) ?_ (hostAddend_apply xg sbf Wsbf Wbil hT 0 0 rfl _ _ r c)
  exact Ideal.ofBits_zero_f32

end Cert.BilinearRef

end
-- ==== Proof.LibColumnForms.lean ====
/-
  Four index forms of vector operations on the extended reals, at explicit coordinates and for any extents: the sum
  along the rows of a matrix started from zero, the cast of a vector to a one-column matrix, the broadcast of a
  one-column matrix along the rows, and the square root read at an index.
-/
import Idealize.ShloMosaic.Lib.ValueIdx
import Idealize.ShloMosaic.Lib.Pipeline.Value
import Idealize.ShloMosaic.PureOps.Ideal.Laws

noncomputable section

open scoped BigOperators

namespace Cert.Lib.ColumnForms

open Idealize.ShloMosaic Idealize.ShloMosaic.ValueIdx

variable {α : Type}

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- An [a] array cast to a column [a, 1] reads, at (r, z), the operand at r, whatever the unit coordinate z. -/
theorem shapeCast_a_a1_apply {a : Nat} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A column [a, 1] broadcast to [a, b] reads, at (p, c), the column's entry of row p. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector reads, at an index, the square root of the entry. -/
theorem sqrt_apply {s : Shape} {φ : FTy} (a : FVec Ideal s φ) (i : s.Idx) : sqrt a i = Ideal.sqrt (a i) := rfl

end Cert.Lib.ColumnForms

end
-- ==== Proof.BilinearKernel.lean ====
/-
  The bilinear triplet region of the kernel program, read back as the bilinear layer of the arrays it finds.

  The region's grid has 50 points; point t works on rows 10000·t … 10000·t + 9999. Its body loads the row tile of xg
  (10000 × 128) and of sbf (10000 × 42), the whole Wsbf (42 × 8) and, one 128 × 128 slab at a time, the whole stack Wt
  (8 × 128 × 128); it forms sproj = sbf · Wsbf once and adds onto a zero tile, for j = 0, …, 7 in this order,
  (column j of sproj, repeated along the row) · (xg · slab j). At the ideal instance the changes of float format are the
  identity and each matrix product is the textbook sum, so the stored tile at (p, q) is the bilinear layer of the four
  loaded blocks at (p, q). The layer's entry reads only its own row of xg and sbf, the row tiles are rows of the arrays
  and the two weight windows are the whole arrays at every point, so what point t writes back is its block of the layer
  of the whole arrays; the 50 blocks cover the 500000 rows, hence the output array ends holding that layer.
-/
import proofs.«109498_j75754633167331_1_alg».proof.Proof.Gen.KernelIdeal.Frame
import proofs.«109498_j75754633167331_1_alg».proof.Proof.BilinearSpec
import proofs.«109498_j75754633167331_1_alg».proof.Proof.LibMatmulNN
import proofs.«109498_j75754633167331_1_alg».proof.Proof.LibColumnForms
import Idealize.ShloMosaic.Lib.Pipeline.Value
import Idealize.ShloMosaic.Lib.ValueLayout

set_option maxRecDepth 16384

noncomputable section

open scoped BigOperators

namespace Cert.BilinearKernel

open Idealize.ShloMosaic Idealize.ShloMosaic.ValueIdx Idealize.ShloMosaic.TcCoe Idealize.SL.Sem
open Idealize.ShloMosaic.Pipeline (Dat)
open Cert.KernelIdeal Cert.KernelIdeal.Gen Cert.Net

/-! ## The body's stored tile, entry by entry -/

/-- Slab j of the stack, loaded through the rectangle at leading offset o = j, reads at (0, a, b) the stack at (j, a, b). -/
theorem slab_apply (x3 : FVec Ideal S8x128x128 .f32) (o : Nat) (j : Fin 8) (hj : j.val = o)
    (inb : ∀ a, (![o, 0, 0] : Fin 3 → Nat) a + S1x128x128.size a ≤ S8x128x128.size a) (a b : Fin 128) :
    View.ld (Val := Elt Ideal) (e' := .f32) x3 (Rect.unit (s := S8x128x128) ![o, 0, 0] S1x128x128.size inb) (ix3 (0 : Fin 1) a b) = x3 (ix3 j a b) := by
  show x3 _ = x3 _
  refine congrArg x3 (funext fun ax => Fin.ext ?_)
  match ax with
  | ⟨0, _⟩ => show o + 1 * 0 = j.val; omega
  | ⟨1, _⟩ => show 0 + 1 * a.val = a.val; omega
  | ⟨2, _⟩ => show 0 + 1 * b.val = b.val; omega

/-- The rounded row tile of xg reads the tile. -/
theorem xgTile_apply (x0 : FVec Ideal S10000x128 .f32) (i : S10000x128.Idx) : k3_pay2 (F := Ideal) x0 i = x0 i := by
  unfold k3_pay2
  show shapeCast S10000x128 x0 shapeCasts_S10000x128_S10000x128 i = x0 i
  rw [shapeCast_self]

/-- The projected basis of the tile: entry (p, j) is ∑ k, sbf (p, k) · Wsbf (k, j). -/
theorem sproj_apply (x1 : FVec Ideal S10000x42 .f32) (x2 : FVec Ideal S42x8 .f32) (p : Fin 10000) (j : Fin 8) :
    k3_pay3 (F := Ideal) x1 x2 (ix2 p j) = ∑ k : Fin 42, x1 (ix2 p k) * x2 (ix2 k j) := by
  unfold k3_pay3
  exact Cert.LibMatmulNN.matmul_zero_apply' dot_S10000x42_S42x8_S10000x8_1_0_0_1_n_n rfl rfl rfl rfl rfl rfl none
    (truncf .bf16 x1 bitsLt_bf16_f32) (truncf .bf16 x2 bitsLt_bf16_f32) p j

/-- Addend j of the body at (p, q): column j of the projected basis, repeated along the row, times the row tile of xg
    against slab j, is the layer's slice product j of the loaded blocks. -/
theorem tileAddend_apply (x0 : FVec Ideal S10000x128 .f32) (x1 : FVec Ideal S10000x42 .f32) (x2 : FVec Ideal S42x8 .f32)
    (x3 : FVec Ideal S8x128x128 .f32) (o : Nat) (j : Fin 8) (hj : j.val = o)
    (hs : S10000x8.Slices ![0, o] S10000x1)
    (inb : ∀ a, (![o, 0, 0] : Fin 3 → Nat) a + S1x128x128.size a ≤ S8x128x128.size a) (p : Fin 10000) (q : Fin 128) :
    mulf (broadcastTo S10000x128 (extractStridedSlice S10000x1 ![0, o] (k3_pay3 (F := Ideal) x1 x2) hs) broadcasts_S10000x1_S10000x128)
        (matmul dot_S10000x128_S128x128_S10000x128_1_0_0_1_n_n none (k3_pay2 (F := Ideal) x0)
          (truncf .bf16 (shapeCast S128x128 (View.ld (Val := Elt Ideal) (e' := .f32) x3 (Rect.unit (s := S8x128x128) ![o, 0, 0] S1x128x128.size inb))
            shapeCasts_S1x128x128_S128x128) bitsLt_bf16_f32)
          (constant (F := Ideal) S10000x128 .f32 0x00000000#32)) (ix2 p q)
      = bilinearTerm x0 x1 x2 x3 p q j := by
  rw [mulf_apply]
  unfold bilinearTerm
  congr 1
  · rw [Cert.Lib.ColumnForms.broadcastTo_a1_ab_apply _ _ p q, colSlice_apply _ o j hj hs p]
    exact sproj_apply x1 x2 p j
  · rw [Cert.LibMatmulNN.matmul_zero_apply' dot_S10000x128_S128x128_S10000x128_1_0_0_1_n_n rfl rfl rfl rfl rfl rfl none _ _ p q]
    refine Finset.sum_congr rfl fun l _ => ?_
    rw [xgTile_apply, truncf_apply, shapeCast_1ab_ab_apply _ shapeCasts_S1x128x128_S128x128 l q, slab_apply x3 o j hj inb l q]

theorem hz2 : (![0, 0] : Fin 2 → Nat) = fun _ => 0 := funext fun a => by fin_cases a <;> rfl

/-- THE STORED TILE: the body's one store, of the loaded blocks, is the bilinear layer of the blocks. -/
theorem tile_eq (x0 : FVec Ideal S10000x128 .f32) (x1 : FVec Ideal S10000x42 .f32) (x2 : FVec Ideal S42x8 .f32)
    (x3 : FVec Ideal S8x128x128 .f32) :
    out3_4 (F := Ideal) x0 x1 x2 x3 = bilinear (M := 10000) (H := 128) (Q := 42) (N := 128) x0 x1 x2 x3 := by
  unfold out3_4
  rw [View.canon_unit_zero hz2]
  simp only [View.ld_unit_zero (S := S10000x128) hz2, View.ld_unit_zero (S := S10000x42) hz2, View.ld_unit_zero (S := S42x8) hz2]
  funext y
  obtain ⟨p, q, rfl⟩ : ∃ (p : Fin 10000) (q : Fin 128), y = ix2 p q := ⟨y 0, y 1, eq_ix2 y⟩
  rw [bilinear_ix2]
  unfold k3_pay1 k3_pay5
  simp only [addf_apply]
  refine congrArg₂ (· + ·) ?_ (tileAddend_apply x0 x1 x2 x3 7 7 rfl _ _ p q)
  refine congrArg₂ (· + ·) ?_ (tileAddend_apply x0 x1 x2 x3 6 6 rfl _ _ p q)
  refine congrArg₂ (· + ·) ?_ (tileAddend_apply x0 x1 x2 x3 5 5 rfl _ _ p q)
  refine congrArg₂ (· + ·) ?_ (tileAddend_apply x0 x1 x2 x3 4 4 rfl _ _ p q)
  refine congrArg₂ (· + ·) ?_ (tileAddend_apply x0 x1 x2 x3 3 3 rfl _ _ p q)
  unfold k3_pay4
  simp only [addf_apply]
  refine congrArg₂ (· + ·) ?_ (tileAddend_apply x0 x1 x2 x3 2 2 rfl _ _ p q)
  refine congrArg₂ (· + ·) ?_ (tileAddend_apply x0 x1 x2 x3 1 1 rfl _ _ p q)
  refine congrArg₂ (· + ·) ?_ (tileAddend_apply x0 x1 x2 x3 0 0 rfl _ _ p q)
  exact Ideal.ofBits_zero_f32

/-! ## From the blocks to the array -/

variable (V : (c : Dev nD) → (b : Ref sig .tc) → Buf (Elt Ideal) ((c : Thread nD τ).loc b))

/-- The printed index maps, decided over the grid: the row-tile windows (xg, sbf and the output) sit at block row t and
    block column 0, the two weight windows at block 0 on every axis. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 3) = 0 ∧ win3_3.index t (1 : Fin 3) = 0 ∧ win3_3.index t (2 : Fin 3) = 0
    ∧ win3_4.index t (0 : Fin 2) = t.val ∧ win3_4.index t (1 : Fin 2) = 0 :=
  (by decide +kernel : ∀ t : Fin grid3.N, _)

/-- The xg window's block at point t is rows 10000·t … of the array: entry (p, l) is the array's (10000·t + p, l). -/
theorem xgBlock_apply (c : Dev nD) (t : Fin cfg3.N) (p : Fin 10000) (l : Fin 128) (r : Fin 500000)
    (hr : r.val = t.val * 10000 + p.val) :
    (iblk3 V c 0 t : FVec Ideal S10000x128 .f32) (ix2 p l) = (V c main_v23 : FVec Ideal S500000x128 .f32) (ix2 r l) := by
  obtain ⟨e0, e1, -⟩ := idx_facts t
  unfold iblk3
  rw [View.read_apply]
  show V c main_v23 _ = V c main_v23 _
  congr 1
  funext a
  apply Fin.ext
  match a with
  | ⟨0, _⟩ => show win3_0.index t (0 : Fin 2) * 10000 + 1 * p.val = r.val; rw [e0, hr]; omega
  | ⟨1, _⟩ => show win3_0.index t (1 : Fin 2) * 128 + 1 * l.val = l.val; rw [e1]; omega

/-- The sbf window's block at point t: entry (p, k) is the array's (10000·t + p, k). -/
theorem sbfBlock_apply (c : Dev nD) (t : Fin cfg3.N) (p : Fin 10000) (k : Fin 42) (r : Fin 500000)
    (hr : r.val = t.val * 10000 + p.val) :
    (iblk3 V c 1 t : FVec Ideal S10000x42 .f32) (ix2 p k) = (V c main_arg2 : FVec Ideal S500000x42 .f32) (ix2 r k) := by
  obtain ⟨-, -, e0, e1, -⟩ := idx_facts t
  unfold iblk3
  rw [View.read_apply]
  show V c main_arg2 _ = V c main_arg2 _
  congr 1
  funext a
  apply Fin.ext
  match a with
  | ⟨0, _⟩ => show win3_1.index t (0 : Fin 2) * 10000 + 1 * p.val = r.val; rw [e0, hr]; omega
  | ⟨1, _⟩ => show win3_1.index t (1 : Fin 2) * 42 + 1 * k.val = k.val; rw [e1]; omega

/-- The Wsbf window's block is the whole array at every point. -/
theorem wsbfBlock_eq (c : Dev nD) (t : Fin cfg3.N) :
    (iblk3 V c 2 t : FVec Ideal S42x8 .f32) = (V c main_arg7 : FVec Ideal S42x8 .f32) := by
  obtain ⟨-, -, -, -, e0, e1, -⟩ := idx_facts t
  funext y
  unfold iblk3
  rw [View.read_apply]
  show V c main_arg7 _ = V c main_arg7 _
  congr 1
  funext a
  apply Fin.ext
  match a with
  | ⟨0, _⟩ => show win3_2.index t (0 : Fin 2) * 42 + 1 * (y 0).val = (y 0).val; rw [e0]; omega
  | ⟨1, _⟩ => show win3_2.index t (1 : Fin 2) * 8 + 1 * (y 1).val = (y 1).val; rw [e1]; omega

/-- The weight stack's block is the whole array at every point. -/
theorem stackBlock_eq (c : Dev nD) (t : Fin cfg3.N) :
    (iblk3 V c 3 t : FVec Ideal S8x128x128 .f32) = (V c main_v24 : FVec Ideal S8x128x128 .f32) := by
  obtain ⟨-, -, -, -, -, -, e0, e1, e2, -⟩ := idx_facts t
  funext y
  unfold iblk3
  rw [View.read_apply]
  show V c main_v24 _ = V c main_v24 _
  congr 1
  funext a
  apply Fin.ext
  match a with
  | ⟨0, _⟩ => show win3_3.index t (0 : Fin 3) * 8 + 1 * (y 0).val = (y 0).val; rw [e0]; omega
  | ⟨1, _⟩ => show win3_3.index t (1 : Fin 3) * 128 + 1 * (y 1).val = (y 1).val; rw [e1]; omega
  | ⟨2, _⟩ => show win3_3.index t (2 : Fin 3) * 128 + 1 * (y 2).val = (y 2).val; rw [e2]; omega

/-- The layer of blocks that are rows 10000·n … of the arrays (with the weights whole) is, at a block index y, the layer
    of the arrays at the array index i under y: row 10000·n + y 0, column y 1. -/
theorem bilinear_block (A0 : FVec Ideal S500000x128 .f32) (A1 : FVec Ideal S500000x42 .f32) (A2 : FVec Ideal S42x8 .f32)
    (A3 : FVec Ideal S8x128x128 .f32) (B0 : FVec Ideal S10000x128 .f32) (B1 : FVec Ideal S10000x42 .f32)
    (B2 : FVec Ideal S42x8 .f32) (B3 : FVec Ideal S8x128x128 .f32) (n : Nat)
    (h0 : ∀ (p : Fin 10000) (l : Fin 128) (r : Fin 500000), r.val = n * 10000 + p.val → B0 (ix2 p l) = A0 (ix2 r l))
    (h1 : ∀ (p : Fin 10000) (k : Fin 42) (r : Fin 500000), r.val = n * 10000 + p.val → B1 (ix2 p k) = A1 (ix2 r k))
    (h2 : B2 = A2) (h3 : B3 = A3) (y : S10000x128.Idx) (i : S500000x128.Idx)
    (hi0 : (i 0).val = n * 10000 + (y 0).val) (hi1 : (i 1).val = (y 1).val) :
    bilinear (M := 10000) (H := 128) (Q := 42) (N := 128) B0 B1 B2 B3 y
      = bilinear (M := 500000) (H := 128) (Q := 42) (N := 128) A0 A1 A2 A3 i := by
  subst h2 h3
  obtain ⟨p, q, rfl⟩ : ∃ (p : Fin 10000) (q : Fin 128), y = ix2 p q := ⟨y 0, y 1, eq_ix2 y⟩
  obtain ⟨r, q', rfl⟩ : ∃ (r : Fin 500000) (q' : Fin 128), i = ix2 r q' := ⟨i 0, i 1, eq_ix2 i⟩
  obtain rfl : q' = q := Fin.ext hi1
  exact bilinear_row B0 A0 B1 A1 B2 B3 p r q' (fun l => h0 p l r hi0) (fun k => h1 p k r hi0)

/-- WHAT POINT t WRITES BACK is block t of the bilinear layer of the arrays as the region finds them. -/
theorem flushed_eq (c : Dev nD) (t : Fin cfg3.N) :
    (dat3 (F := Ideal) V c).flushed 4 t
      = ((cfg3.win 4).blk t).view.read (Elt Ideal)
          (bilinear (M := 500000) (H := 128) (Q := 42) (N := 128) (V c main_v23) (V c main_arg2) (V c main_arg7) (V c main_v24)) := by
  show (cfg3.win 4).cut (grid3.coords t) ((dat3 V c).after 4 t) = _
  rw [after3_4, tile_eq (iblk3 V c 0 t) (iblk3 V c 1 t) (iblk3 V c 2 t) (iblk3 V c 3 t)]
  obtain ⟨-, -, -, -, -, -, -, -, -, e0, e1⟩ := idx_facts t
  funext y
  exact bilinear_block (V c main_v23) (V c main_arg2) (V c main_arg7) (V c main_v24)
    (iblk3 V c 0 t) (iblk3 V c 1 t) (iblk3 V c 2 t) (iblk3 V c 3 t) t.val
    (fun p l r hr => xgBlock_apply V c t p l r hr) (fun p k r hr => sbfBlock_apply V c t p k r hr)
    (wsbfBlock_eq V c t) (stackBlock_eq V c t) ((cfg3.win 4).xinj (grid3.coords t) y) (((cfg3.win 4).blk t).view.emb y)
    (by show win3_4.index t (0 : Fin 2) * 10000 + 1 * (y 0).val = t.val * 10000 + (y 0).val; rw [e0]; omega)
    (by show win3_4.index t (1 : Fin 2) * 128 + 1 * (y 1).val = (y 1).val; rw [e1]; omega)

/-- An index of the output array is in point t's block iff each coordinate is in the block's range on its axis. -/
theorem mem_blk (t : Fin cfg3.N) (i : S500000x128.Idx) :
    i ∈ ((cfg3.win 4).blk t).view.set ↔ ∀ a : Fin 2, win3_4.index t a * S10000x128.size a ≤ (i a).val
      ∧ (i a).val < win3_4.index t a * S10000x128.size a + S10000x128.size a := by
  show i ∈ ((View.whole main_v25).slice (win3_4.rect t)).set ↔ _
  rw [View.set_slice_whole, Rect.mem_set_unit]
  exact Iff.rfl

/-- Every index of the output array is in the block of the point its row falls in: row r is in block r / 10000. -/
theorem covered (i : S500000x128.Idx) :
    ∃ t : Fin cfg3.N, (cfg3.win 4).flush t = true ∧ i ∈ ((cfg3.win 4).blk t).view.set := by
  have hN : cfg3.N = 50 := N_3
  have hi0 : (i 0).val < 500000 := (i 0).isLt
  have hi1 : (i 1).val < 128 := (i 1).isLt
  obtain ⟨t, ht⟩ : ∃ t : Fin cfg3.N, t.val = (i 0).val / 10000 := ⟨⟨(i 0).val / 10000, by rw [hN]; omega⟩, rfl⟩
  obtain ⟨-, -, -, -, -, -, -, -, -, e0, e1⟩ := idx_facts t
  refine ⟨t, flush3_4 t, ?_⟩
  rw [mem_blk]
  intro a
  match a with
  | ⟨0, _⟩ =>
    show win3_4.index t (0 : Fin 2) * 10000 ≤ (i 0).val ∧ (i 0).val < win3_4.index t (0 : Fin 2) * 10000 + 10000
    rw [e0, ht]; omega
  | ⟨1, _⟩ =>
    show win3_4.index t (1 : Fin 2) * 128 ≤ (i 1).val ∧ (i 1).val < win3_4.index t (1 : Fin 2) * 128 + 128
    rw [e1]; omega

/-- THE OUTPUT ARRAY after the region: the bilinear layer of the arrays the region finds. -/
theorem final3_4 (c : Dev nD) :
    (dat3 (F := Ideal) V c).arrAt 4 cfg3.N
      = bilinear (M := 500000) (H := 128) (Q := 42) (N := 128) (V c main_v23) (V c main_arg2) (V c main_arg7) (V c main_v24) :=
  (dat3 (F := Ideal) V c).arrAt_eq_of_cover 4 _ (fun t _ => flushed_eq V c t) covered

end Cert.BilinearKernel

end
-- ==== Proof.lean ====
/-
  The certificate's five claims.

  The kernel program computes a DimeNet-style interaction block and two output blocks in seven pipelined regions among
  host operations; the reference computes the same network with host operations only.  On the extended reals both are
  the same function of the nineteen argument arrays:

  * each region's output array is a whole-array function of the arrays it stages — the activated dense layer
    silu (x · W + b), the edge map silu (x · W_kj + b_kj) · (rbf · W_rbf), the gate (rbf · lin) · xe, the three-layer node
    network with its readout product, and the eight-slice bilinear triplet map accumulated from zero in slice order.
    A region tiles rows only and every matrix product contracts its whole inner axis at once, so a block of the output
    is the restriction of that function to the block's rows;
  * the reference spells each of those five functions with host matrix products, broadcast bias vectors and the logistic
    function written 1 / (1 + exp (−v)), which is the kernel's logistic function by definition;
  * the operations between them — slices and reshapes of the stacked parameters, the index arithmetic and the gather,
    the three segment sums, the final add and column sum — are the same operations in both programs.

  No law of arithmetic beyond reading each operation at an index is needed, and the finiteness precondition is not used.
  The frames of the two kernel programs are the generated frame certificates; the reference's frame is its run with the
  result dropped; the idealization rewrote nothing, so the preservation claim is trivial.
-/
import proofs.«109498_j75754633167331_1_alg».proof.Defs
import proofs.«109498_j75754633167331_1_alg».proof.Proof.Gen.Kernel
import proofs.«109498_j75754633167331_1_alg».proof.Proof.Gen.Kernel.Frame
import proofs.«109498_j75754633167331_1_alg».proof.Proof.Gen.KernelIdeal
import proofs.«109498_j75754633167331_1_alg».proof.Proof.Gen.KernelIdeal.Frame
import proofs.«109498_j75754633167331_1_alg».proof.Proof.Gen.ReferenceIdeal
import proofs.«109498_j75754633167331_1_alg».proof.Proof.Gen.ReferenceIdeal.Run
import proofs.«109498_j75754633167331_1_alg».proof.Proof.Gen.Pre_finite_inputs
import proofs.«109498_j75754633167331_1_alg».proof.Proof.KernelValue
import proofs.«109498_j75754633167331_1_alg».proof.Proof.RefValue
import proofs.«109498_j75754633167331_1_alg».proof.Proof.EdgeSpec
import proofs.«109498_j75754633167331_1_alg».proof.Proof.EdgeKernel
import proofs.«109498_j75754633167331_1_alg».proof.Proof.GateSpec
import proofs.«109498_j75754633167331_1_alg».proof.Proof.GateKernel
import proofs.«109498_j75754633167331_1_alg».proof.Proof.FinalLinearKernel
import proofs.«109498_j75754633167331_1_alg».proof.Proof.MlpSpec
import proofs.«109498_j75754633167331_1_alg».proof.Proof.MlpKernel
import proofs.«109498_j75754633167331_1_alg».proof.Proof.BilinearSpec
import proofs.«109498_j75754633167331_1_alg».proof.Proof.BilinearRef
import proofs.«109498_j75754633167331_1_alg».proof.Proof.BilinearKernel
import Idealize.ShloMosaic.Adequacy
import Idealize.ShloMosaic.Init

set_option maxRecDepth 16384

noncomputable section

namespace Cert.Proof

open Idealize.ShloMosaic Idealize.SL.Sem

/-- The five whole-array functions the regions compute. -/
def fns : Cert.KernelIdeal.Value.Fns where
  dense := Cert.Net.siluDense (M := 300000) (K := 128) (N := 128)
  edge := Cert.Net.edgeKj (M := 300000) (K := 128) (N := 128) (R := 6)
  gate := Cert.Net.gate (M := 300000) (K := 6) (N := 128)
  mlp := Cert.Net.mlp (M := 20000) (N := 128) (P := 128)
  bil := Cert.Net.bilinear (M := 500000) (H := 128) (Q := 42) (N := 128)

/-- Which region computes which of them. -/
theorem kernelFacts : Cert.KernelIdeal.Value.Facts fns where
  h07 := Cert.KernelIdeal.Edge.final0_7
  h08 := Cert.KernelIdeal.Edge.final0_8
  h13 := Cert.KernelIdeal.Gate.final1_3
  h24 := Cert.KernelIdeal.Mlp.final2_4
  h34 := Cert.BilinearKernel.final3_4
  h44 := Cert.KernelIdeal.FinalLinear.final4_4
  h53 := Cert.KernelIdeal.Gate.final5_3
  h64 := Cert.KernelIdeal.Mlp.final6_4

/-- The reference's spelling of each of them. -/
theorem refFacts : Cert.RefValue.RefFacts fns where
  r_gate := Cert.Net.ref_gate
  r_dense := fun x W b => Cert.Net.ref_siluDense300k x W b _
  r_edge := fun x rbf W b Wr => Cert.Net.ref_edgeKj x rbf W b Wr _
  r_mlp := fun g W3 b Wo => Cert.Net.ref_mlp g W3 b Wo _
  r_bil := fun xg sbf Ws Wb => Cert.BilinearRef.ref_bilinear xg sbf Ws Wb _

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The launch contents of the reference's arguments are those of the kernel's when the two memories agree on them. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.RefValue.argsOfV (StableHlo.launchContents m' c) = Cert.KernelIdeal.Value.argsOf m c := by
  obtain ⟨h0, h1, h2, h3, h4, h5, h6, h7, h8, h9, h10, h11, h12, h13, h14, h15, h16, h17, h18⟩ := h
  unfold Cert.RefValue.argsOfV Cert.KernelIdeal.Value.argsOf
  rw [Cert.KernelIdeal.Value.Args.mk.injEq]
  exact ⟨h0, h1, h2, h3, h4, h5, h6, h7, h8, h9, h10, h11, h12, h13, h14, h15, h16, h17, h18⟩

/-- Run from memories that agree on the arguments, both idealized programs end, with the same result array: the
    kernel's chain read back boundary by boundary, the reference's composed term rewritten function by function. -/
theorem algebraic : Cert.algebraic_KernelIdeal_ReferenceIdeal := by
  intro m ρ m' ρ' _ hagree
  refine ⟨fun c => Cert.KernelIdeal.Value.out fns (Cert.KernelIdeal.Value.argsOf m c),
    Cert.KernelIdeal.Value.run fns m ρ kernelFacts, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Value.val5_main_v231 (F := Ideal) (StableHlo.launchContents m' c)).symm.trans
    (Cert.RefValue.ref_out fns refFacts (StableHlo.launchContents m' c))).trans ?_
  exact congrArg (Cert.KernelIdeal.Value.out fns) (args_eq m m' c (hagree c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
